-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S2x256x256 : Shape := ⟨3, ![2, 256, 256]⟩
abbrev S2x256 : Shape := ⟨2, ![2, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part3 {F : FTy → Type} [FloatOps F] (main_arg13 : FVec F S2x256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256 .f32 := Host.absf main_arg13
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  main_v58

def fn_part2 {F : FTy → Type} [FloatOps F] (main_arg9 : FVec F S2x256x256 .f32) (main_arg10 : FVec F S2x256 .f32) (main_arg11 : FVec F S2x256 .f32) (main_arg12 : FVec F S2x256 .f32) (main_arg13 : FVec F S2x256 .f32) (main_v33 : IVec S_ 1) : IVec S_ 1 :=
  let main_v34 : FVec F S2x256x256 .f32 := Host.absf main_arg9
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg10
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg11
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256 .f32 := Host.absf main_arg12
  let main_cst_18 : FVec F S_ .f32 := constant S_ .f32 0x7F800000#32
  let main_v50 : FVec F S2x256 .f32 := broadcastInDim S2x256 ![] bcast_S_S2x256 main_cst_18
  fn_part3 (F := F) main_arg13 main_v48 main_v49 main_v50

def fn_part1 {F : FTy → Type} [FloatOps F] (main_arg6 : FVec F S2x256x256 .f32) (main_arg7 : FVec F S2x256x256 .f32) (main_arg8 : FVec F S2x256 .f32) (main_arg9 : FVec F S2x256x256 .f32) (main_arg10 : FVec F S2x256 .f32) (main_arg11 : FVec F S2x256 .f32) (main_arg12 : FVec F S2x256 .f32) (main_arg13 : FVec F S2x256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg6
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256x256 .f32 := Host.absf main_arg7
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg8
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x256 .f32) (main_arg1 : FVec F S100000x256 .f32) (main_arg2 : IVec S2x300000 32) (main_arg3 : IVec S2x300000 32) (main_arg4 : FVec F S2x256x256 .f32) (main_arg5 : FVec F S2x256 .f32) (main_arg6 : FVec F S2x256x256 .f32) (main_arg7 : FVec F S2x256x256 .f32) (main_arg8 : FVec F S2x256 .f32) (main_arg9 : FVec F S2x256x256 .f32) (main_arg10 : FVec F S2x256 .f32) (main_arg11 : FVec F S2x256 .f32) (main_arg12 : FVec F S2x256 .f32) (main_arg13 : FVec F S2x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S2x256x256 .f32 := Host.absf main_arg4
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg5
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg6 main_arg7 main_arg8 main_arg9 main_arg10 main_arg11 main_arg12 main_arg13 main_v13 main_v16
-- ==== Kernel.lean ====
abbrev S100000x256 : Shape := ⟨2, ![100000, 256]⟩
abbrev S2x300000 : Shape := ⟨2, ![2, 300000]⟩
abbrev S2x256x256 : Shape := ⟨3, ![2, 256, 256]⟩
abbrev S2x256 : Shape := ⟨2, ![2, 256]⟩
abbrev S_ : Shape := ⟨0, ![]⟩
abbrev S300000 : Shape := ⟨1, ![300000]⟩
abbrev S1x300000 : Shape := ⟨2, ![1, 300000]⟩
abbrev S100000 : Shape := ⟨1, ![100000]⟩
abbrev S300000x1 : Shape := ⟨2, ![300000, 1]⟩
abbrev S300000x256 : Shape := ⟨2, ![300000, 256]⟩
abbrev S100000x1 : Shape := ⟨2, ![100000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S2000 : Shape := ⟨1, ![2000]⟩
abbrev S2000x1 : Shape := ⟨2, ![2000, 1]⟩
abbrev S1x100000x256 : Shape := ⟨3, ![1, 100000, 256]⟩
abbrev S2x100000x256 : Shape := ⟨3, ![2, 100000, 256]⟩

abbrev nBuf : Space → Nat
  | .hbm => 177
  | .vmem => 44
  | .smem => 0
  | _ => 0

abbrev hbmTy0_0 (i : Nat) : BufTy := match i % 128 with
  | 0 => ⟨S100000x256, .f32⟩
  | 1 => ⟨S100000x256, .f32⟩
  | 2 => ⟨S2x300000, .i32⟩
  | 3 => ⟨S2x300000, .i32⟩
  | 4 => ⟨S2x256x256, .f32⟩
  | 5 => ⟨S2x256, .f32⟩
  | 6 => ⟨S2x256x256, .f32⟩
  | 7 => ⟨S2x256x256, .f32⟩
  | 8 => ⟨S2x256, .f32⟩
  | 9 => ⟨S2x256x256, .f32⟩
  | 10 => ⟨S2x256, .f32⟩
  | 11 => ⟨S2x256, .f32⟩
  | 12 => ⟨S2x256, .f32⟩
  | 13 => ⟨S2x256, .f32⟩
  | 14 => ⟨S_, .f32⟩
  | 15 => ⟨S300000, .f32⟩
  | 16 => ⟨S_, .f32⟩
  | 17 => ⟨S300000, .f32⟩
  | 18 => ⟨S1x300000, .i32⟩
  | 19 => ⟨S300000, .i32⟩
  | 20 => ⟨S_, .f32⟩
  | 21 => ⟨S100000, .f32⟩
  | 22 => ⟨S300000x1, .i32⟩
  | 23 => ⟨S100000, .f32⟩
  | 24 => ⟨S1x300000, .i32⟩
  | 25 => ⟨S300000, .i32⟩
  | 26 => ⟨S_, .f32⟩
  | 27 => ⟨S100000, .f32⟩
  | 28 => ⟨S300000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S1x300000, .i32⟩
  | 43 => ⟨S300000, .i32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000x256, .f32⟩
  | 53 => ⟨S1x300000, .i32⟩
  | 54 => ⟨S300000, .i32⟩
  | 55 => ⟨S_, .f32⟩
  | 56 => ⟨S100000x256, .f32⟩
  | 57 => ⟨S300000x1, .i32⟩
  | 58 => ⟨S100000x256, .f32⟩
  | 59 => ⟨S100000x1, .f32⟩
  | 60 => ⟨S100000x256, .f32⟩
  | 61 => ⟨S100000x256, .f32⟩
  | 62 => ⟨S1x300000, .i32⟩
  | 63 => ⟨S300000, .i32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x256, .f32⟩
  | 73 => ⟨S1x300000, .i32⟩
  | 74 => ⟨S300000, .i32⟩
  | 75 => ⟨S_, .f32⟩
  | 76 => ⟨S100000x256, .f32⟩
  | 77 => ⟨S300000x1, .i32⟩
  | 78 => ⟨S100000x256, .f32⟩
  | 79 => ⟨S100000x1, .f32⟩
  | 80 => ⟨S100000x256, .f32⟩
  | 81 => ⟨S100000x256, .f32⟩
  | 82 => ⟨S1x256x256, .f32⟩
  | 83 => ⟨S256x256, .f32⟩
  | 84 => ⟨S1x256, .f32⟩
  | 85 => ⟨S256, .f32⟩
  | 86 => ⟨S1x256x256, .f32⟩
  | 87 => ⟨S256x256, .f32⟩
  | 88 => ⟨S1x256, .f32⟩
  | 89 => ⟨S256, .f32⟩
  | 90 => ⟨S1x256, .f32⟩
  | 91 => ⟨S256, .f32⟩
  | 92 => ⟨S256x256, .f32⟩
  | 93 => ⟨S256x256, .f32⟩
  | 94 => ⟨S100000x256, .f32⟩
  | 95 => ⟨S1x256x256, .f32⟩
  | 96 => ⟨S256x256, .f32⟩
  | 97 => ⟨S1x256, .f32⟩
  | 98 => ⟨S256, .f32⟩
  | 99 => ⟨S1x256x256, .f32⟩
  | 100 => ⟨S256x256, .f32⟩
  | 101 => ⟨S1x256, .f32⟩
  | 102 => ⟨S256, .f32⟩
  | 103 => ⟨S1x256, .f32⟩
  | 104 => ⟨S256, .f32⟩
  | 105 => ⟨S256x256, .f32⟩
  | 106 => ⟨S256x256, .f32⟩
  | 107 => ⟨S100000x256, .f32⟩
  | 108 => ⟨S1x300000, .i32⟩
  | 109 => ⟨S300000, .i32⟩
  | 110 => ⟨S_, .i32⟩
  | 111 => ⟨S300000, .i32⟩
  | 112 => ⟨S300000, .i1⟩
  | 113 => ⟨S_, .i32⟩
  | 114 => ⟨S300000, .i32⟩
  | 115 => ⟨S300000, .i32⟩
  | 116 => ⟨S300000, .i32⟩
  | 117 => ⟨S300000x1, .i32⟩
  | 118 => ⟨S300000x256, .f32⟩
  | 119 => ⟨S1x300000, .i32⟩
  | 120 => ⟨S300000, .i32⟩
  | 121 => ⟨S_, .f32⟩
  | 122 => ⟨S100000x256, .f32⟩
  | 123 => ⟨S300000x1, .i32⟩
  | 124 => ⟨S100000x256, .f32⟩
  | 125 => ⟨S100000x1, .f32⟩
  | 126 => ⟨S100000x256, .f32⟩
  | 127 => ⟨S100000x256, .f32⟩
  | _ => ⟨S100000x256, .f32⟩

abbrev hbmTy0_1 (i : Nat) : BufTy := match i % 128 with
  | 0 => ⟨S1x300000, .i32⟩
  | 1 => ⟨S300000, .i32⟩
  | 2 => ⟨S_, .i32⟩
  | 3 => ⟨S300000, .i32⟩
  | 4 => ⟨S300000, .i1⟩
  | 5 => ⟨S_, .i32⟩
  | 6 => ⟨S300000, .i32⟩
  | 7 => ⟨S300000, .i32⟩
  | 8 => ⟨S300000, .i32⟩
  | 9 => ⟨S300000x1, .i32⟩
  | 10 => ⟨S300000x256, .f32⟩
  | 11 => ⟨S1x300000, .i32⟩
  | 12 => ⟨S300000, .i32⟩
  | 13 => ⟨S_, .f32⟩
  | 14 => ⟨S100000x256, .f32⟩
  | 15 => ⟨S300000x1, .i32⟩
  | 16 => ⟨S100000x256, .f32⟩
  | 17 => ⟨S100000x1, .f32⟩
  | 18 => ⟨S100000x256, .f32⟩
  | 19 => ⟨S100000x256, .f32⟩
  | 20 => ⟨S1x256x256, .f32⟩
  | 21 => ⟨S256x256, .f32⟩
  | 22 => ⟨S1x256, .f32⟩
  | 23 => ⟨S256, .f32⟩
  | 24 => ⟨S1x256x256, .f32⟩
  | 25 => ⟨S256x256, .f32⟩
  | 26 => ⟨S1x256, .f32⟩
  | 27 => ⟨S256, .f32⟩
  | 28 => ⟨S1x256, .f32⟩
  | 29 => ⟨S256, .f32⟩
  | 30 => ⟨S256x256, .f32⟩
  | 31 => ⟨S256x256, .f32⟩
  | 32 => ⟨S100000x256, .f32⟩
  | 33 => ⟨S1x256x256, .f32⟩
  | 34 => ⟨S256x256, .f32⟩
  | 35 => ⟨S1x256, .f32⟩
  | 36 => ⟨S256, .f32⟩
  | 37 => ⟨S1x256x256, .f32⟩
  | 38 => ⟨S256x256, .f32⟩
  | 39 => ⟨S1x256, .f32⟩
  | 40 => ⟨S256, .f32⟩
  | 41 => ⟨S1x256, .f32⟩
  | 42 => ⟨S256, .f32⟩
  | 43 => ⟨S256x256, .f32⟩
  | 44 => ⟨S256x256, .f32⟩
  | 45 => ⟨S100000x256, .f32⟩
  | 46 => ⟨S1x100000x256, .f32⟩
  | 47 => ⟨S1x100000x256, .f32⟩
  | 48 => ⟨S2x100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S256, .f32⟩
  | .local _ .vmem, ⟨17, _⟩ => ⟨S256x256, .f32⟩
  | .local _ .vmem, ⟨18, _⟩ => ⟨S256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S256, .f32⟩
  | .local _ .vmem, ⟨28, _⟩ => ⟨S256x256, .f32⟩
  | .local _ .vmem, ⟨29, _⟩ => ⟨S256, .f32⟩
  | .local _ .vmem, ⟨30, _⟩ => ⟨S256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S256x256, .f32⟩
  | .local _ .vmem, ⟨38, _⟩ => ⟨S256, .f32⟩
  | .local _ .vmem, ⟨39, _⟩ => ⟨S256x256, .f32⟩
  | .local _ .vmem, ⟨40, _⟩ => ⟨S256, .f32⟩
  | .local _ .vmem, ⟨41, _⟩ => ⟨S256, .f32⟩
  | .local _ .vmem, ⟨42, _⟩ => ⟨S2000x256, .f32⟩
  | .local _ .vmem, ⟨43, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_12 : Ref sig .tc := ⟨.hbm, 110, rfl⟩
abbrev main_v82 : Ref sig .tc := ⟨.hbm, 111, rfl⟩
abbrev main_v83 : Ref sig .tc := ⟨.hbm, 112, rfl⟩
abbrev main_c_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_15 : Ref sig .tc := ⟨.hbm, 130, rfl⟩
abbrev main_v99 : Ref sig .tc := ⟨.hbm, 131, rfl⟩
abbrev main_v100 : Ref sig .tc := ⟨.hbm, 132, rfl⟩
abbrev main_c_16 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S300000 : S_.BroadcastsInDim S300000 (![] : Fin 0 → Fin S300000.rank)
  slices_S2x300000_S1x300000_1_0 : S2x300000.Slices ![1, 0] S1x300000
  shapeCasts_S1x300000_S300000 : S1x300000.ShapeCasts S300000
  bcast_S_S100000 : S_.BroadcastsInDim S100000 (![] : Fin 0 → Fin S100000.rank)
  bcast_S300000_S300000x1_0 : S300000.BroadcastsInDim S300000x1 (![0] : Fin 1 → Fin S300000x1.rank)
  slices_S2x300000_S1x300000_0_0 : S2x300000.Slices ![0, 0] S1x300000
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  slices_S2x256x256_S1x256x256_1_0_0 : S2x256x256.Slices ![1, 0, 0] S1x256x256
  slices_S2x256_S1x256_1_0 : S2x256.Slices ![1, 0] S1x256
  bcast_S100000x256_S1x100000x256_1_2 : S100000x256.BroadcastsInDim S1x100000x256 (![1, 2] : Fin 2 → Fin S1x100000x256.rank)
  concatenates_S1x100000x256_S1x100000x256_S2x100000x256_d0 : Shape.Concatenates [S1x100000x256, S1x100000x256] S2x100000x256 0
  scatter_S100000_S300000x1_S300000_n_0_0_1_wf : ScatterDims.WF S100000 S300000x1 S300000 [] [0] [0] 1
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S100000x256.size a
  hwx0_7 : ∀ i : grid0.Coords, EltTy.bits .f32 = 32 ∨ (Rect.block (s := S100000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S100000x256.size a
  hwx1_7 : ∀ i : grid1.Coords, EltTy.bits .f32 = 32 ∨ (Rect.block (s := S100000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S100000x256.size a
  hwx2_7 : ∀ i : grid2.Coords, EltTy.bits .f32 = 32 ∨ (Rect.block (s := S100000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S100000x256.size a
  hwx3_7 : ∀ i : grid3.Coords, EltTy.bits .f32 = 32 ∨ (Rect.block (s := S100000x256) S2000x256.size (cc3_transform_7 i) (hinb3_7 i)).WholeWords (EltTy.packing .f32)

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v36) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v53) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v79) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v96) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v124) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v117) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v125) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v121) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v123) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v126) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v113) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v137) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v130) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v138) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v134) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v136) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v139) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S2x256x256 : Shape := ⟨3, ![2, 256, 256]⟩
abbrev S2x256 : Shape := ⟨2, ![2, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S1x100000x256 : Shape := ⟨3, ![1, 100000, 256]⟩
abbrev S2x100000x256 : Shape := ⟨3, ![2, 100000, 256]⟩

abbrev nBuf : Space → Nat
  | .hbm => 341
  | .vmem => 0
  | .smem => 0
  | _ => 0

abbrev hbmTy0_0 (i : Nat) : BufTy := match i % 128 with
  | 0 => ⟨S100000x256, .f32⟩
  | 1 => ⟨S100000x256, .f32⟩
  | 2 => ⟨S2x300000, .i32⟩
  | 3 => ⟨S2x300000, .i32⟩
  | 4 => ⟨S2x256x256, .f32⟩
  | 5 => ⟨S2x256, .f32⟩
  | 6 => ⟨S2x256x256, .f32⟩
  | 7 => ⟨S2x256x256, .f32⟩
  | 8 => ⟨S2x256, .f32⟩
  | 9 => ⟨S2x256x256, .f32⟩
  | 10 => ⟨S2x256, .f32⟩
  | 11 => ⟨S2x256, .f32⟩
  | 12 => ⟨S2x256, .f32⟩
  | 13 => ⟨S2x256, .f32⟩
  | 14 => ⟨S1x256x256, .f32⟩
  | 15 => ⟨S256x256, .f32⟩
  | 16 => ⟨S1x256, .f32⟩
  | 17 => ⟨S256, .f32⟩
  | 18 => ⟨S1x256x256, .f32⟩
  | 19 => ⟨S256x256, .f32⟩
  | 20 => ⟨S1x300000, .i32⟩
  | 21 => ⟨S300000, .i32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S300000x256, .f32⟩
  | 31 => ⟨S1x300000, .i32⟩
  | 32 => ⟨S300000, .i32⟩
  | 33 => ⟨S_, .f32⟩
  | 34 => ⟨S100000x256, .f32⟩
  | 35 => ⟨S300000x1, .i32⟩
  | 36 => ⟨S100000x256, .f32⟩
  | 37 => ⟨S_, .f32⟩
  | 38 => ⟨S300000, .f32⟩
  | 39 => ⟨S1x300000, .i32⟩
  | 40 => ⟨S300000, .i32⟩
  | 41 => ⟨S_, .f32⟩
  | 42 => ⟨S100000, .f32⟩
  | 43 => ⟨S300000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x256, .f32⟩
  | 50 => ⟨S100000x256, .f32⟩
  | 51 => ⟨S256x256, .f32⟩
  | 52 => ⟨S100000x256, .f32⟩
  | 53 => ⟨S1x256, .f32⟩
  | 54 => ⟨S100000x256, .f32⟩
  | 55 => ⟨S100000x256, .f32⟩
  | 56 => ⟨S256x256, .f32⟩
  | 57 => ⟨S100000x256, .f32⟩
  | 58 => ⟨S100000x256, .f32⟩
  | 59 => ⟨S1x256x256, .f32⟩
  | 60 => ⟨S256x256, .f32⟩
  | 61 => ⟨S1x256, .f32⟩
  | 62 => ⟨S256, .f32⟩
  | 63 => ⟨S1x256x256, .f32⟩
  | 64 => ⟨S256x256, .f32⟩
  | 65 => ⟨S1x300000, .i32⟩
  | 66 => ⟨S300000, .i32⟩
  | 67 => ⟨S_, .i32⟩
  | 68 => ⟨S300000, .i32⟩
  | 69 => ⟨S300000, .i1⟩
  | 70 => ⟨S_, .i32⟩
  | 71 => ⟨S300000, .i32⟩
  | 72 => ⟨S300000, .i32⟩
  | 73 => ⟨S300000, .i32⟩
  | 74 => ⟨S300000x1, .i32⟩
  | 75 => ⟨S300000x256, .f32⟩
  | 76 => ⟨S1x300000, .i32⟩
  | 77 => ⟨S300000, .i32⟩
  | 78 => ⟨S_, .f32⟩
  | 79 => ⟨S100000x256, .f32⟩
  | 80 => ⟨S300000x1, .i32⟩
  | 81 => ⟨S100000x256, .f32⟩
  | 82 => ⟨S_, .f32⟩
  | 83 => ⟨S300000, .f32⟩
  | 84 => ⟨S1x300000, .i32⟩
  | 85 => ⟨S300000, .i32⟩
  | 86 => ⟨S_, .f32⟩
  | 87 => ⟨S100000, .f32⟩
  | 88 => ⟨S300000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x256, .f32⟩
  | 95 => ⟨S100000x256, .f32⟩
  | 96 => ⟨S256x256, .f32⟩
  | 97 => ⟨S100000x256, .f32⟩
  | 98 => ⟨S1x256, .f32⟩
  | 99 => ⟨S100000x256, .f32⟩
  | 100 => ⟨S100000x256, .f32⟩
  | 101 => ⟨S256x256, .f32⟩
  | 102 => ⟨S100000x256, .f32⟩
  | 103 => ⟨S100000x256, .f32⟩
  | 104 => ⟨S1x256, .f32⟩
  | 105 => ⟨S256, .f32⟩
  | 106 => ⟨S1x256, .f32⟩
  | 107 => ⟨S256, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x256, .f32⟩
  | 115 => ⟨S100000x256, .f32⟩
  | 116 => ⟨S100000x256, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x256, .f32⟩
  | 124 => ⟨S100000x256, .f32⟩
  | 125 => ⟨S_, .f32⟩
  | 126 => ⟨S100000x1, .f32⟩
  | 127 => ⟨S100000x1, .f32⟩
  | _ => ⟨S100000x256, .f32⟩

abbrev hbmTy0_1 (i : Nat) : BufTy := match i % 128 with
  | 0 => ⟨S100000x1, .f32⟩
  | 1 => ⟨S100000x256, .f32⟩
  | 2 => ⟨S100000x256, .f32⟩
  | 3 => ⟨S1x256, .f32⟩
  | 4 => ⟨S100000x256, .f32⟩
  | 5 => ⟨S100000x256, .f32⟩
  | 6 => ⟨S1x256, .f32⟩
  | 7 => ⟨S100000x256, .f32⟩
  | 8 => ⟨S100000x256, .f32⟩
  | 9 => ⟨S_, .f32⟩
  | 10 => ⟨S100000x256, .f32⟩
  | 11 => ⟨S100000x256, .f32⟩
  | 12 => ⟨S1x256, .f32⟩
  | 13 => ⟨S256, .f32⟩
  | 14 => ⟨S1x256, .f32⟩
  | 15 => ⟨S256, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x256, .f32⟩
  | 23 => ⟨S100000x256, .f32⟩
  | 24 => ⟨S100000x256, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x256, .f32⟩
  | 32 => ⟨S100000x256, .f32⟩
  | 33 => ⟨S_, .f32⟩
  | 34 => ⟨S100000x1, .f32⟩
  | 35 => ⟨S100000x1, .f32⟩
  | 36 => ⟨S100000x1, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S1x256, .f32⟩
  | 43 => ⟨S100000x256, .f32⟩
  | 44 => ⟨S100000x256, .f32⟩
  | 45 => ⟨S_, .f32⟩
  | 46 => ⟨S100000x256, .f32⟩
  | 47 => ⟨S100000x256, .f32⟩
  | 48 => ⟨S1x256x256, .f32⟩
  | 49 => ⟨S256x256, .f32⟩
  | 50 => ⟨S1x256, .f32⟩
  | 51 => ⟨S256, .f32⟩
  | 52 => ⟨S1x256x256, .f32⟩
  | 53 => ⟨S256x256, .f32⟩
  | 54 => ⟨S1x300000, .i32⟩
  | 55 => ⟨S300000, .i32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x256, .f32⟩
  | 65 => ⟨S1x300000, .i32⟩
  | 66 => ⟨S300000, .i32⟩
  | 67 => ⟨S_, .f32⟩
  | 68 => ⟨S100000x256, .f32⟩
  | 69 => ⟨S300000x1, .i32⟩
  | 70 => ⟨S100000x256, .f32⟩
  | 71 => ⟨S_, .f32⟩
  | 72 => ⟨S300000, .f32⟩
  | 73 => ⟨S1x300000, .i32⟩
  | 74 => ⟨S300000, .i32⟩
  | 75 => ⟨S_, .f32⟩
  | 76 => ⟨S100000, .f32⟩
  | 77 => ⟨S300000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x256, .f32⟩
  | 84 => ⟨S100000x256, .f32⟩
  | 85 => ⟨S256x256, .f32⟩
  | 86 => ⟨S100000x256, .f32⟩
  | 87 => ⟨S1x256, .f32⟩
  | 88 => ⟨S100000x256, .f32⟩
  | 89 => ⟨S100000x256, .f32⟩
  | 90 => ⟨S256x256, .f32⟩
  | 91 => ⟨S100000x256, .f32⟩
  | 92 => ⟨S100000x256, .f32⟩
  | 93 => ⟨S1x256x256, .f32⟩
  | 94 => ⟨S256x256, .f32⟩
  | 95 => ⟨S1x256, .f32⟩
  | 96 => ⟨S256, .f32⟩
  | 97 => ⟨S1x256x256, .f32⟩
  | 98 => ⟨S256x256, .f32⟩
  | 99 => ⟨S1x300000, .i32⟩
  | 100 => ⟨S300000, .i32⟩
  | 101 => ⟨S_, .i32⟩
  | 102 => ⟨S300000, .i32⟩
  | 103 => ⟨S300000, .i1⟩
  | 104 => ⟨S_, .i32⟩
  | 105 => ⟨S300000, .i32⟩
  | 106 => ⟨S300000, .i32⟩
  | 107 => ⟨S300000, .i32⟩
  | 108 => ⟨S300000x1, .i32⟩
  | 109 => ⟨S300000x256, .f32⟩
  | 110 => ⟨S1x300000, .i32⟩
  | 111 => ⟨S300000, .i32⟩
  | 112 => ⟨S_, .f32⟩
  | 113 => ⟨S100000x256, .f32⟩
  | 114 => ⟨S300000x1, .i32⟩
  | 115 => ⟨S100000x256, .f32⟩
  | 116 => ⟨S_, .f32⟩
  | 117 => ⟨S300000, .f32⟩
  | 118 => ⟨S1x300000, .i32⟩
  | 119 => ⟨S300000, .i32⟩
  | 120 => ⟨S_, .f32⟩
  | 121 => ⟨S100000, .f32⟩
  | 122 => ⟨S300000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x256, .f32⟩

abbrev hbmTy0_2 (i : Nat) : BufTy := match i % 128 with
  | 0 => ⟨S100000x256, .f32⟩
  | 1 => ⟨S100000x256, .f32⟩
  | 2 => ⟨S256x256, .f32⟩
  | 3 => ⟨S100000x256, .f32⟩
  | 4 => ⟨S1x256, .f32⟩
  | 5 => ⟨S100000x256, .f32⟩
  | 6 => ⟨S100000x256, .f32⟩
  | 7 => ⟨S256x256, .f32⟩
  | 8 => ⟨S100000x256, .f32⟩
  | 9 => ⟨S100000x256, .f32⟩
  | 10 => ⟨S1x256, .f32⟩
  | 11 => ⟨S256, .f32⟩
  | 12 => ⟨S1x256, .f32⟩
  | 13 => ⟨S256, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x256, .f32⟩
  | 21 => ⟨S100000x256, .f32⟩
  | 22 => ⟨S100000x256, .f32⟩
  | 23 => ⟨S_, .f32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S100000x256, .f32⟩
  | 30 => ⟨S100000x256, .f32⟩
  | 31 => ⟨S_, .f32⟩
  | 32 => ⟨S100000x1, .f32⟩
  | 33 => ⟨S100000x1, .f32⟩
  | 34 => ⟨S100000x1, .f32⟩
  | 35 => ⟨S100000x256, .f32⟩
  | 36 => ⟨S100000x256, .f32⟩
  | 37 => ⟨S1x256, .f32⟩
  | 38 => ⟨S100000x256, .f32⟩
  | 39 => ⟨S100000x256, .f32⟩
  | 40 => ⟨S1x256, .f32⟩
  | 41 => ⟨S100000x256, .f32⟩
  | 42 => ⟨S100000x256, .f32⟩
  | 43 => ⟨S_, .f32⟩
  | 44 => ⟨S100000x256, .f32⟩
  | 45 => ⟨S100000x256, .f32⟩
  | 46 => ⟨S1x256, .f32⟩
  | 47 => ⟨S256, .f32⟩
  | 48 => ⟨S1x256, .f32⟩
  | 49 => ⟨S256, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x256, .f32⟩
  | 57 => ⟨S100000x256, .f32⟩
  | 58 => ⟨S100000x256, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x256, .f32⟩
  | 66 => ⟨S100000x256, .f32⟩
  | 67 => ⟨S_, .f32⟩
  | 68 => ⟨S100000x1, .f32⟩
  | 69 => ⟨S100000x1, .f32⟩
  | 70 => ⟨S100000x1, .f32⟩
  | 71 => ⟨S100000x256, .f32⟩
  | 72 => ⟨S100000x256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S1x100000x256, .f32⟩
  | 83 => ⟨S1x100000x256, .f32⟩
  | 84 => ⟨S2x100000x256, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_14 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call0_cst : Ref sig .tc := ⟨.hbm, 137, rfl⟩
abbrev main_call0_v0 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_15 : Ref sig .tc := ⟨.hbm, 144, rfl⟩
abbrev main_v111 : Ref sig .tc := ⟨.hbm, 145, rfl⟩
abbrev main_v112 : Ref sig .tc := ⟨.hbm, 146, rfl⟩
abbrev main_cst_16 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_17 : Ref sig .tc := ⟨.hbm, 153, rfl⟩
abbrev main_v118 : Ref sig .tc := ⟨.hbm, 154, rfl⟩
abbrev main_v119 : Ref sig .tc := ⟨.hbm, 155, rfl⟩
abbrev main_cst_18 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_19 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_call1_cst : Ref sig .tc := ⟨.hbm, 173, rfl⟩
abbrev main_call1_v0 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_c_20 : Ref sig .tc := ⟨.hbm, 184, rfl⟩
abbrev main_v144 : Ref sig .tc := ⟨.hbm, 185, rfl⟩
abbrev main_v145 : Ref sig .tc := ⟨.hbm, 186, rfl⟩
abbrev main_c_21 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_22 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_23 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_24 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_25 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_c_26 : Ref sig .tc := ⟨.hbm, 229, rfl⟩
abbrev main_v183 : Ref sig .tc := ⟨.hbm, 230, rfl⟩
abbrev main_v184 : Ref sig .tc := ⟨.hbm, 231, rfl⟩
abbrev main_c_27 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_28 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_29 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_30 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_31 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_cst_32 : Ref sig .tc := ⟨.hbm, 270, rfl⟩
abbrev main_v218 : Ref sig .tc := ⟨.hbm, 271, rfl⟩
abbrev main_v219 : Ref sig .tc := ⟨.hbm, 272, rfl⟩
abbrev main_cst_33 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_cst_34 : Ref sig .tc := ⟨.hbm, 279, rfl⟩
abbrev main_v225 : Ref sig .tc := ⟨.hbm, 280, rfl⟩
abbrev main_v226 : Ref sig .tc := ⟨.hbm, 281, rfl⟩
abbrev main_cst_35 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_36 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_call2_cst : Ref sig .tc := ⟨.hbm, 299, rfl⟩
abbrev main_call2_v0 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_cst_37 : Ref sig .tc := ⟨.hbm, 306, rfl⟩
abbrev main_v247 : Ref sig .tc := ⟨.hbm, 307, rfl⟩
abbrev main_v248 : Ref sig .tc := ⟨.hbm, 308, rfl⟩
abbrev main_cst_38 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_cst_39 : Ref sig .tc := ⟨.hbm, 315, rfl⟩
abbrev main_v254 : Ref sig .tc := ⟨.hbm, 316, rfl⟩
abbrev main_v255 : Ref sig .tc := ⟨.hbm, 317, rfl⟩
abbrev main_cst_40 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_cst_41 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_call3_cst : Ref sig .tc := ⟨.hbm, 335, rfl⟩
abbrev main_call3_v0 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩

abbrev nD : Nat := 1
abbrev τ : Topo := Topo.v7x

variable {F : FTy → Type} [FloatOps F]

class Facts₀ : Prop where
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  slices_S2x256x256_S1x256x256_1_0_0 : S2x256x256.Slices ![1, 0, 0] S1x256x256
  slices_S2x256_S1x256_1_0 : S2x256.Slices ![1, 0] S1x256
  bcast_S100000x256_S1x100000x256_1_2 : S100000x256.BroadcastsInDim S1x100000x256 (![1, 2] : Fin 2 → Fin S1x100000x256.rank)
  concatenates_S1x100000x256_S1x100000x256_S2x100000x256_d0 : Shape.Concatenates [S1x100000x256, S1x100000x256] S2x100000x256 0
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S100000x256_S256x256_S100000x256_1_0_0_1_n_n_wf : DotDims.WF S100000x256 S256x256 S100000x256 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run WITH ITS RESULT NAMED.

  @main is nine segments — five stretches of host operations and, between them, the four launches of the
  update kernel — and the contents of every buffer at each boundary are a fold from the launch memory: a host
  stretch applies its operations, a launch replaces each output array by what its fifty write-backs leave and
  keeps every other buffer.  Every weakly fair execution terminates, nothing faulting, with every unscoped
  buffer at the last boundary's contents; read at the result's buffer that is the program's value, and read
  at the argument buffers it is the launch memory (no stretch and no launch writes an argument).
-/
import proofs.«170343_j45792941310085_1_alg».proof.Proof.Gen.KernelIdeal.Frame

set_option maxRecDepth 16384

noncomputable section

namespace Cert.KernelIdeal.SageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result's buffer ends at the last
    boundary's contents there and every argument array as launched. -/
theorem run_result : θ_run defs (onTc (τ := τ) (main (F := F))) ⟨m, fun _ => 0, ρ⟩ (fun r => ∀ c : Dev nD,
      r.2.mem ((c.tc : Thread nD τ).loc main_v142) = W9 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v142 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.SageRun

end
-- ==== Proof.SageSpec.lean ====
/-
  The mathematics both programs compute, one output row at a time, on the extended reals.

  A row of the graph-convolution update is
      y_j   = Σ_k a_k · Wl(k, j)  +  Σ_k x_k · Wr(k, j)  +  bl_j          (two 256-term contractions and a bias)
      mu    = (Σ_j y_j) / 256,   d_j = y_j − mu,   var = (Σ_j d_j · d_j) / 256
      out_q = max (d_q · rsqrt (var + eps) · g_q + b_q, 0)
  where `a` is the row of neighbour means and `x` the row of the node's own features.  The two programs differ in
  two places only: the bias is added after the second contraction in one and before it in the other (addition on the
  extended reals is commutative and associative: `pre_assoc`), and the neighbour mean is the sum times the reciprocal
  of the clamped count in one and the sum divided by the clamped count in the other (`mul_recip_clamped`: the clamped
  count is at least one, hence not zero, and off zero the quotient IS the product with the inverse).
  The three float literals (256, eps, 0) are kept as the words both programs print; only 1 is evaluated.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx

/-- The literals, as the words the programs print: 256, the normalisation's epsilon, zero, one. -/
abbrev c256 : EReal := Ideal.ofBits .f32 0x43800000#32
abbrev ceps : EReal := Ideal.ofBits .f32 0x3727C5AC#32
abbrev czero : EReal := Ideal.ofBits .f32 0x00000000#32
abbrev cone : EReal := Ideal.ofBits .f32 0x3F800000#32

/-- A 256 × 256 weight matrix and a 256-vector, as arrays. -/
abbrev Mat : Type := (⟨2, ![256, 256]⟩ : Shape).Idx → EReal
abbrev Vec256 : Type := (⟨1, ![256]⟩ : Shape).Idx → EReal

/-- The row before normalisation, the bias added LAST: (a·Wl + x·Wr) + bl. -/
def preLast (a x : Fin 256 → EReal) (wl : Mat) (bl : Vec256) (wr : Mat) (j : Fin 256) : EReal :=
  ((∑ k : Fin 256, a k * wl (ix2 k j)) + ∑ k : Fin 256, x k * wr (ix2 k j)) + bl (ix1 j)

/-- The row before normalisation, the bias added BETWEEN the two contractions: (a·Wl + bl) + x·Wr. -/
def preMid (a x : Fin 256 → EReal) (wl : Mat) (bl : Vec256) (wr : Mat) (j : Fin 256) : EReal :=
  ((∑ k : Fin 256, a k * wl (ix2 k j)) + bl (ix1 j)) + ∑ k : Fin 256, x k * wr (ix2 k j)

/-- The two associations are one extended real: addition there is a commutative monoid, infinities included. -/
theorem pre_assoc (a x : Fin 256 → EReal) (wl : Mat) (bl : Vec256) (wr : Mat) (j : Fin 256) :
    preLast a x wl bl wr j = preMid a x wl bl wr j :=
  add_right_comm _ _ _

/-- The row's mean: the sum of its 256 entries over 256. -/
def rowMean (y : Fin 256 → EReal) : EReal := Ideal.div (∑ j : Fin 256, y j) c256

/-- Layer normalisation of one row, scale and shift, then the positive part, at entry `q`. -/
def lnRelu (y : Fin 256 → EReal) (g b : Vec256) (q : Fin 256) : EReal :=
  max ((y q - rowMean y)
        * Ideal.rsqrt (Ideal.div (∑ j : Fin 256, (y j - rowMean y) * (y j - rowMean y)) c256 + ceps)
        * g (ix1 q) + b (ix1 q)) czero

/-- The whole update over `n` rows, the bias added last: row `i 0` of the neighbour means `A` and of the
    features `X`, normalised, at column `i 1`. -/
def sageLast (n : Nat) (A X : (⟨2, ![n, 256]⟩ : Shape).Idx → EReal) (wl : Mat) (bl : Vec256) (wr : Mat) (g b : Vec256) :
    (⟨2, ![n, 256]⟩ : Shape).Idx → EReal :=
  fun i => lnRelu (preLast (fun k => A (ix2 (i 0) k)) (fun k => X (ix2 (i 0) k)) wl bl wr) g b (i 1)

/-- The same with the bias added between the contractions. -/
def sageMid (n : Nat) (A X : (⟨2, ![n, 256]⟩ : Shape).Idx → EReal) (wl : Mat) (bl : Vec256) (wr : Mat) (g b : Vec256) :
    (⟨2, ![n, 256]⟩ : Shape).Idx → EReal :=
  fun i => lnRelu (preMid (fun k => A (ix2 (i 0) k)) (fun k => X (ix2 (i 0) k)) wl bl wr) g b (i 1)

theorem sage_assoc (n : Nat) (A X : (⟨2, ![n, 256]⟩ : Shape).Idx → EReal) (wl : Mat) (bl : Vec256) (wr : Mat) (g b : Vec256) :
    sageLast n A X wl bl wr g b = sageMid n A X wl bl wr g b := by
  funext i
  unfold sageLast sageMid
  exact congrArg (fun y => lnRelu y g b (i 1)) (funext fun j => pre_assoc _ _ wl bl wr j)

/-- The word 0x3F800000 is the real number one. -/
theorem cone_eq : cone = 1 := by
  simp [Ideal.ofBits, Ideal.ieee, -EReal.coe_mul]
  norm_num

/-- A sum times the reciprocal of a count clamped below by one is the sum over that clamped count, for EVERY extended
    real sum and count: the clamped count is at least one, so it is not zero, and off zero the quotient is the product
    with the inverse — the reciprocal of the clamped count being one times that inverse. -/
theorem mul_recip_clamped (a s : EReal) : a * Ideal.div cone (max s cone) = Ideal.div a (max s cone) := by
  have h : max s cone ≠ 0 := by
    rw [cone_eq]
    exact (lt_of_lt_of_le zero_lt_one (le_max_right s 1)).ne'
  unfold Ideal.div
  rw [if_neg h, if_neg h, cone_eq, one_mul]

end Cert.SageSpec

end
-- ==== Proof.KernelModel.lean ====
/-
  The program's value as ONE function of its fourteen arguments, built from named pieces.

  For an edge list `ei` (row 0 the source nodes, row 1 the destinations) and a feature table `xs`:
    `agg xs ei`   row n is the sum of `xs`'s rows over the edges whose destination is n (gather, then scatter-add into zeros);
    `cnt ei`      entry n is the number of such edges (scatter-add of ones into zeros);
    `meanK a s`   row n of `a` times the reciprocal of `max (s n) 1`.
  One half of a layer is the update `SageSpec.sageLast` of the neighbour means and the node's own features with that
  layer's slice of each weight; a layer is two halves (items from users, users from items), and the program is two
  layers, the second reading the first's two results, stacked.  The gather and the scatter-adds are never opened: both
  programs apply them to the same operands.
  `half_eq_mid`: multiplying by the reciprocal of the clamped count is dividing by it, and the bias may be added
  before or after the second contraction — the two differences between the programs.
-/
import proofs.«170343_j45792941310085_1_alg».proof.KernelIdeal
import proofs.«170343_j45792941310085_1_alg».proof.Proof.Gen.KernelIdeal
import proofs.«170343_j45792941310085_1_alg».proof.Proof.SageSpec
import Idealize.ShloMosaic.Lib.ValueIdx
import Idealize.ShloMosaic.Lib.Pipeline.Value

noncomputable section

namespace Cert.KernelIdeal.Model

open Idealize.ShloMosaic Idealize.ShloMosaic.ValueIdx Cert.KernelIdeal Cert.KernelIdeal.Gen

/-- The array types: a feature table, an edge list, a stack of two weight matrices, a stack of two vectors,
    one weight matrix, one vector, a per-node scalar. -/
abbrev Feat : Type := FVec Ideal S100000x256 .f32
abbrev Edges : Type := (⟨S2x300000, .i32⟩ : BufTy).Contents (Elt Ideal)
abbrev W2 : Type := FVec Ideal S2x256x256 .f32
abbrev B2 : Type := FVec Ideal S2x256 .f32
abbrev W1 : Type := FVec Ideal S256x256 .f32
abbrev B1 : Type := FVec Ideal S256 .f32
abbrev PerNode : Type := FVec Ideal S100000 .f32

/-- The destination of each edge, as the scatter's index column. -/
def dstIdx (ei : Edges) : (⟨S300000x1, .i32⟩ : BufTy).Contents (Elt Ideal) :=
  broadcastInDim S300000x1 ![0] bcast_S300000_S300000x1_0
    (shapeCast _ (extractStridedSlice S1x300000 ![1, 0] ei slices_S2x300000_S1x300000_1_0) shapeCasts_S1x300000_S300000)

/-- The source of each edge, a negative one counted from the end, as the gather's index column. -/
def srcIdx (ei : Edges) : (⟨S300000x1, .i32⟩ : BufTy).Contents (Elt Ideal) :=
  broadcastInDim S300000x1 ![0] bcast_S300000_S300000x1_0
    (select
      (cmpi .slt (shapeCast _ (extractStridedSlice S1x300000 ![0, 0] ei slices_S2x300000_S1x300000_0_0) shapeCasts_S1x300000_S300000)
        (broadcastInDim S300000 ![] bcast_S_S300000 (constantI S_ 32 0#32)))
      (addi (shapeCast _ (extractStridedSlice S1x300000 ![0, 0] ei slices_S2x300000_S1x300000_0_0) shapeCasts_S1x300000_S300000)
        (broadcastInDim S300000 ![] bcast_S_S300000 (constantI S_ 32 100000#32)))
      (shapeCast _ (extractStridedSlice S1x300000 ![0, 0] ei slices_S2x300000_S1x300000_0_0) shapeCasts_S1x300000_S300000))

/-- The sum of the source rows over the edges into each node. -/
def agg (xs : Feat) (ei : Edges) : Feat :=
  Host.scatterAdd (F := Ideal) scatter_S100000x256_S300000x1_S300000x256_1_0_0_1
    (broadcastInDim S100000x256 ![] bcast_S_S100000x256 (constant (F := Ideal) S_ .f32 0x00000000#32))
    (dstIdx ei)
    (Host.gather gather_S100000x256_S300000x1_S300000x256_1_0_n_n_0_1_1256 xs (srcIdx ei))

/-- The number of edges into each node. -/
def cnt (ei : Edges) : PerNode :=
  Host.scatterAdd (F := Ideal) scatter_S100000_S300000x1_S300000_n_0_0_1
    (broadcastInDim S100000 ![] bcast_S_S100000 (constant (F := Ideal) S_ .f32 0x00000000#32))
    (dstIdx ei)
    (broadcastInDim S300000 ![] bcast_S_S300000 (constant (F := Ideal) S_ .f32 0x3F800000#32))

/-- One over the count clamped below by one. -/
def recip (s : PerNode) : PerNode :=
  Host.divf (F := Ideal) (broadcastInDim S100000 ![] bcast_S_S100000 (constant (F := Ideal) S_ .f32 0x3F800000#32))
    (maximumf (F := Ideal) s (broadcastInDim S100000 ![] bcast_S_S100000 (constant (F := Ideal) S_ .f32 0x3F800000#32)))

/-- Each row of the sums times its node's reciprocal count. -/
def meanK (a : Feat) (s : PerNode) : Feat :=
  mulf (F := Ideal) a
    (broadcastInDim S100000x256 ![0, 1] bcast_S100000x1_S100000x256_0_1
      (broadcastInDim S100000x1 ![0] bcast_S100000_S100000x1_0 (recip s)))

/-- The first (`wT0`, `v0`) and the second (`wT1`, `v1`) layer's weight matrix, transposed, and vector: slice 0 and
    slice 1 of a stack. -/
def wT0 (W : W2) : W1 :=
  transpose S256x256 [1, 0] (shapeCast _ (extractStridedSlice S1x256x256 ![0, 0, 0] W slices_S2x256x256_S1x256x256_0_0_0) shapeCasts_S1x256x256_S256x256) transposes_S256x256_S256x256_1_0
def wT1 (W : W2) : W1 :=
  transpose S256x256 [1, 0] (shapeCast _ (extractStridedSlice S1x256x256 ![1, 0, 0] W slices_S2x256x256_S1x256x256_1_0_0) shapeCasts_S1x256x256_S256x256) transposes_S256x256_S256x256_1_0
def v0 (B : B2) : B1 := shapeCast _ (extractStridedSlice S1x256 ![0, 0] B slices_S2x256_S1x256_0_0) shapeCasts_S1x256_S256
def v1 (B : B2) : B1 := shapeCast _ (extractStridedSlice S1x256 ![1, 0] B slices_S2x256_S1x256_1_0) shapeCasts_S1x256_S256

/-- One half of a layer: the nodes `xd` updated from their neighbours `xs` along `ei`. -/
def half (xs xd : Feat) (ei : Edges) (wl : W1) (bl : B1) (wr : W1) (g b : B1) : Feat :=
  Cert.SageSpec.sageLast 100000 (meanK (agg xs ei) (cnt ei)) xd wl bl wr g b

/-- The first layer's two results and the second's, from the arguments (users x0, items x1, the two edge lists
    x2 (users to items) and x3 (items to users), then the weights). -/
def item1 (x0 x1 : Feat) (x2 : Edges) (x4 : W2) (x5 : B2) (x6 : W2) (x12 x13 : B2) : Feat :=
  half x0 x1 x2 (wT0 x4) (v0 x5) (wT0 x6) (v0 x12) (v0 x13)
def user1 (x0 x1 : Feat) (x3 : Edges) (x7 : W2) (x8 : B2) (x9 : W2) (x10 x11 : B2) : Feat :=
  half x1 x0 x3 (wT0 x7) (v0 x8) (wT0 x9) (v0 x10) (v0 x11)
def item2 (u1 i1 : Feat) (x2 : Edges) (x4 : W2) (x5 : B2) (x6 : W2) (x12 x13 : B2) : Feat :=
  half u1 i1 x2 (wT1 x4) (v1 x5) (wT1 x6) (v1 x12) (v1 x13)
def user2 (u1 i1 : Feat) (x3 : Edges) (x7 : W2) (x8 : B2) (x9 : W2) (x10 x11 : B2) : Feat :=
  half i1 u1 x3 (wT1 x7) (v1 x8) (wT1 x9) (v1 x10) (v1 x11)

/-- The two second-layer results stacked: users first. -/
def stack (u i : Feat) : FVec Ideal S2x100000x256 .f32 :=
  concatenate S2x100000x256 0
    [⟨S1x100000x256, broadcastInDim S1x100000x256 ![1, 2] bcast_S100000x256_S1x100000x256_1_2 u⟩,
     ⟨S1x100000x256, broadcastInDim S1x100000x256 ![1, 2] bcast_S100000x256_S1x100000x256_1_2 i⟩]
    concatenates_S1x100000x256_S1x100000x256_S2x100000x256_d0

/-- The program's value. -/
def result (x0 x1 : Feat) (x2 x3 : Edges) (x4 : W2) (x5 : B2) (x6 x7 : W2) (x8 : B2) (x9 : W2) (x10 x11 x12 x13 : B2) :
    FVec Ideal S2x100000x256 .f32 :=
  stack
    (user2 (user1 x0 x1 x3 x7 x8 x9 x10 x11) (item1 x0 x1 x2 x4 x5 x6 x12 x13) x3 x7 x8 x9 x10 x11)
    (item2 (user1 x0 x1 x3 x7 x8 x9 x10 x11) (item1 x0 x1 x2 x4 x5 x6 x12 x13) x2 x4 x5 x6 x12 x13)

/-! ## The reciprocal mean read at an entry -/

/-- Entry (n, q) of the reciprocal mean: the sum there times one over the node's clamped count. -/
theorem meanK_apply (a : Feat) (s : PerNode) (j : S100000x256.Idx) :
    meanK a s j = a j * Ideal.div Cert.SageSpec.cone (max (s (ix1 (j 0))) Cert.SageSpec.cone) := by
  unfold meanK
  rw [mulf_apply]
  refine congrArg (a j * ·) ?_
  generalize hr : recip s = r
  have e2 : (broadcastInDim S100000x256 ![0, 1] bcast_S100000x1_S100000x256_0_1
      (broadcastInDim S100000x1 ![0] bcast_S100000_S100000x1_0 r)) j = r (ix1 (j 0)) := by
    refine (broadcastInDim_apply _ bcast_S100000x1_S100000x256_0_1 _ j (ix2 (j 0) (⟨0, Nat.one_pos⟩ : Fin 1)) (fun a => match a with
      | ⟨0, _⟩ => by show (j 0).val = if (100000 : Nat) = 1 then 0 else (j 0).val; rw [if_neg (by decide)]
      | ⟨1, _⟩ => by show 0 = if (1 : Nat) = 1 then 0 else (j 1).val; rw [if_pos rfl])).trans ?_
    exact broadcastInDim_apply _ bcast_S100000_S100000x1_0 r _ (ix1 (j 0)) (fun a => match a with
      | ⟨0, _⟩ => by show (j 0).val = if (100000 : Nat) = 1 then 0 else (j 0).val; rw [if_neg (by decide)])
  rw [e2, ← hr]
  unfold recip
  have e1 : ∀ i : S100000.Idx, (broadcastInDim S100000 ![] bcast_S_S100000 (constant (F := Ideal) S_ .f32 0x3F800000#32)) i
      = Cert.SageSpec.cone := fun i =>
    broadcastInDim_apply _ bcast_S_S100000 (constant (F := Ideal) S_ .f32 0x3F800000#32) i ix0 (fun a => a.elim0)
  show Ideal.div ((broadcastInDim S100000 ![] bcast_S_S100000 (constant (F := Ideal) S_ .f32 0x3F800000#32)) (ix1 (j 0)))
      (max (s (ix1 (j 0))) ((broadcastInDim S100000 ![] bcast_S_S100000 (constant (F := Ideal) S_ .f32 0x3F800000#32)) (ix1 (j 0)))) = _
  rw [e1]

/-- The reciprocal mean IS the quotient by the clamped count, entry by entry. -/
theorem meanK_eq_div (a : Feat) (s : PerNode) :
    meanK a s = fun j => Ideal.div (a j) (max (s (ix1 (j 0))) Cert.SageSpec.cone) :=
  funext fun j => (meanK_apply a s j).trans (Cert.SageSpec.mul_recip_clamped _ _)

/-- The update over the reciprocal means with the bias added last is the update over the quotients with the bias
    added between the contractions. -/
theorem half_eq_mid (a : Feat) (s : PerNode) (xd : Feat) (wl : W1) (bl : B1) (wr : W1) (g b : B1) :
    Cert.SageSpec.sageLast 100000 (meanK a s) xd wl bl wr g b
      = Cert.SageSpec.sageMid 100000 (fun j => Ideal.div (a j) (max (s (ix1 (j 0))) Cert.SageSpec.cone)) xd wl bl wr g b := by
  rw [Cert.SageSpec.sage_assoc, meanK_eq_div]

end Cert.KernelIdeal.Model

end
-- ==== Proof.KernelWalk.lean ====
/-
  The buffers the four launches read, and the result buffer, traced back through the run's boundaries.

  Between launches the buffer contents are a fold: a stretch of host operations rewrites the buffers it writes and
  keeps every other; a launch rewrites its output array and keeps every other.  So a buffer's contents at a
  boundary are found by walking back to the stretch that wrote it: steps "this stretch does not write it" (the
  reference is none of the stretch's result references), "this launch does not write it", then the stretch's own
  operations applied to what IT read, walked back in turn.  An argument array is written by nothing, so it is the
  launch memory at every boundary.  The first layer's two results (I1: items, U1: users) and the second's (I2, U2)
  are the launches' output arrays; everything else is the model's named pieces of the arguments and of I1, U1.
-/
import proofs.«170343_j45792941310085_1_alg».proof.Proof.Gen.KernelIdeal.Frame
import proofs.«170343_j45792941310085_1_alg».proof.Proof.KernelModel

set_option maxRecDepth 16384

noncomputable section

namespace Cert.KernelIdeal.SageWalk

open Idealize.ShloMosaic Idealize.ShloMosaic.TcCoe Idealize.ShloMosaic.Tactic
open Idealize.SL Idealize.SL.Sem
open Idealize.ShloMosaic.StableHlo
open Idealize.ShloMosaic.Pipeline (Dat Cfg Window)
open Cert.KernelIdeal Cert.KernelIdeal.Gen Cert.KernelIdeal.Model

variable (m : (ℓ : Loc nD τ sig) → Buf (Elt Ideal) ℓ) (ρ : Dev nD → PrngReg) (c : Dev nD)

/-- A stretch of host operations keeps a buffer that is none of its result references. -/
macro "keep_host " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The argument arrays are the launch memory at every boundary where something reads them -/

theorem a1_0 : W1 m ρ c (Proc.devRef .tc main_arg0) = m ((c.tc : Thread nD τ).loc main_arg0) := by keep_host hostOps0 main_arg0
theorem a1_1 : W1 m ρ c (Proc.devRef .tc main_arg1) = m ((c.tc : Thread nD τ).loc main_arg1) := by keep_host hostOps0 main_arg1
theorem a1_2 : W1 m ρ c (Proc.devRef .tc main_arg2) = m ((c.tc : Thread nD τ).loc main_arg2) := by keep_host hostOps0 main_arg2
theorem a1_3 : W1 m ρ c (Proc.devRef .tc main_arg3) = m ((c.tc : Thread nD τ).loc main_arg3) := by keep_host hostOps0 main_arg3
theorem a1_4 : W1 m ρ c (Proc.devRef .tc main_arg4) = m ((c.tc : Thread nD τ).loc main_arg4) := by keep_host hostOps0 main_arg4
theorem a1_5 : W1 m ρ c (Proc.devRef .tc main_arg5) = m ((c.tc : Thread nD τ).loc main_arg5) := by keep_host hostOps0 main_arg5
theorem a1_6 : W1 m ρ c (Proc.devRef .tc main_arg6) = m ((c.tc : Thread nD τ).loc main_arg6) := by keep_host hostOps0 main_arg6
theorem a1_7 : W1 m ρ c (Proc.devRef .tc main_arg7) = m ((c.tc : Thread nD τ).loc main_arg7) := by keep_host hostOps0 main_arg7
theorem a1_8 : W1 m ρ c (Proc.devRef .tc main_arg8) = m ((c.tc : Thread nD τ).loc main_arg8) := by keep_host hostOps0 main_arg8
theorem a1_9 : W1 m ρ c (Proc.devRef .tc main_arg9) = m ((c.tc : Thread nD τ).loc main_arg9) := by keep_host hostOps0 main_arg9
theorem a1_10 : W1 m ρ c (Proc.devRef .tc main_arg10) = m ((c.tc : Thread nD τ).loc main_arg10) := by keep_host hostOps0 main_arg10
theorem a1_11 : W1 m ρ c (Proc.devRef .tc main_arg11) = m ((c.tc : Thread nD τ).loc main_arg11) := by keep_host hostOps0 main_arg11
theorem a1_12 : W1 m ρ c (Proc.devRef .tc main_arg12) = m ((c.tc : Thread nD τ).loc main_arg12) := by keep_host hostOps0 main_arg12
theorem a1_13 : W1 m ρ c (Proc.devRef .tc main_arg13) = m ((c.tc : Thread nD τ).loc main_arg13) := by keep_host hostOps0 main_arg13

theorem a2_0 : W2 m ρ c (Proc.devRef .tc main_arg0) = m ((c.tc : Thread nD τ).loc main_arg0) := (W2_of_ne m ρ c main_arg0 (by decide)).trans (a1_0 m ρ c)
theorem a2_2 : W2 m ρ c (Proc.devRef .tc main_arg2) = m ((c.tc : Thread nD τ).loc main_arg2) := (W2_of_ne m ρ c main_arg2 (by decide)).trans (a1_2 m ρ c)
theorem a2_3 : W2 m ρ c (Proc.devRef .tc main_arg3) = m ((c.tc : Thread nD τ).loc main_arg3) := (W2_of_ne m ρ c main_arg3 (by decide)).trans (a1_3 m ρ c)
theorem a2_4 : W2 m ρ c (Proc.devRef .tc main_arg4) = m ((c.tc : Thread nD τ).loc main_arg4) := (W2_of_ne m ρ c main_arg4 (by decide)).trans (a1_4 m ρ c)
theorem a2_5 : W2 m ρ c (Proc.devRef .tc main_arg5) = m ((c.tc : Thread nD τ).loc main_arg5) := (W2_of_ne m ρ c main_arg5 (by decide)).trans (a1_5 m ρ c)
theorem a2_6 : W2 m ρ c (Proc.devRef .tc main_arg6) = m ((c.tc : Thread nD τ).loc main_arg6) := (W2_of_ne m ρ c main_arg6 (by decide)).trans (a1_6 m ρ c)
theorem a2_7 : W2 m ρ c (Proc.devRef .tc main_arg7) = m ((c.tc : Thread nD τ).loc main_arg7) := (W2_of_ne m ρ c main_arg7 (by decide)).trans (a1_7 m ρ c)
theorem a2_8 : W2 m ρ c (Proc.devRef .tc main_arg8) = m ((c.tc : Thread nD τ).loc main_arg8) := (W2_of_ne m ρ c main_arg8 (by decide)).trans (a1_8 m ρ c)
theorem a2_9 : W2 m ρ c (Proc.devRef .tc main_arg9) = m ((c.tc : Thread nD τ).loc main_arg9) := (W2_of_ne m ρ c main_arg9 (by decide)).trans (a1_9 m ρ c)
theorem a2_10 : W2 m ρ c (Proc.devRef .tc main_arg10) = m ((c.tc : Thread nD τ).loc main_arg10) := (W2_of_ne m ρ c main_arg10 (by decide)).trans (a1_10 m ρ c)
theorem a2_11 : W2 m ρ c (Proc.devRef .tc main_arg11) = m ((c.tc : Thread nD τ).loc main_arg11) := (W2_of_ne m ρ c main_arg11 (by decide)).trans (a1_11 m ρ c)
theorem a2_12 : W2 m ρ c (Proc.devRef .tc main_arg12) = m ((c.tc : Thread nD τ).loc main_arg12) := (W2_of_ne m ρ c main_arg12 (by decide)).trans (a1_12 m ρ c)
theorem a2_13 : W2 m ρ c (Proc.devRef .tc main_arg13) = m ((c.tc : Thread nD τ).loc main_arg13) := (W2_of_ne m ρ c main_arg13 (by decide)).trans (a1_13 m ρ c)

theorem a3_0 : W3 m ρ c (Proc.devRef .tc main_arg0) = m ((c.tc : Thread nD τ).loc main_arg0) :=
  Eq.trans (b := W2 m ρ c (Proc.devRef .tc main_arg0)) (by keep_host hostOps1 main_arg0) (a2_0 m ρ c)
theorem a3_2 : W3 m ρ c (Proc.devRef .tc main_arg2) = m ((c.tc : Thread nD τ).loc main_arg2) :=
  Eq.trans (b := W2 m ρ c (Proc.devRef .tc main_arg2)) (by keep_host hostOps1 main_arg2) (a2_2 m ρ c)
theorem a3_3 : W3 m ρ c (Proc.devRef .tc main_arg3) = m ((c.tc : Thread nD τ).loc main_arg3) :=
  Eq.trans (b := W2 m ρ c (Proc.devRef .tc main_arg3)) (by keep_host hostOps1 main_arg3) (a2_3 m ρ c)
theorem a3_4 : W3 m ρ c (Proc.devRef .tc main_arg4) = m ((c.tc : Thread nD τ).loc main_arg4) :=
  Eq.trans (b := W2 m ρ c (Proc.devRef .tc main_arg4)) (by keep_host hostOps1 main_arg4) (a2_4 m ρ c)
theorem a3_5 : W3 m ρ c (Proc.devRef .tc main_arg5) = m ((c.tc : Thread nD τ).loc main_arg5) :=
  Eq.trans (b := W2 m ρ c (Proc.devRef .tc main_arg5)) (by keep_host hostOps1 main_arg5) (a2_5 m ρ c)
theorem a3_6 : W3 m ρ c (Proc.devRef .tc main_arg6) = m ((c.tc : Thread nD τ).loc main_arg6) :=
  Eq.trans (b := W2 m ρ c (Proc.devRef .tc main_arg6)) (by keep_host hostOps1 main_arg6) (a2_6 m ρ c)
theorem a3_7 : W3 m ρ c (Proc.devRef .tc main_arg7) = m ((c.tc : Thread nD τ).loc main_arg7) :=
  Eq.trans (b := W2 m ρ c (Proc.devRef .tc main_arg7)) (by keep_host hostOps1 main_arg7) (a2_7 m ρ c)
theorem a3_8 : W3 m ρ c (Proc.devRef .tc main_arg8) = m ((c.tc : Thread nD τ).loc main_arg8) :=
  Eq.trans (b := W2 m ρ c (Proc.devRef .tc main_arg8)) (by keep_host hostOps1 main_arg8) (a2_8 m ρ c)
theorem a3_9 : W3 m ρ c (Proc.devRef .tc main_arg9) = m ((c.tc : Thread nD τ).loc main_arg9) :=
  Eq.trans (b := W2 m ρ c (Proc.devRef .tc main_arg9)) (by keep_host hostOps1 main_arg9) (a2_9 m ρ c)
theorem a3_10 : W3 m ρ c (Proc.devRef .tc main_arg10) = m ((c.tc : Thread nD τ).loc main_arg10) :=
  Eq.trans (b := W2 m ρ c (Proc.devRef .tc main_arg10)) (by keep_host hostOps1 main_arg10) (a2_10 m ρ c)
theorem a3_11 : W3 m ρ c (Proc.devRef .tc main_arg11) = m ((c.tc : Thread nD τ).loc main_arg11) :=
  Eq.trans (b := W2 m ρ c (Proc.devRef .tc main_arg11)) (by keep_host hostOps1 main_arg11) (a2_11 m ρ c)
theorem a3_12 : W3 m ρ c (Proc.devRef .tc main_arg12) = m ((c.tc : Thread nD τ).loc main_arg12) :=
  Eq.trans (b := W2 m ρ c (Proc.devRef .tc main_arg12)) (by keep_host hostOps1 main_arg12) (a2_12 m ρ c)
theorem a3_13 : W3 m ρ c (Proc.devRef .tc main_arg13) = m ((c.tc : Thread nD τ).loc main_arg13) :=
  Eq.trans (b := W2 m ρ c (Proc.devRef .tc main_arg13)) (by keep_host hostOps1 main_arg13) (a2_13 m ρ c)

theorem a4_2 : W4 m ρ c (Proc.devRef .tc main_arg2) = m ((c.tc : Thread nD τ).loc main_arg2) := (W4_of_ne m ρ c main_arg2 (by decide)).trans (a3_2 m ρ c)
theorem a4_3 : W4 m ρ c (Proc.devRef .tc main_arg3) = m ((c.tc : Thread nD τ).loc main_arg3) := (W4_of_ne m ρ c main_arg3 (by decide)).trans (a3_3 m ρ c)
theorem a4_4 : W4 m ρ c (Proc.devRef .tc main_arg4) = m ((c.tc : Thread nD τ).loc main_arg4) := (W4_of_ne m ρ c main_arg4 (by decide)).trans (a3_4 m ρ c)
theorem a4_5 : W4 m ρ c (Proc.devRef .tc main_arg5) = m ((c.tc : Thread nD τ).loc main_arg5) := (W4_of_ne m ρ c main_arg5 (by decide)).trans (a3_5 m ρ c)
theorem a4_6 : W4 m ρ c (Proc.devRef .tc main_arg6) = m ((c.tc : Thread nD τ).loc main_arg6) := (W4_of_ne m ρ c main_arg6 (by decide)).trans (a3_6 m ρ c)
theorem a4_7 : W4 m ρ c (Proc.devRef .tc main_arg7) = m ((c.tc : Thread nD τ).loc main_arg7) := (W4_of_ne m ρ c main_arg7 (by decide)).trans (a3_7 m ρ c)
theorem a4_8 : W4 m ρ c (Proc.devRef .tc main_arg8) = m ((c.tc : Thread nD τ).loc main_arg8) := (W4_of_ne m ρ c main_arg8 (by decide)).trans (a3_8 m ρ c)
theorem a4_9 : W4 m ρ c (Proc.devRef .tc main_arg9) = m ((c.tc : Thread nD τ).loc main_arg9) := (W4_of_ne m ρ c main_arg9 (by decide)).trans (a3_9 m ρ c)
theorem a4_10 : W4 m ρ c (Proc.devRef .tc main_arg10) = m ((c.tc : Thread nD τ).loc main_arg10) := (W4_of_ne m ρ c main_arg10 (by decide)).trans (a3_10 m ρ c)
theorem a4_11 : W4 m ρ c (Proc.devRef .tc main_arg11) = m ((c.tc : Thread nD τ).loc main_arg11) := (W4_of_ne m ρ c main_arg11 (by decide)).trans (a3_11 m ρ c)
theorem a4_12 : W4 m ρ c (Proc.devRef .tc main_arg12) = m ((c.tc : Thread nD τ).loc main_arg12) := (W4_of_ne m ρ c main_arg12 (by decide)).trans (a3_12 m ρ c)
theorem a4_13 : W4 m ρ c (Proc.devRef .tc main_arg13) = m ((c.tc : Thread nD τ).loc main_arg13) := (W4_of_ne m ρ c main_arg13 (by decide)).trans (a3_13 m ρ c)

theorem a5_7 : W5 m ρ c (Proc.devRef .tc main_arg7) = m ((c.tc : Thread nD τ).loc main_arg7) :=
  Eq.trans (b := W4 m ρ c (Proc.devRef .tc main_arg7)) (by keep_host hostOps2 main_arg7) (a4_7 m ρ c)
theorem a5_8 : W5 m ρ c (Proc.devRef .tc main_arg8) = m ((c.tc : Thread nD τ).loc main_arg8) :=
  Eq.trans (b := W4 m ρ c (Proc.devRef .tc main_arg8)) (by keep_host hostOps2 main_arg8) (a4_8 m ρ c)
theorem a5_9 : W5 m ρ c (Proc.devRef .tc main_arg9) = m ((c.tc : Thread nD τ).loc main_arg9) :=
  Eq.trans (b := W4 m ρ c (Proc.devRef .tc main_arg9)) (by keep_host hostOps2 main_arg9) (a4_9 m ρ c)
theorem a5_10 : W5 m ρ c (Proc.devRef .tc main_arg10) = m ((c.tc : Thread nD τ).loc main_arg10) :=
  Eq.trans (b := W4 m ρ c (Proc.devRef .tc main_arg10)) (by keep_host hostOps2 main_arg10) (a4_10 m ρ c)
theorem a5_11 : W5 m ρ c (Proc.devRef .tc main_arg11) = m ((c.tc : Thread nD τ).loc main_arg11) :=
  Eq.trans (b := W4 m ρ c (Proc.devRef .tc main_arg11)) (by keep_host hostOps2 main_arg11) (a4_11 m ρ c)
theorem a6_7 : W6 m ρ c (Proc.devRef .tc main_arg7) = m ((c.tc : Thread nD τ).loc main_arg7) := (W6_of_ne m ρ c main_arg7 (by decide)).trans (a5_7 m ρ c)
theorem a6_8 : W6 m ρ c (Proc.devRef .tc main_arg8) = m ((c.tc : Thread nD τ).loc main_arg8) := (W6_of_ne m ρ c main_arg8 (by decide)).trans (a5_8 m ρ c)
theorem a6_9 : W6 m ρ c (Proc.devRef .tc main_arg9) = m ((c.tc : Thread nD τ).loc main_arg9) := (W6_of_ne m ρ c main_arg9 (by decide)).trans (a5_9 m ρ c)
theorem a6_10 : W6 m ρ c (Proc.devRef .tc main_arg10) = m ((c.tc : Thread nD τ).loc main_arg10) := (W6_of_ne m ρ c main_arg10 (by decide)).trans (a5_10 m ρ c)
theorem a6_11 : W6 m ρ c (Proc.devRef .tc main_arg11) = m ((c.tc : Thread nD τ).loc main_arg11) := (W6_of_ne m ρ c main_arg11 (by decide)).trans (a5_11 m ρ c)

/-! ## The first layer's inputs: the stretch before the first launch -/

/-- The reciprocal clamped counts, computed once before the first launch and read again before the third. -/
theorem r1_15 : W1 m ρ c (Proc.devRef .tc main_v15) = recip (cnt (m ((c.tc : Thread nD τ).loc main_arg2))) := by
  show StableHlo.after hostOps0 (W0 m ρ c) (Proc.devRef .tc main_v15) = _
  after_results_simp
  rfl
theorem r1_19 : W1 m ρ c (Proc.devRef .tc main_v19) = recip (cnt (m ((c.tc : Thread nD τ).loc main_arg3))) := by
  show StableHlo.after hostOps0 (W0 m ρ c) (Proc.devRef .tc main_v19) = _
  after_results_simp
  rfl
theorem r4_15 : W4 m ρ c (Proc.devRef .tc main_v15) = recip (cnt (m ((c.tc : Thread nD τ).loc main_arg2))) :=
  (W4_of_ne m ρ c main_v15 (by decide)).trans (Eq.trans (b := W2 m ρ c (Proc.devRef .tc main_v15)) (by keep_host hostOps1 main_v15)
    ((W2_of_ne m ρ c main_v15 (by decide)).trans (r1_15 m ρ c)))
theorem r4_19 : W4 m ρ c (Proc.devRef .tc main_v19) = recip (cnt (m ((c.tc : Thread nD τ).loc main_arg3))) :=
  (W4_of_ne m ρ c main_v19 (by decide)).trans (Eq.trans (b := W2 m ρ c (Proc.devRef .tc main_v19)) (by keep_host hostOps1 main_v19)
    ((W2_of_ne m ρ c main_v19 (by decide)).trans (r1_19 m ρ c)))

/-- The first launch (items from users) reads: the users' rows averaged over each item's in-edges, the items'
    own rows, and the first layer's slices of the user-to-item weights and of the items' scale and shift. -/
theorem in0_0 : V1 m ρ c main_v36 = meanK (agg (m ((c.tc : Thread nD τ).loc main_arg0)) (m ((c.tc : Thread nD τ).loc main_arg2))) (cnt (m ((c.tc : Thread nD τ).loc main_arg2))) := by
  show StableHlo.after hostOps0 (W0 m ρ c) (Proc.devRef .tc main_v36) = _
  after_results_simp
  rfl
theorem in0_1 : V1 m ρ c main_arg1 = m ((c.tc : Thread nD τ).loc main_arg1) := a1_1 m ρ c
theorem in0_2 : V1 m ρ c main_v64 = wT0 (m ((c.tc : Thread nD τ).loc main_arg4)) := by
  show StableHlo.after hostOps0 (W0 m ρ c) (Proc.devRef .tc main_v64) = _
  after_results_simp
  rfl
theorem in0_3 : V1 m ρ c main_v57 = v0 (m ((c.tc : Thread nD τ).loc main_arg5)) := by
  show StableHlo.after hostOps0 (W0 m ρ c) (Proc.devRef .tc main_v57) = _
  after_results_simp
  rfl
theorem in0_4 : V1 m ρ c main_v65 = wT0 (m ((c.tc : Thread nD τ).loc main_arg6)) := by
  show StableHlo.after hostOps0 (W0 m ρ c) (Proc.devRef .tc main_v65) = _
  after_results_simp
  rfl
theorem in0_5 : V1 m ρ c main_v61 = v0 (m ((c.tc : Thread nD τ).loc main_arg12)) := by
  show StableHlo.after hostOps0 (W0 m ρ c) (Proc.devRef .tc main_v61) = _
  after_results_simp
  rfl
theorem in0_6 : V1 m ρ c main_v63 = v0 (m ((c.tc : Thread nD τ).loc main_arg13)) := by
  show StableHlo.after hostOps0 (W0 m ρ c) (Proc.devRef .tc main_v63) = _
  after_results_simp
  rfl

/-- The second launch (users from items) reads: the items' rows averaged over each user's in-edges — computed before
    the first launch, which does not write it —, the users' own rows, and the first layer's slices of the item-to-user weights. -/
theorem s1_53 : W1 m ρ c (Proc.devRef .tc main_v53) = meanK (agg (m ((c.tc : Thread nD τ).loc main_arg1)) (m ((c.tc : Thread nD τ).loc main_arg3))) (cnt (m ((c.tc : Thread nD τ).loc main_arg3))) := by
  show StableHlo.after hostOps0 (W0 m ρ c) (Proc.devRef .tc main_v53) = _
  after_results_simp
  rfl
theorem in1_0 : V3 m ρ c main_v53 = meanK (agg (m ((c.tc : Thread nD τ).loc main_arg1)) (m ((c.tc : Thread nD τ).loc main_arg3))) (cnt (m ((c.tc : Thread nD τ).loc main_arg3))) :=
  Eq.trans (b := W2 m ρ c (Proc.devRef .tc main_v53)) (by keep_host hostOps1 main_v53)
    ((W2_of_ne m ρ c main_v53 (by decide)).trans (s1_53 m ρ c))
theorem in1_1 : V3 m ρ c main_arg0 = m ((c.tc : Thread nD τ).loc main_arg0) := a3_0 m ρ c
theorem in1_2' : W3 m ρ c (Proc.devRef .tc main_v77) = wT0 (m ((c.tc : Thread nD τ).loc main_arg7)) := by
  show StableHlo.after hostOps1 (W2 m ρ c) (Proc.devRef .tc main_v77) = _
  after_results_simp
  rw [a2_7 m ρ c]
  rfl
theorem in1_3' : W3 m ρ c (Proc.devRef .tc main_v70) = v0 (m ((c.tc : Thread nD τ).loc main_arg8)) := by
  show StableHlo.after hostOps1 (W2 m ρ c) (Proc.devRef .tc main_v70) = _
  after_results_simp
  rw [a2_8 m ρ c]
  rfl
theorem in1_4' : W3 m ρ c (Proc.devRef .tc main_v78) = wT0 (m ((c.tc : Thread nD τ).loc main_arg9)) := by
  show StableHlo.after hostOps1 (W2 m ρ c) (Proc.devRef .tc main_v78) = _
  after_results_simp
  rw [a2_9 m ρ c]
  rfl
theorem in1_5' : W3 m ρ c (Proc.devRef .tc main_v74) = v0 (m ((c.tc : Thread nD τ).loc main_arg10)) := by
  show StableHlo.after hostOps1 (W2 m ρ c) (Proc.devRef .tc main_v74) = _
  after_results_simp
  rw [a2_10 m ρ c]
  rfl
theorem in1_6' : W3 m ρ c (Proc.devRef .tc main_v76) = v0 (m ((c.tc : Thread nD τ).loc main_arg11)) := by
  show StableHlo.after hostOps1 (W2 m ρ c) (Proc.devRef .tc main_v76) = _
  after_results_simp
  rw [a2_11 m ρ c]
  rfl
theorem in1_2 : V3 m ρ c main_v77 = wT0 (m ((c.tc : Thread nD τ).loc main_arg7)) := in1_2' m ρ c
theorem in1_3 : V3 m ρ c main_v70 = v0 (m ((c.tc : Thread nD τ).loc main_arg8)) := in1_3' m ρ c
theorem in1_4 : V3 m ρ c main_v78 = wT0 (m ((c.tc : Thread nD τ).loc main_arg9)) := in1_4' m ρ c
theorem in1_5 : V3 m ρ c main_v74 = v0 (m ((c.tc : Thread nD τ).loc main_arg10)) := in1_5' m ρ c
theorem in1_6 : V3 m ρ c main_v76 = v0 (m ((c.tc : Thread nD τ).loc main_arg11)) := in1_6' m ρ c

/-! ## The first layer's results, and where the second layer finds them -/

/-- The first layer's items: the first launch's output array as it leaves it. -/
abbrev I1 : Feat := W2 m ρ c (Proc.devRef .tc main_v66)
/-- The first layer's users: the second launch's output array as it leaves it. -/
abbrev U1 : Feat := W4 m ρ c (Proc.devRef .tc main_v79)
/-- The second layer's items and users: the third and fourth launches' output arrays. -/
abbrev I2 : Feat := W6 m ρ c (Proc.devRef .tc main_v126)
abbrev U2 : Feat := W8 m ρ c (Proc.devRef .tc main_v139)

theorem I1_arr : I1 m ρ c = (dat0 (V1 m ρ) c).arrAt 7 cfg0.N := W2_arr m ρ c 7
theorem U1_arr : U1 m ρ c = (dat1 (V3 m ρ) c).arrAt 7 cfg1.N := W4_arr m ρ c 7
theorem I2_arr : I2 m ρ c = (dat2 (V5 m ρ) c).arrAt 7 cfg2.N := W6_arr m ρ c 7
theorem U2_arr : U2 m ρ c = (dat3 (V7 m ρ) c).arrAt 7 cfg3.N := W8_arr m ρ c 7

/-- The first layer's items are still there when the stretch before the third launch reads them. -/
theorem i4_66 : W4 m ρ c (Proc.devRef .tc main_v66) = I1 m ρ c :=
  (W4_of_ne m ρ c main_v66 (by decide)).trans (by keep_host hostOps1 main_v66)

/-! ## The second layer's inputs -/

/-- The third launch (items from users, second layer) reads the first layer's users averaged over each item's
    in-edges, the first layer's items, and the second layer's slices of the weights. -/
theorem in2_0 : V5 m ρ c main_v96 = meanK (agg (U1 m ρ c) (m ((c.tc : Thread nD τ).loc main_arg2))) (cnt (m ((c.tc : Thread nD τ).loc main_arg2))) := by
  show StableHlo.after hostOps2 (W4 m ρ c) (Proc.devRef .tc main_v96) = _
  after_results_simp
  rw [a4_2 m ρ c, r4_15 m ρ c]
  rfl
theorem in2_1 : V5 m ρ c main_v66 = I1 m ρ c :=
  Eq.trans (b := W4 m ρ c (Proc.devRef .tc main_v66)) (by keep_host hostOps2 main_v66) (i4_66 m ρ c)
theorem in2_2' : W5 m ρ c (Proc.devRef .tc main_v124) = wT1 (m ((c.tc : Thread nD τ).loc main_arg4)) := by
  show StableHlo.after hostOps2 (W4 m ρ c) (Proc.devRef .tc main_v124) = _
  after_results_simp
  rw [a4_4 m ρ c]
  rfl
theorem in2_3' : W5 m ρ c (Proc.devRef .tc main_v117) = v1 (m ((c.tc : Thread nD τ).loc main_arg5)) := by
  show StableHlo.after hostOps2 (W4 m ρ c) (Proc.devRef .tc main_v117) = _
  after_results_simp
  rw [a4_5 m ρ c]
  rfl
theorem in2_4' : W5 m ρ c (Proc.devRef .tc main_v125) = wT1 (m ((c.tc : Thread nD τ).loc main_arg6)) := by
  show StableHlo.after hostOps2 (W4 m ρ c) (Proc.devRef .tc main_v125) = _
  after_results_simp
  rw [a4_6 m ρ c]
  rfl
theorem in2_5' : W5 m ρ c (Proc.devRef .tc main_v121) = v1 (m ((c.tc : Thread nD τ).loc main_arg12)) := by
  show StableHlo.after hostOps2 (W4 m ρ c) (Proc.devRef .tc main_v121) = _
  after_results_simp
  rw [a4_12 m ρ c]
  rfl
theorem in2_6' : W5 m ρ c (Proc.devRef .tc main_v123) = v1 (m ((c.tc : Thread nD τ).loc main_arg13)) := by
  show StableHlo.after hostOps2 (W4 m ρ c) (Proc.devRef .tc main_v123) = _
  after_results_simp
  rw [a4_13 m ρ c]
  rfl
theorem in2_2 : V5 m ρ c main_v124 = wT1 (m ((c.tc : Thread nD τ).loc main_arg4)) := in2_2' m ρ c
theorem in2_3 : V5 m ρ c main_v117 = v1 (m ((c.tc : Thread nD τ).loc main_arg5)) := in2_3' m ρ c
theorem in2_4 : V5 m ρ c main_v125 = wT1 (m ((c.tc : Thread nD τ).loc main_arg6)) := in2_4' m ρ c
theorem in2_5 : V5 m ρ c main_v121 = v1 (m ((c.tc : Thread nD τ).loc main_arg12)) := in2_5' m ρ c
theorem in2_6 : V5 m ρ c main_v123 = v1 (m ((c.tc : Thread nD τ).loc main_arg13)) := in2_6' m ρ c

/-- The fourth launch (users from items, second layer) reads the first layer's items averaged over each user's
    in-edges — computed before the third launch, which does not write it —, the first layer's users, and the second
    layer's slices of the weights. -/
theorem t5_113 : W5 m ρ c (Proc.devRef .tc main_v113) = meanK (agg (I1 m ρ c) (m ((c.tc : Thread nD τ).loc main_arg3))) (cnt (m ((c.tc : Thread nD τ).loc main_arg3))) := by
  show StableHlo.after hostOps2 (W4 m ρ c) (Proc.devRef .tc main_v113) = _
  after_results_simp
  rw [a4_3 m ρ c, r4_19 m ρ c, i4_66 m ρ c]
  rfl
theorem in3_0 : V7 m ρ c main_v113 = meanK (agg (I1 m ρ c) (m ((c.tc : Thread nD τ).loc main_arg3))) (cnt (m ((c.tc : Thread nD τ).loc main_arg3))) :=
  Eq.trans (b := W6 m ρ c (Proc.devRef .tc main_v113)) (by keep_host hostOps3 main_v113)
    ((W6_of_ne m ρ c main_v113 (by decide)).trans (t5_113 m ρ c))
theorem in3_1 : V7 m ρ c main_v79 = U1 m ρ c :=
  Eq.trans (b := W6 m ρ c (Proc.devRef .tc main_v79)) (by keep_host hostOps3 main_v79)
    ((W6_of_ne m ρ c main_v79 (by decide)).trans (by keep_host hostOps2 main_v79))
theorem in3_2' : W7 m ρ c (Proc.devRef .tc main_v137) = wT1 (m ((c.tc : Thread nD τ).loc main_arg7)) := by
  show StableHlo.after hostOps3 (W6 m ρ c) (Proc.devRef .tc main_v137) = _
  after_results_simp
  rw [a6_7 m ρ c]
  rfl
theorem in3_3' : W7 m ρ c (Proc.devRef .tc main_v130) = v1 (m ((c.tc : Thread nD τ).loc main_arg8)) := by
  show StableHlo.after hostOps3 (W6 m ρ c) (Proc.devRef .tc main_v130) = _
  after_results_simp
  rw [a6_8 m ρ c]
  rfl
theorem in3_4' : W7 m ρ c (Proc.devRef .tc main_v138) = wT1 (m ((c.tc : Thread nD τ).loc main_arg9)) := by
  show StableHlo.after hostOps3 (W6 m ρ c) (Proc.devRef .tc main_v138) = _
  after_results_simp
  rw [a6_9 m ρ c]
  rfl
theorem in3_5' : W7 m ρ c (Proc.devRef .tc main_v134) = v1 (m ((c.tc : Thread nD τ).loc main_arg10)) := by
  show StableHlo.after hostOps3 (W6 m ρ c) (Proc.devRef .tc main_v134) = _
  after_results_simp
  rw [a6_10 m ρ c]
  rfl
theorem in3_6' : W7 m ρ c (Proc.devRef .tc main_v136) = v1 (m ((c.tc : Thread nD τ).loc main_arg11)) := by
  show StableHlo.after hostOps3 (W6 m ρ c) (Proc.devRef .tc main_v136) = _
  after_results_simp
  rw [a6_11 m ρ c]
  rfl
theorem in3_2 : V7 m ρ c main_v137 = wT1 (m ((c.tc : Thread nD τ).loc main_arg7)) := in3_2' m ρ c
theorem in3_3 : V7 m ρ c main_v130 = v1 (m ((c.tc : Thread nD τ).loc main_arg8)) := in3_3' m ρ c
theorem in3_4 : V7 m ρ c main_v138 = wT1 (m ((c.tc : Thread nD τ).loc main_arg9)) := in3_4' m ρ c
theorem in3_5 : V7 m ρ c main_v134 = v1 (m ((c.tc : Thread nD τ).loc main_arg10)) := in3_5' m ρ c
theorem in3_6 : V7 m ρ c main_v136 = v1 (m ((c.tc : Thread nD τ).loc main_arg11)) := in3_6' m ρ c

/-! ## The result: the second layer's two arrays, stacked -/

/-- The second layer's items are still there after the fourth launch. -/
theorem i8_126 : W8 m ρ c (Proc.devRef .tc main_v126) = I2 m ρ c :=
  (W8_of_ne m ρ c main_v126 (by decide)).trans (by keep_host hostOps3 main_v126)

theorem out9 : W9 m ρ c (Proc.devRef .tc main_v142) = stack (U2 m ρ c) (I2 m ρ c) := by
  show StableHlo.after hostOps4 (W8 m ρ c) (Proc.devRef .tc main_v142) = _
  after_results
  rw [i8_126 m ρ c]
  rfl

end Cert.KernelIdeal.SageWalk

end
-- ==== Proof.KernelRow.lean ====
/-
  The kernel's body on one block, read entry by entry on the extended reals.

  Each of the four kernels computes, from a block of 2000 rows of neighbour means `a` and of the node's own features
  `x`, the two weight matrices, the bias and the normalisation's scale and shift:
      y_j   = Σ_k a_k · Wl(k, j)  +  Σ_k x_k · Wr(k, j)  +  bl_j
      mu    = (Σ_j y_j) / 256,   d_j = y_j − mu,   var = (Σ_j d_j · d_j) / 256
      out_q = max (d_q · rsqrt (var + eps) · g_q + b_q, 0).
  Here each step of that computation is read at an entry (p, q): the matrix product into a zero accumulator is the
  256-term sum of products (the narrowing of its operands to bf16 is the identity on the extended reals); the sum over
  the lanes of a row is the 256-term sum; a 256-vector laid along the lanes, a 2000-vector stood up as a column and a
  column spread over the lanes read the entry their coordinates name. Put together, the payload of every kernel is
  `Cert.SageSpec.sageLast 2000` of its seven loaded blocks.
-/
import proofs.«170343_j45792941310085_1_alg».proof.Proof.Gen.KernelIdeal.Skeleton
import proofs.«170343_j45792941310085_1_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.SageRow

open Idealize.ShloMosaic Idealize.ShloMosaic.ValueIdx Cert.KernelIdeal
open Cert.KernelIdeal.Facts₀

/-- A 256-vector laid along the lanes of every row: the entry at (p, q) is the vector's q-th. -/
theorem rowBias_apply (b : FVec Ideal S256 .f32) (p : Fin 2000) (q : Fin 256) :
    broadcastTo S2000x256 (shapeCast S1x256 b shapeCasts_S256_S1x256) broadcasts_S1x256_S2000x256 (ix2 p q) = b (ix1 q) :=
  (broadcastTo_1b_ab_apply _ broadcasts_S1x256_S2000x256 p q).trans
    (shapeCast_a_1a_apply b shapeCasts_S256_S1x256 (0 : Fin 1) q)

/-- A 2000-vector stood up as a column: the entry at (p, 0) is the vector's p-th. -/
theorem column_apply (u : FVec Ideal S2000 .f32) (p : Fin 2000) (z : Fin 1) :
    shapeCast S2000x1 u shapeCasts_S2000_S2000x1 (ix2 p z) = u (ix1 p) :=
  shapeCast_apply u shapeCasts_S2000_S2000x1 (ix2 p z) (ix1 p) (by
    have hz : z.val = 0 := by omega
    rw [Shape.rowMajor_val_two, Shape.rowMajor_val_one]
    show p.val = p.val * 1 + z.val
    rw [hz, Nat.mul_one, Nat.add_zero])

/-- A column spread over the 256 lanes: the entry at (p, q) is the column's p-th. -/
theorem spread_apply (u : FVec Ideal S2000x1 .f32) (p : Fin 2000) (q : Fin 256) :
    broadcastTo S2000x256 u broadcasts_S2000x1_S2000x256 (ix2 p q) = u (ix2 p (0 : Fin 1)) := by
  refine broadcastTo_apply u broadcasts_S2000x1_S2000x256 (ix2 p q) (ix2 p (0 : Fin 1)) fun ax => ?_
  match ax with
  | ⟨0, _⟩ => rfl
  | ⟨1, _⟩ => rfl

/-- The sum over the lanes of row p (the two side conditions in the form the program states them: the format admits a
    lane sum, the accumulator word is the zero word). -/
theorem laneSum_apply (v : FVec Ideal S2000x256 .f32) (hφ : FTy.f32 = FTy.f32 ∨ FTy.f32 = FTy.bf16)
    (hacc : (0x00000000#32 : BitVec 32) = 0x00000000#32) (p : Fin 2000) :
    multiReduction (F := Ideal) .add [1] S2000 v 0x00000000#32 reduces_S2000x256_S2000 hφ hacc (ix1 p)
      = ∑ k : Fin 256, v (ix2 p k) := by
  refine (Ideal.multiReduction_add_single v 0x00000000#32 reduces_S2000x256_S2000 hφ hacc (ix1 p)).trans ?_
  refine Finset.sum_congr rfl fun k _ => congrArg v ?_
  funext a
  match a with
  | ⟨0, _⟩ => rfl
  | ⟨1, _⟩ => rfl

/-- The contraction of row p of the left factor with column q of the right one: the kernel's matrix product into a
    zero accumulator, read at (p, q), is the 256-term sum of products. -/
theorem contract_apply (a : FVec Ideal S2000x256 .bf16) (w : FVec Ideal S256x256 .bf16) (p : Fin 2000) (q : Fin 256) :
    matmul dot_S2000x256_S256x256_S2000x256_1_0_0_1_n_n none a w (constant (F := Ideal) S2000x256 .f32 0x00000000#32) (ix2 p q)
      = ∑ k : Fin 256, a (ix2 p k) * w (ix2 k q) := by
  refine (Ideal.matmul_constant_zero_apply dot_S2000x256_S256x256_S2000x256_1_0_0_1_n_n none a w (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun c => Fin.ext (by
      match c with
      | ⟨0, _⟩ =>
        show (dot_S2000x256_S256x256_S2000x256_1_0_0_1_n_n.lhsIdx (ix2 p q) _ 0).val = p.val
        unfold DotDims.lhsIdx
        rw [dif_neg (show ¬(0 : Fin S2000x256.rank) ∈ dot_S2000x256_S256x256_S2000x256_1_0_0_1_n_n.lhsBatch by decide),
          dif_pos (show (0 : Fin S2000x256.rank) ∈ dot_S2000x256_S256x256_S2000x256_1_0_0_1_n_n.lhsNonContracting by decide)]
        rfl
      | ⟨1, _⟩ =>
        exact (dot_S2000x256_S256x256_S2000x256_1_0_0_1_n_n.lhsIdx_val_of_single (cl := 1) rfl (ix2 p q) _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun c => Fin.ext (by
      match c with
      | ⟨0, _⟩ =>
        exact (dot_S2000x256_S256x256_S2000x256_1_0_0_1_n_n.rhsIdx_val_of_single (cr := 0) rfl (ix2 p q) _).trans hk
      | ⟨1, _⟩ =>
        show (dot_S2000x256_S256x256_S2000x256_1_0_0_1_n_n.rhsIdx (ix2 p q) _ 1).val = q.val
        unfold DotDims.rhsIdx
        rw [dif_neg (show ¬(1 : Fin S256x256.rank) ∈ dot_S2000x256_S256x256_S2000x256_1_0_0_1_n_n.rhsBatch by decide),
          dif_pos (show (1 : Fin S256x256.rank) ∈ dot_S2000x256_S256x256_S2000x256_1_0_0_1_n_n.rhsNonContracting by decide)]
        rfl)
  rw [el, er]

/-- The reciprocal square root is taken entry by entry. -/
theorem rsqrt_apply {s : Shape} (v : FVec Ideal s .f32) (i : s.Idx) : rsqrt v i = Ideal.rsqrt (v i) := rfl

/-- The row before normalisation as the kernel computes it: the two matrix products into zero accumulators (the
    operands' narrowing to bf16 is the identity on the extended reals), their sum, and the bias laid along the lanes. -/
def rowPre (x0 x1 : FVec Ideal S2000x256 .f32) (x2 : FVec Ideal S256x256 .f32) (x3 : FVec Ideal S256 .f32)
    (x4 : FVec Ideal S256x256 .f32) : FVec Ideal S2000x256 .f32 :=
  addf
    (addf
      (matmul dot_S2000x256_S256x256_S2000x256_1_0_0_1_n_n none (truncf .bf16 x0 bitsLt_bf16_f32)
        (truncf .bf16 x2 bitsLt_bf16_f32) (constant (F := Ideal) S2000x256 .f32 0x00000000#32))
      (matmul dot_S2000x256_S256x256_S2000x256_1_0_0_1_n_n none (truncf .bf16 x1 bitsLt_bf16_f32)
        (truncf .bf16 x4 bitsLt_bf16_f32) (constant (F := Ideal) S2000x256 .f32 0x00000000#32)))
    (broadcastTo S2000x256 (shapeCast S1x256 x3 shapeCasts_S256_S1x256) broadcasts_S1x256_S2000x256)

/-- The mean of each row, as a column spread back over the lanes. -/
def rowMeanVec (y : FVec Ideal S2000x256 .f32) : FVec Ideal S2000x256 .f32 :=
  broadcastTo S2000x256
    (divf (shapeCast S2000x1
        (multiReduction (F := Ideal) .add [1] S2000 y 0x00000000#32 reduces_S2000x256_S2000 (.inl rfl) rfl)
        shapeCasts_S2000_S2000x1)
      (broadcast S2000x1 (Scalar.ofBits (F := Ideal) .f32 0x43800000#32)))
    broadcasts_S2000x1_S2000x256

/-- The reciprocal square root of each row's mean square plus epsilon, as a column spread back over the lanes. -/
def rowScaleVec (d : FVec Ideal S2000x256 .f32) : FVec Ideal S2000x256 .f32 :=
  broadcastTo S2000x256
    (rsqrt (addf
      (divf (shapeCast S2000x1
          (multiReduction (F := Ideal) .add [1] S2000 (mulf d d) 0x00000000#32 reduces_S2000x256_S2000 (.inl rfl) rfl)
          shapeCasts_S2000_S2000x1)
        (broadcast S2000x1 (Scalar.ofBits (F := Ideal) .f32 0x43800000#32)))
      (broadcast S2000x1 (Scalar.ofBits (F := Ideal) .f32 0x3727C5AC#32))))
    broadcasts_S2000x1_S2000x256

/-- Normalisation of every row, scale and shift along the lanes, then the positive part: the kernel's tail. -/
def rowNorm (y : FVec Ideal S2000x256 .f32) (x5 x6 : FVec Ideal S256 .f32) : FVec Ideal S2000x256 .f32 :=
  maximumf
    (addf
      (mulf (mulf (subf y (rowMeanVec y)) (rowScaleVec (subf y (rowMeanVec y))))
        (broadcastTo S2000x256 (shapeCast S1x256 x5 shapeCasts_S256_S1x256) broadcasts_S1x256_S2000x256))
      (broadcastTo S2000x256 (shapeCast S1x256 x6 shapeCasts_S256_S1x256) broadcasts_S1x256_S2000x256))
    (broadcast S2000x256 (Scalar.ofBits (F := Ideal) .f32 0x00000000#32))

set_option maxHeartbeats 400000 in
/-- Kernel 0's payload is that row computation: its identity shape casts removed, nothing else changed. -/
theorem pay0_shape (x0 x1 : FVec Ideal S2000x256 .f32) (x2 : FVec Ideal S256x256 .f32) (x3 : FVec Ideal S256 .f32)
    (x4 : FVec Ideal S256x256 .f32) (x5 x6 : FVec Ideal S256 .f32) :
    Gen.k0_pay1 (F := Ideal) (Gen.k0_pay2 (F := Ideal) x0 x1 x2 x4 x3 x5) x6 = rowNorm (rowPre x0 x1 x2 x3 x4) x5 x6 := by
  unfold Gen.k0_pay1 Gen.k0_pay2
  simp only [shapeCast_self]
  rfl

set_option maxHeartbeats 400000 in
/-- Kernel 1's payload is that row computation: its identity shape casts removed, nothing else changed. -/
theorem pay1_shape (x0 x1 : FVec Ideal S2000x256 .f32) (x2 : FVec Ideal S256x256 .f32) (x3 : FVec Ideal S256 .f32)
    (x4 : FVec Ideal S256x256 .f32) (x5 x6 : FVec Ideal S256 .f32) :
    Gen.k1_pay1 (F := Ideal) (Gen.k1_pay2 (F := Ideal) x0 x1 x2 x4 x3 x5) x6 = rowNorm (rowPre x0 x1 x2 x3 x4) x5 x6 := by
  unfold Gen.k1_pay1 Gen.k1_pay2
  simp only [shapeCast_self]
  rfl

set_option maxHeartbeats 400000 in
/-- Kernel 2's payload is that row computation: its identity shape casts removed, nothing else changed. -/
theorem pay2_shape (x0 x1 : FVec Ideal S2000x256 .f32) (x2 : FVec Ideal S256x256 .f32) (x3 : FVec Ideal S256 .f32)
    (x4 : FVec Ideal S256x256 .f32) (x5 x6 : FVec Ideal S256 .f32) :
    Gen.k2_pay1 (F := Ideal) (Gen.k2_pay2 (F := Ideal) x0 x1 x2 x4 x3 x5) x6 = rowNorm (rowPre x0 x1 x2 x3 x4) x5 x6 := by
  unfold Gen.k2_pay1 Gen.k2_pay2
  simp only [shapeCast_self]
  rfl

set_option maxHeartbeats 400000 in
/-- Kernel 3's payload is that row computation: its identity shape casts removed, nothing else changed. -/
theorem pay3_shape (x0 x1 : FVec Ideal S2000x256 .f32) (x2 : FVec Ideal S256x256 .f32) (x3 : FVec Ideal S256 .f32)
    (x4 : FVec Ideal S256x256 .f32) (x5 x6 : FVec Ideal S256 .f32) :
    Gen.k3_pay1 (F := Ideal) (Gen.k3_pay2 (F := Ideal) x0 x1 x2 x4 x3 x5) x6 = rowNorm (rowPre x0 x1 x2 x3 x4) x5 x6 := by
  unfold Gen.k3_pay1 Gen.k3_pay2
  simp only [shapeCast_self]
  rfl

open Cert.SageSpec in
/-- The row before normalisation, read at (p, q): the specification's, the bias added last. -/
theorem rowPre_apply (x0 x1 : FVec Ideal S2000x256 .f32) (x2 : FVec Ideal S256x256 .f32) (x3 : FVec Ideal S256 .f32)
    (x4 : FVec Ideal S256x256 .f32) (p : Fin 2000) (q : Fin 256) :
    rowPre x0 x1 x2 x3 x4 (ix2 p q) = preLast (fun k => x0 (ix2 p k)) (fun k => x1 (ix2 p k)) x2 x3 x4 q := by
  unfold rowPre preLast
  simp only [addf_apply, contract_apply, rowBias_apply, truncf_apply]

open Cert.SageSpec in
/-- The spread mean at (p, q) is row p's sum over 256. -/
theorem rowMeanVec_apply (y : FVec Ideal S2000x256 .f32) (p : Fin 2000) (q : Fin 256) :
    rowMeanVec y (ix2 p q) = Ideal.div (∑ k : Fin 256, y (ix2 p k)) c256 :=
  (spread_apply _ p q).trans
    (congrArg (fun s => Ideal.div s c256) ((column_apply _ p (0 : Fin 1)).trans (laneSum_apply y _ _ p)))

open Cert.SageSpec in
/-- The spread scale at (p, q) is the reciprocal square root of row p's mean square plus epsilon. -/
theorem rowScaleVec_apply (d : FVec Ideal S2000x256 .f32) (p : Fin 2000) (q : Fin 256) :
    rowScaleVec d (ix2 p q) = Ideal.rsqrt (Ideal.div (∑ k : Fin 256, d (ix2 p k) * d (ix2 p k)) c256 + ceps) :=
  (spread_apply _ p q).trans
    (congrArg (fun s => Ideal.rsqrt (Ideal.div s c256 + ceps))
      ((column_apply _ p (0 : Fin 1)).trans (laneSum_apply (mulf d d) _ _ p)))

open Cert.SageSpec in
/-- The kernel's tail at (p, q) is the specification's normalisation of row p, at entry q. -/
theorem rowNorm_apply (y : FVec Ideal S2000x256 .f32) (x5 x6 : FVec Ideal S256 .f32) (p : Fin 2000) (q : Fin 256) :
    rowNorm y x5 x6 (ix2 p q) = lnRelu (fun j => y (ix2 p j)) x5 x6 q := by
  unfold rowNorm lnRelu rowMean
  simp only [maximumf_apply, addf_apply, mulf_apply, subf_apply, broadcast_apply, rowBias_apply, rowScaleVec_apply,
    rowMeanVec_apply]
  rfl

open Cert.SageSpec in
/-- The whole row computation is the specification over 2000 rows. -/
theorem rowNorm_rowPre (x0 x1 : FVec Ideal S2000x256 .f32) (x2 : FVec Ideal S256x256 .f32) (x3 : FVec Ideal S256 .f32)
    (x4 : FVec Ideal S256x256 .f32) (x5 x6 : FVec Ideal S256 .f32) :
    rowNorm (rowPre x0 x1 x2 x3 x4) x5 x6 = sageLast 2000 x0 x1 x2 x3 x4 x5 x6 := by
  funext j
  obtain ⟨p, q, rfl⟩ : ∃ (p : Fin 2000) (q : Fin 256), j = ix2 p q := ⟨j 0, j 1, eq_ix2 j⟩
  refine (rowNorm_apply _ x5 x6 p q).trans ?_
  unfold sageLast
  exact congrArg (fun y => lnRelu y x5 x6 q) (funext fun j => rowPre_apply x0 x1 x2 x3 x4 p j)

/-- Kernel 0's payload, from its seven loaded blocks, is the specification over the block's 2000 rows. -/
theorem pay0 (x0 x1 : FVec Ideal S2000x256 .f32) (x2 : FVec Ideal S256x256 .f32) (x3 : FVec Ideal S256 .f32)
    (x4 : FVec Ideal S256x256 .f32) (x5 x6 : FVec Ideal S256 .f32) :
    Gen.k0_pay1 (F := Ideal) (Gen.k0_pay2 (F := Ideal) x0 x1 x2 x4 x3 x5) x6
      = Cert.SageSpec.sageLast 2000 x0 x1 x2 x3 x4 x5 x6 :=
  (pay0_shape x0 x1 x2 x3 x4 x5 x6).trans (rowNorm_rowPre x0 x1 x2 x3 x4 x5 x6)

/-- Kernel 1's payload, from its seven loaded blocks, is the specification over the block's 2000 rows. -/
theorem pay1 (x0 x1 : FVec Ideal S2000x256 .f32) (x2 : FVec Ideal S256x256 .f32) (x3 : FVec Ideal S256 .f32)
    (x4 : FVec Ideal S256x256 .f32) (x5 x6 : FVec Ideal S256 .f32) :
    Gen.k1_pay1 (F := Ideal) (Gen.k1_pay2 (F := Ideal) x0 x1 x2 x4 x3 x5) x6
      = Cert.SageSpec.sageLast 2000 x0 x1 x2 x3 x4 x5 x6 :=
  (pay1_shape x0 x1 x2 x3 x4 x5 x6).trans (rowNorm_rowPre x0 x1 x2 x3 x4 x5 x6)

/-- Kernel 2's payload, from its seven loaded blocks, is the specification over the block's 2000 rows. -/
theorem pay2 (x0 x1 : FVec Ideal S2000x256 .f32) (x2 : FVec Ideal S256x256 .f32) (x3 : FVec Ideal S256 .f32)
    (x4 : FVec Ideal S256x256 .f32) (x5 x6 : FVec Ideal S256 .f32) :
    Gen.k2_pay1 (F := Ideal) (Gen.k2_pay2 (F := Ideal) x0 x1 x2 x4 x3 x5) x6
      = Cert.SageSpec.sageLast 2000 x0 x1 x2 x3 x4 x5 x6 :=
  (pay2_shape x0 x1 x2 x3 x4 x5 x6).trans (rowNorm_rowPre x0 x1 x2 x3 x4 x5 x6)

/-- Kernel 3's payload, from its seven loaded blocks, is the specification over the block's 2000 rows. -/
theorem pay3 (x0 x1 : FVec Ideal S2000x256 .f32) (x2 : FVec Ideal S256x256 .f32) (x3 : FVec Ideal S256 .f32)
    (x4 : FVec Ideal S256x256 .f32) (x5 x6 : FVec Ideal S256 .f32) :
    Gen.k3_pay1 (F := Ideal) (Gen.k3_pay2 (F := Ideal) x0 x1 x2 x4 x3 x5) x6
      = Cert.SageSpec.sageLast 2000 x0 x1 x2 x3 x4 x5 x6 :=
  (pay3_shape x0 x1 x2 x3 x4 x5 x6).trans (rowNorm_rowPre x0 x1 x2 x3 x4 x5 x6)

end Cert.KernelIdeal.SageRow

end
-- ==== Proof.SageBlock.lean ====
/-
  The update over a block of rows is the update over the whole array, read at the block's rows.

  A row of the update depends on row `i 0` of the two row-blocked operands and on the whole of the five small ones. So
  when a block of `m` rows is cut out of the `n`-row arrays by index maps that send block row `r` to array row `R + r`
  and keep the column (the two row-blocked operands and the result moving together, the small operands read whole),
  the update computed on the block is, entry by entry, the update computed on the arrays at the entry's place.
-/
import proofs.«170343_j45792941310085_1_alg».proof.Proof.SageSpec
import Idealize.ShloMosaic.Lib.ValueIdx

noncomputable section

namespace Cert.SageSpec

open Idealize.ShloMosaic Idealize.ShloMosaic.ValueIdx

/-- `e7` places the block's entries in the array (row `R +` the block's row, same column); `e0`, `e1` place the two
    row-blocked operands' entries and agree with it; `e2 … e6` place the small operands' entries and are the identity. -/
theorem sageLast_block (n m : Nat) (A X : (⟨2, ![n, 256]⟩ : Shape).Idx → EReal) (wl : Mat) (bl : Vec256) (wr : Mat)
    (g b : Vec256)
    (e0 e1 e7 : (⟨2, ![m, 256]⟩ : Shape).Idx → (⟨2, ![n, 256]⟩ : Shape).Idx)
    (e2 e4 : (⟨2, ![256, 256]⟩ : Shape).Idx → (⟨2, ![256, 256]⟩ : Shape).Idx)
    (e3 e5 e6 : (⟨1, ![256]⟩ : Shape).Idx → (⟨1, ![256]⟩ : Shape).Idx)
    (h0 : ∀ y, e0 y = e7 y) (h1 : ∀ y, e1 y = e7 y)
    (h2 : ∀ y, e2 y = y) (h3 : ∀ y, e3 y = y) (h4 : ∀ y, e4 y = y) (h5 : ∀ y, e5 y = y) (h6 : ∀ y, e6 y = y)
    (R : Nat) (hrow : ∀ y, ((e7 y) 0).val = R + (y 0).val) (hcol : ∀ y, ((e7 y) 1).val = (y 1).val)
    (j : (⟨2, ![m, 256]⟩ : Shape).Idx) :
    sageLast m (fun y => A (e0 y)) (fun y => X (e1 y)) (fun y => wl (e2 y)) (fun y => bl (e3 y)) (fun y => wr (e4 y))
        (fun y => g (e5 y)) (fun y => b (e6 y)) j
      = sageLast n A X wl bl wr g b (e7 j) := by
  rw [show e0 = e7 from funext h0, show e1 = e7 from funext h1]
  obtain rfl : e2 = id := funext h2
  obtain rfl : e3 = id := funext h3
  obtain rfl : e4 = id := funext h4
  obtain rfl : e5 = id := funext h5
  obtain rfl : e6 = id := funext h6
  have hq : j 1 = (e7 j) 1 := Fin.ext (hcol j).symm
  have hrowidx : ∀ k : Fin 256, e7 (ix2 (j 0) k) = ix2 ((e7 j) 0) k := fun k => funext fun a => Fin.ext (by
    match a with
    | ⟨0, _⟩ => exact (hrow _).trans (hrow j).symm
    | ⟨1, _⟩ => exact hcol _)
  unfold sageLast
  show lnRelu (preLast (fun k => A (e7 (ix2 (j 0) k))) (fun k => X (e7 (ix2 (j 0) k))) wl bl wr) g b (j 1)
     = lnRelu (preLast (fun k => A (ix2 ((e7 j) 0) k)) (fun k => X (ix2 ((e7 j) 0) k)) wl bl wr) g b ((e7 j) 1)
  rw [show (fun k : Fin 256 => A (e7 (ix2 (j 0) k))) = fun k => A (ix2 ((e7 j) 0) k) from
        funext fun k => congrArg A (hrowidx k),
      show (fun k : Fin 256 => X (e7 (ix2 (j 0) k))) = fun k => X (ix2 ((e7 j) 0) k) from
        funext fun k => congrArg X (hrowidx k)]
  exact congrArg (lnRelu _ g b) hq

end Cert.SageSpec

end
-- ==== Proof.Region0.lean ====
/-
  Region 0: from the blocks the 50 grid points write back to the whole result array.

  Grid point t computes, from the 2000 rows of its row block of the neighbour means and of the node's own features and from
  the whole of the two weight matrices, the bias and the normalisation's scale and shift, the update of those 2000 rows,
  and writes it back to the same rows of the result. The update of a row depends on that row of the two row-blocked
  operands only, so what point t writes is its row block of the update of the whole arrays; the 50 blocks tile the 100000 rows;
  hence the result array ends holding `Cert.SageSpec.sageLast 100000` of the seven arrays as the region finds them.
-/
import proofs.«170343_j45792941310085_1_alg».proof.Proof.Gen.KernelIdeal.Frame
import proofs.«170343_j45792941310085_1_alg».proof.Proof.KernelRow
import proofs.«170343_j45792941310085_1_alg».proof.Proof.SageBlock

set_option maxRecDepth 16384

noncomputable section

namespace Cert.KernelIdeal.SageRegion

open Idealize.ShloMosaic Idealize.ShloMosaic.TcCoe Idealize.SL.Sem Idealize.ShloMosaic.ValueIdx
open Idealize.ShloMosaic.Pipeline Cert.KernelIdeal

variable (V : (c : Dev nD) → (b : Ref sig .tc) → Buf (Elt Ideal) ((c : Thread nD τ).loc b))

/-- The zero offsets of a whole-block access, as the constant function. -/
theorem zeroOffsets2_0 : (![0, 0] : Fin 2 → Nat) = fun _ => 0 := funext fun a => by fin_cases a <;> rfl
theorem zeroOffsets1_0 : (![0] : Fin 1 → Nat) = fun _ => 0 := funext fun a => by fin_cases a <;> rfl

/-- The block index maps, decided over the 50 grid points: the two row-blocked operands move with the result's block
    along the rows, every other operand is read whole (block index zero), and the result's row-block index is below 50. -/
theorem blockIndex0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) ≤ 49 ∧ win0_7.index t (1 : Fin 2) = 0 :=
  (by decide +kernel : ∀ t : Fin grid0.N, _)

/-- Every one of the 50 row blocks is some grid point's. -/
theorem blockOnto0 : ∀ q0 : Fin 50, ∃ t : Fin cfg0.N, win0_7.index t (0 : Fin 2) = q0.val :=
  (by decide +kernel : ∀ q0 : Fin 50, ∃ t : Fin grid0.N, win0_7.index t (0 : Fin 2) = q0.val)

set_option maxHeartbeats 1000000 in
/-- What grid point t writes back is block t of the update of the whole arrays: the body's payload is the update of the
    seven loaded blocks; the two row-blocked operands' blocks sit where the result's block sits, and every other operand's
    block is the whole operand. -/
theorem flushed0 (c : Dev nD) (t : Fin cfg0.N) :
    (Gen.dat0 (F := Ideal) V c).flushed 7 t = ((cfg0.win 7).blk t).view.read (Elt Ideal)
      (Cert.SageSpec.sageLast 100000 (V c main_v36) (V c main_arg1) (V c main_v64) (V c main_v57) (V c main_v65) (V c main_v61) (V c main_v63)) := by
  show (cfg0.win 7).cut (grid0.coords t) ((Gen.dat0 V c).after 7 t) = _
  rw [Gen.after0_7]
  unfold Gen.out0_7
  rw [View.canon_unit_zero zeroOffsets2_0]
  simp only [View.ld_unit_zero (S := S2000x256) zeroOffsets2_0, View.ld_unit_zero (S := S256x256) zeroOffsets2_0,
    View.ld_unit_zero (S := S256) zeroOffsets1_0]
  rw [SageRow.pay0]
  obtain ⟨a0, a1, b0, b1, c0, c1, d0, e0, e1, f0, g0, h0, h1⟩ := blockIndex0 t
  funext j
  refine Cert.SageSpec.sageLast_block 100000 2000 (V c main_v36) (V c main_arg1) (V c main_v64) (V c main_v57)
    (V c main_v65) (V c main_v61) (V c main_v63)
    ((cfg0.win 0).blk t).view.emb ((cfg0.win 1).blk t).view.emb ((cfg0.win 7).blk t).view.emb
    ((cfg0.win 2).blk t).view.emb ((cfg0.win 4).blk t).view.emb
    ((cfg0.win 3).blk t).view.emb ((cfg0.win 5).blk t).view.emb ((cfg0.win 6).blk t).view.emb
    (fun y => ?_) (fun y => ?_) (fun y => ?_) (fun y => ?_) (fun y => ?_) (fun y => ?_) (fun y => ?_)
    (win0_7.index t (0 : Fin 2) * 2000) (fun y => ?_) (fun y => ?_) j
  · funext a; apply Fin.ext
    match a with
    | ⟨0, _⟩ => show win0_0.index t (0 : Fin 2) * 2000 + 1 * (y 0).val = win0_7.index t (0 : Fin 2) * 2000 + 1 * (y 0).val; rw [a0]
    | ⟨1, _⟩ => show win0_0.index t (1 : Fin 2) * 256 + 1 * (y 1).val = win0_7.index t (1 : Fin 2) * 256 + 1 * (y 1).val; rw [a1, h1]
  · funext a; apply Fin.ext
    match a with
    | ⟨0, _⟩ => show win0_1.index t (0 : Fin 2) * 2000 + 1 * (y 0).val = win0_7.index t (0 : Fin 2) * 2000 + 1 * (y 0).val; rw [b0]
    | ⟨1, _⟩ => show win0_1.index t (1 : Fin 2) * 256 + 1 * (y 1).val = win0_7.index t (1 : Fin 2) * 256 + 1 * (y 1).val; rw [b1, h1]
  · funext a; apply Fin.ext
    match a with
    | ⟨0, _⟩ => show win0_2.index t (0 : Fin 2) * 256 + 1 * (y 0).val = (y 0).val; rw [c0]; omega
    | ⟨1, _⟩ => show win0_2.index t (1 : Fin 2) * 256 + 1 * (y 1).val = (y 1).val; rw [c1]; omega
  · funext a; apply Fin.ext
    match a with
    | ⟨0, _⟩ => show win0_3.index t (0 : Fin 1) * 256 + 1 * (y 0).val = (y 0).val; rw [d0]; omega
  · funext a; apply Fin.ext
    match a with
    | ⟨0, _⟩ => show win0_4.index t (0 : Fin 2) * 256 + 1 * (y 0).val = (y 0).val; rw [e0]; omega
    | ⟨1, _⟩ => show win0_4.index t (1 : Fin 2) * 256 + 1 * (y 1).val = (y 1).val; rw [e1]; omega
  · funext a; apply Fin.ext
    match a with
    | ⟨0, _⟩ => show win0_5.index t (0 : Fin 1) * 256 + 1 * (y 0).val = (y 0).val; rw [f0]; omega
  · funext a; apply Fin.ext
    match a with
    | ⟨0, _⟩ => show win0_6.index t (0 : Fin 1) * 256 + 1 * (y 0).val = (y 0).val; rw [g0]; omega
  · show win0_7.index t (0 : Fin 2) * 2000 + 1 * (y 0).val = win0_7.index t (0 : Fin 2) * 2000 + (y 0).val; omega
  · show win0_7.index t (1 : Fin 2) * 256 + 1 * (y 1).val = (y 1).val; rw [h1]; omega

/-- An entry of the array is in grid point t's block iff each coordinate is in the block's range on its axis. -/
theorem mem_block0 (t : Fin cfg0.N) (i : S100000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v66).slice (win0_7.rect t)).set ↔ _
  rw [View.set_slice_whole, Rect.mem_set_unit]
  exact Iff.rfl

/-- Every entry of the array is in some grid point's block: row r is in row block r / 2000, and the one column block
    holds all 256 columns. -/
theorem covered0 (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  obtain ⟨t, ht⟩ := blockOnto0 ⟨(i 0).val / 2000, by omega⟩
  have q0 : win0_7.index t (0 : Fin 2) = (i 0).val / 2000 := ht
  obtain ⟨-, -, -, -, -, -, -, -, -, -, -, -, q1⟩ := blockIndex0 t
  refine ⟨t, Gen.flush0_7 t, ?_⟩
  rw [mem_block0]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 256 ≤ (i 1).val ∧ (i 1).val < win0_7.index t (1 : Fin 2) * 256 + 256
    omega

/-- The result array after the 50 grid points: the update of the whole arrays as the region finds them. -/
theorem final0 (c : Dev nD) :
    (Gen.dat0 (F := Ideal) V c).arrAt 7 cfg0.N
      = Cert.SageSpec.sageLast 100000 (V c main_v36) (V c main_arg1) (V c main_v64) (V c main_v57) (V c main_v65)
          (V c main_v61) (V c main_v63) :=
  (Gen.dat0 (F := Ideal) V c).arrAt_eq_of_cover 7 _ (fun t _ => flushed0 V c t) covered0

end Cert.KernelIdeal.SageRegion

end
-- ==== Proof.Region1.lean ====
/-
  Region 1: from the blocks the 50 grid points write back to the whole result array.

  Grid point t computes, from the 2000 rows of its row block of the neighbour means and of the node's own features and from
  the whole of the two weight matrices, the bias and the normalisation's scale and shift, the update of those 2000 rows,
  and writes it back to the same rows of the result. The update of a row depends on that row of the two row-blocked
  operands only, so what point t writes is its row block of the update of the whole arrays; the 50 blocks tile the 100000 rows;
  hence the result array ends holding `Cert.SageSpec.sageLast 100000` of the seven arrays as the region finds them.
-/
import proofs.«170343_j45792941310085_1_alg».proof.Proof.Gen.KernelIdeal.Frame
import proofs.«170343_j45792941310085_1_alg».proof.Proof.KernelRow
import proofs.«170343_j45792941310085_1_alg».proof.Proof.SageBlock

set_option maxRecDepth 16384

noncomputable section

namespace Cert.KernelIdeal.SageRegion

open Idealize.ShloMosaic Idealize.ShloMosaic.TcCoe Idealize.SL.Sem Idealize.ShloMosaic.ValueIdx
open Idealize.ShloMosaic.Pipeline Cert.KernelIdeal

variable (V : (c : Dev nD) → (b : Ref sig .tc) → Buf (Elt Ideal) ((c : Thread nD τ).loc b))

/-- The zero offsets of a whole-block access, as the constant function. -/
theorem zeroOffsets2_1 : (![0, 0] : Fin 2 → Nat) = fun _ => 0 := funext fun a => by fin_cases a <;> rfl
theorem zeroOffsets1_1 : (![0] : Fin 1 → Nat) = fun _ => 0 := funext fun a => by fin_cases a <;> rfl

/-- The block index maps, decided over the 50 grid points: the two row-blocked operands move with the result's block
    along the rows, every other operand is read whole (block index zero), and the result's row-block index is below 50. -/
theorem blockIndex1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) ≤ 49 ∧ win1_7.index t (1 : Fin 2) = 0 :=
  (by decide +kernel : ∀ t : Fin grid1.N, _)

/-- Every one of the 50 row blocks is some grid point's. -/
theorem blockOnto1 : ∀ q0 : Fin 50, ∃ t : Fin cfg1.N, win1_7.index t (0 : Fin 2) = q0.val :=
  (by decide +kernel : ∀ q0 : Fin 50, ∃ t : Fin grid1.N, win1_7.index t (0 : Fin 2) = q0.val)

set_option maxHeartbeats 1000000 in
/-- What grid point t writes back is block t of the update of the whole arrays: the body's payload is the update of the
    seven loaded blocks; the two row-blocked operands' blocks sit where the result's block sits, and every other operand's
    block is the whole operand. -/
theorem flushed1 (c : Dev nD) (t : Fin cfg1.N) :
    (Gen.dat1 (F := Ideal) V c).flushed 7 t = ((cfg1.win 7).blk t).view.read (Elt Ideal)
      (Cert.SageSpec.sageLast 100000 (V c main_v53) (V c main_arg0) (V c main_v77) (V c main_v70) (V c main_v78) (V c main_v74) (V c main_v76)) := by
  show (cfg1.win 7).cut (grid1.coords t) ((Gen.dat1 V c).after 7 t) = _
  rw [Gen.after1_7]
  unfold Gen.out1_7
  rw [View.canon_unit_zero zeroOffsets2_1]
  simp only [View.ld_unit_zero (S := S2000x256) zeroOffsets2_1, View.ld_unit_zero (S := S256x256) zeroOffsets2_1,
    View.ld_unit_zero (S := S256) zeroOffsets1_1]
  rw [SageRow.pay1]
  obtain ⟨a0, a1, b0, b1, c0, c1, d0, e0, e1, f0, g0, h0, h1⟩ := blockIndex1 t
  funext j
  refine Cert.SageSpec.sageLast_block 100000 2000 (V c main_v53) (V c main_arg0) (V c main_v77) (V c main_v70)
    (V c main_v78) (V c main_v74) (V c main_v76)
    ((cfg1.win 0).blk t).view.emb ((cfg1.win 1).blk t).view.emb ((cfg1.win 7).blk t).view.emb
    ((cfg1.win 2).blk t).view.emb ((cfg1.win 4).blk t).view.emb
    ((cfg1.win 3).blk t).view.emb ((cfg1.win 5).blk t).view.emb ((cfg1.win 6).blk t).view.emb
    (fun y => ?_) (fun y => ?_) (fun y => ?_) (fun y => ?_) (fun y => ?_) (fun y => ?_) (fun y => ?_)
    (win1_7.index t (0 : Fin 2) * 2000) (fun y => ?_) (fun y => ?_) j
  · funext a; apply Fin.ext
    match a with
    | ⟨0, _⟩ => show win1_0.index t (0 : Fin 2) * 2000 + 1 * (y 0).val = win1_7.index t (0 : Fin 2) * 2000 + 1 * (y 0).val; rw [a0]
    | ⟨1, _⟩ => show win1_0.index t (1 : Fin 2) * 256 + 1 * (y 1).val = win1_7.index t (1 : Fin 2) * 256 + 1 * (y 1).val; rw [a1, h1]
  · funext a; apply Fin.ext
    match a with
    | ⟨0, _⟩ => show win1_1.index t (0 : Fin 2) * 2000 + 1 * (y 0).val = win1_7.index t (0 : Fin 2) * 2000 + 1 * (y 0).val; rw [b0]
    | ⟨1, _⟩ => show win1_1.index t (1 : Fin 2) * 256 + 1 * (y 1).val = win1_7.index t (1 : Fin 2) * 256 + 1 * (y 1).val; rw [b1, h1]
  · funext a; apply Fin.ext
    match a with
    | ⟨0, _⟩ => show win1_2.index t (0 : Fin 2) * 256 + 1 * (y 0).val = (y 0).val; rw [c0]; omega
    | ⟨1, _⟩ => show win1_2.index t (1 : Fin 2) * 256 + 1 * (y 1).val = (y 1).val; rw [c1]; omega
  · funext a; apply Fin.ext
    match a with
    | ⟨0, _⟩ => show win1_3.index t (0 : Fin 1) * 256 + 1 * (y 0).val = (y 0).val; rw [d0]; omega
  · funext a; apply Fin.ext
    match a with
    | ⟨0, _⟩ => show win1_4.index t (0 : Fin 2) * 256 + 1 * (y 0).val = (y 0).val; rw [e0]; omega
    | ⟨1, _⟩ => show win1_4.index t (1 : Fin 2) * 256 + 1 * (y 1).val = (y 1).val; rw [e1]; omega
  · funext a; apply Fin.ext
    match a with
    | ⟨0, _⟩ => show win1_5.index t (0 : Fin 1) * 256 + 1 * (y 0).val = (y 0).val; rw [f0]; omega
  · funext a; apply Fin.ext
    match a with
    | ⟨0, _⟩ => show win1_6.index t (0 : Fin 1) * 256 + 1 * (y 0).val = (y 0).val; rw [g0]; omega
  · show win1_7.index t (0 : Fin 2) * 2000 + 1 * (y 0).val = win1_7.index t (0 : Fin 2) * 2000 + (y 0).val; omega
  · show win1_7.index t (1 : Fin 2) * 256 + 1 * (y 1).val = (y 1).val; rw [h1]; omega

/-- An entry of the array is in grid point t's block iff each coordinate is in the block's range on its axis. -/
theorem mem_block1 (t : Fin cfg1.N) (i : S100000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v79).slice (win1_7.rect t)).set ↔ _
  rw [View.set_slice_whole, Rect.mem_set_unit]
  exact Iff.rfl

/-- Every entry of the array is in some grid point's block: row r is in row block r / 2000, and the one column block
    holds all 256 columns. -/
theorem covered1 (i : S100000x256.Idx) :
    ∃ t : Fin cfg1.N, (cfg1.win 7).flush t = true ∧ i ∈ ((cfg1.win 7).blk t).view.set := by
  have hi0 : (i 0).val < 100000 := (i 0).isLt
  have hi1 : (i 1).val < 256 := (i 1).isLt
  obtain ⟨t, ht⟩ := blockOnto1 ⟨(i 0).val / 2000, by omega⟩
  have q0 : win1_7.index t (0 : Fin 2) = (i 0).val / 2000 := ht
  obtain ⟨-, -, -, -, -, -, -, -, -, -, -, -, q1⟩ := blockIndex1 t
  refine ⟨t, Gen.flush1_7 t, ?_⟩
  rw [mem_block1]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 256 ≤ (i 1).val ∧ (i 1).val < win1_7.index t (1 : Fin 2) * 256 + 256
    omega

/-- The result array after the 50 grid points: the update of the whole arrays as the region finds them. -/
theorem final1 (c : Dev nD) :
    (Gen.dat1 (F := Ideal) V c).arrAt 7 cfg1.N
      = Cert.SageSpec.sageLast 100000 (V c main_v53) (V c main_arg0) (V c main_v77) (V c main_v70) (V c main_v78)
          (V c main_v74) (V c main_v76) :=
  (Gen.dat1 (F := Ideal) V c).arrAt_eq_of_cover 7 _ (fun t _ => flushed1 V c t) covered1

end Cert.KernelIdeal.SageRegion

end
-- ==== Proof.Region2.lean ====
/-
  Region 2: from the blocks the 50 grid points write back to the whole result array.

  Grid point t computes, from the 2000 rows of its row block of the neighbour means and of the node's own features and from
  the whole of the two weight matrices, the bias and the normalisation's scale and shift, the update of those 2000 rows,
  and writes it back to the same rows of the result. The update of a row depends on that row of the two row-blocked
  operands only, so what point t writes is its row block of the update of the whole arrays; the 50 blocks tile the 100000 rows;
  hence the result array ends holding `Cert.SageSpec.sageLast 100000` of the seven arrays as the region finds them.
-/
import proofs.«170343_j45792941310085_1_alg».proof.Proof.Gen.KernelIdeal.Frame
import proofs.«170343_j45792941310085_1_alg».proof.Proof.KernelRow
import proofs.«170343_j45792941310085_1_alg».proof.Proof.SageBlock

set_option maxRecDepth 16384

noncomputable section

namespace Cert.KernelIdeal.SageRegion

open Idealize.ShloMosaic Idealize.ShloMosaic.TcCoe Idealize.SL.Sem Idealize.ShloMosaic.ValueIdx
open Idealize.ShloMosaic.Pipeline Cert.KernelIdeal

variable (V : (c : Dev nD) → (b : Ref sig .tc) → Buf (Elt Ideal) ((c : Thread nD τ).loc b))

/-- The zero offsets of a whole-block access, as the constant function. -/
theorem zeroOffsets2_2 : (![0, 0] : Fin 2 → Nat) = fun _ => 0 := funext fun a => by fin_cases a <;> rfl
theorem zeroOffsets1_2 : (![0] : Fin 1 → Nat) = fun _ => 0 := funext fun a => by fin_cases a <;> rfl

/-- The block index maps, decided over the 50 grid points: the two row-blocked operands move with the result's block
    along the rows, every other operand is read whole (block index zero), and the result's row-block index is below 50. -/
theorem blockIndex2 : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 1) = 0
    ∧ win2_7.index t (0 : Fin 2) ≤ 49 ∧ win2_7.index t (1 : Fin 2) = 0 :=
  (by decide +kernel : ∀ t : Fin grid2.N, _)

/-- Every one of the 50 row blocks is some grid point's. -/
theorem blockOnto2 : ∀ q0 : Fin 50, ∃ t : Fin cfg2.N, win2_7.index t (0 : Fin 2) = q0.val :=
  (by decide +kernel : ∀ q0 : Fin 50, ∃ t : Fin grid2.N, win2_7.index t (0 : Fin 2) = q0.val)

set_option maxHeartbeats 1000000 in
/-- What grid point t writes back is block t of the update of the whole arrays: the body's payload is the update of the
    seven loaded blocks; the two row-blocked operands' blocks sit where the result's block sits, and every other operand's
    block is the whole operand. -/
theorem flushed2 (c : Dev nD) (t : Fin cfg2.N) :
    (Gen.dat2 (F := Ideal) V c).flushed 7 t = ((cfg2.win 7).blk t).view.read (Elt Ideal)
      (Cert.SageSpec.sageLast 100000 (V c main_v96) (V c main_v66) (V c main_v124) (V c main_v117) (V c main_v125) (V c main_v121) (V c main_v123)) := by
  show (cfg2.win 7).cut (grid2.coords t) ((Gen.dat2 V c).after 7 t) = _
  rw [Gen.after2_7]
  unfold Gen.out2_7
  rw [View.canon_unit_zero zeroOffsets2_2]
  simp only [View.ld_unit_zero (S := S2000x256) zeroOffsets2_2, View.ld_unit_zero (S := S256x256) zeroOffsets2_2,
    View.ld_unit_zero (S := S256) zeroOffsets1_2]
  rw [SageRow.pay2]
  obtain ⟨a0, a1, b0, b1, c0, c1, d0, e0, e1, f0, g0, h0, h1⟩ := blockIndex2 t
  funext j
  refine Cert.SageSpec.sageLast_block 100000 2000 (V c main_v96) (V c main_v66) (V c main_v124) (V c main_v117)
    (V c main_v125) (V c main_v121) (V c main_v123)
    ((cfg2.win 0).blk t).view.emb ((cfg2.win 1).blk t).view.emb ((cfg2.win 7).blk t).view.emb
    ((cfg2.win 2).blk t).view.emb ((cfg2.win 4).blk t).view.emb
    ((cfg2.win 3).blk t).view.emb ((cfg2.win 5).blk t).view.emb ((cfg2.win 6).blk t).view.emb
    (fun y => ?_) (fun y => ?_) (fun y => ?_) (fun y => ?_) (fun y => ?_) (fun y => ?_) (fun y => ?_)
    (win2_7.index t (0 : Fin 2) * 2000) (fun y => ?_) (fun y => ?_) j
  · funext a; apply Fin.ext
    match a with
    | ⟨0, _⟩ => show win2_0.index t (0 : Fin 2) * 2000 + 1 * (y 0).val = win2_7.index t (0 : Fin 2) * 2000 + 1 * (y 0).val; rw [a0]
    | ⟨1, _⟩ => show win2_0.index t (1 : Fin 2) * 256 + 1 * (y 1).val = win2_7.index t (1 : Fin 2) * 256 + 1 * (y 1).val; rw [a1, h1]
  · funext a; apply Fin.ext
    match a with
    | ⟨0, _⟩ => show win2_1.index t (0 : Fin 2) * 2000 + 1 * (y 0).val = win2_7.index t (0 : Fin 2) * 2000 + 1 * (y 0).val; rw [b0]
    | ⟨1, _⟩ => show win2_1.index t (1 : Fin 2) * 256 + 1 * (y 1).val = win2_7.index t (1 : Fin 2) * 256 + 1 * (y 1).val; rw [b1, h1]
  · funext a; apply Fin.ext
    match a with
    | ⟨0, _⟩ => show win2_2.index t (0 : Fin 2) * 256 + 1 * (y 0).val = (y 0).val; rw [c0]; omega
    | ⟨1, _⟩ => show win2_2.index t (1 : Fin 2) * 256 + 1 * (y 1).val = (y 1).val; rw [c1]; omega
  · funext a; apply Fin.ext
    match a with
    | ⟨0, _⟩ => show win2_3.index t (0 : Fin 1) * 256 + 1 * (y 0).val = (y 0).val; rw [d0]; omega
  · funext a; apply Fin.ext
    match a with
    | ⟨0, _⟩ => show win2_4.index t (0 : Fin 2) * 256 + 1 * (y 0).val = (y 0).val; rw [e0]; omega
    | ⟨1, _⟩ => show win2_4.index t (1 : Fin 2) * 256 + 1 * (y 1).val = (y 1).val; rw [e1]; omega
  · funext a; apply Fin.ext
    match a with
    | ⟨0, _⟩ => show win2_5.index t (0 : Fin 1) * 256 + 1 * (y 0).val = (y 0).val; rw [f0]; omega
  · funext a; apply Fin.ext
    match a with
    | ⟨0, _⟩ => show win2_6.index t (0 : Fin 1) * 256 + 1 * (y 0).val = (y 0).val; rw [g0]; omega
  · show win2_7.index t (0 : Fin 2) * 2000 + 1 * (y 0).val = win2_7.index t (0 : Fin 2) * 2000 + (y 0).val; omega
  · show win2_7.index t (1 : Fin 2) * 256 + 1 * (y 1).val = (y 1).val; rw [h1]; omega

/-- An entry of the array is in grid point t's block iff each coordinate is in the block's range on its axis. -/
theorem mem_block2 (t : Fin cfg2.N) (i : S100000x256.Idx) :
    i ∈ ((cfg2.win 7).blk t).view.set ↔ ∀ a : Fin 2, win2_7.index t a * S2000x256.size a ≤ (i a).val
      ∧ (i a).val < win2_7.index t a * S2000x256.size a + S2000x256.size a := by
  show i ∈ ((View.whole main_v126).slice (win2_7.rect t)).set ↔ _
  rw [View.set_slice_whole, Rect.mem_set_unit]
  exact Iff.rfl

/-- Every entry of the array is in some grid point's block: row r is in row block r / 2000, and the one column block
    holds all 256 columns. -/
theorem covered2 (i : S100000x256.Idx) :
    ∃ t : Fin cfg2.N, (cfg2.win 7).flush t = true ∧ i ∈ ((cfg2.win 7).blk t).view.set := by
  have hi0 : (i 0).val < 100000 := (i 0).isLt
  have hi1 : (i 1).val < 256 := (i 1).isLt
  obtain ⟨t, ht⟩ := blockOnto2 ⟨(i 0).val / 2000, by omega⟩
  have q0 : win2_7.index t (0 : Fin 2) = (i 0).val / 2000 := ht
  obtain ⟨-, -, -, -, -, -, -, -, -, -, -, -, q1⟩ := blockIndex2 t
  refine ⟨t, Gen.flush2_7 t, ?_⟩
  rw [mem_block2]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 256 ≤ (i 1).val ∧ (i 1).val < win2_7.index t (1 : Fin 2) * 256 + 256
    omega

/-- The result array after the 50 grid points: the update of the whole arrays as the region finds them. -/
theorem final2 (c : Dev nD) :
    (Gen.dat2 (F := Ideal) V c).arrAt 7 cfg2.N
      = Cert.SageSpec.sageLast 100000 (V c main_v96) (V c main_v66) (V c main_v124) (V c main_v117) (V c main_v125)
          (V c main_v121) (V c main_v123) :=
  (Gen.dat2 (F := Ideal) V c).arrAt_eq_of_cover 7 _ (fun t _ => flushed2 V c t) covered2

end Cert.KernelIdeal.SageRegion

end
-- ==== Proof.Region3.lean ====
/-
  Region 3: from the blocks the 50 grid points write back to the whole result array.

  Grid point t computes, from the 2000 rows of its row block of the neighbour means and of the node's own features and from
  the whole of the two weight matrices, the bias and the normalisation's scale and shift, the update of those 2000 rows,
  and writes it back to the same rows of the result. The update of a row depends on that row of the two row-blocked
  operands only, so what point t writes is its row block of the update of the whole arrays; the 50 blocks tile the 100000 rows;
  hence the result array ends holding `Cert.SageSpec.sageLast 100000` of the seven arrays as the region finds them.
-/
import proofs.«170343_j45792941310085_1_alg».proof.Proof.Gen.KernelIdeal.Frame
import proofs.«170343_j45792941310085_1_alg».proof.Proof.KernelRow
import proofs.«170343_j45792941310085_1_alg».proof.Proof.SageBlock

set_option maxRecDepth 16384

noncomputable section

namespace Cert.KernelIdeal.SageRegion

open Idealize.ShloMosaic Idealize.ShloMosaic.TcCoe Idealize.SL.Sem Idealize.ShloMosaic.ValueIdx
open Idealize.ShloMosaic.Pipeline Cert.KernelIdeal

variable (V : (c : Dev nD) → (b : Ref sig .tc) → Buf (Elt Ideal) ((c : Thread nD τ).loc b))

/-- The zero offsets of a whole-block access, as the constant function. -/
theorem zeroOffsets2_3 : (![0, 0] : Fin 2 → Nat) = fun _ => 0 := funext fun a => by fin_cases a <;> rfl
theorem zeroOffsets1_3 : (![0] : Fin 1 → Nat) = fun _ => 0 := funext fun a => by fin_cases a <;> rfl

/-- The block index maps, decided over the 50 grid points: the two row-blocked operands move with the result's block
    along the rows, every other operand is read whole (block index zero), and the result's row-block index is below 50. -/
theorem blockIndex3 : ∀ t : Fin cfg3.N,
    win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 1) = 0
    ∧ win3_7.index t (0 : Fin 2) ≤ 49 ∧ win3_7.index t (1 : Fin 2) = 0 :=
  (by decide +kernel : ∀ t : Fin grid3.N, _)

/-- Every one of the 50 row blocks is some grid point's. -/
theorem blockOnto3 : ∀ q0 : Fin 50, ∃ t : Fin cfg3.N, win3_7.index t (0 : Fin 2) = q0.val :=
  (by decide +kernel : ∀ q0 : Fin 50, ∃ t : Fin grid3.N, win3_7.index t (0 : Fin 2) = q0.val)

set_option maxHeartbeats 1000000 in
/-- What grid point t writes back is block t of the update of the whole arrays: the body's payload is the update of the
    seven loaded blocks; the two row-blocked operands' blocks sit where the result's block sits, and every other operand's
    block is the whole operand. -/
theorem flushed3 (c : Dev nD) (t : Fin cfg3.N) :
    (Gen.dat3 (F := Ideal) V c).flushed 7 t = ((cfg3.win 7).blk t).view.read (Elt Ideal)
      (Cert.SageSpec.sageLast 100000 (V c main_v113) (V c main_v79) (V c main_v137) (V c main_v130) (V c main_v138) (V c main_v134) (V c main_v136)) := by
  show (cfg3.win 7).cut (grid3.coords t) ((Gen.dat3 V c).after 7 t) = _
  rw [Gen.after3_7]
  unfold Gen.out3_7
  rw [View.canon_unit_zero zeroOffsets2_3]
  simp only [View.ld_unit_zero (S := S2000x256) zeroOffsets2_3, View.ld_unit_zero (S := S256x256) zeroOffsets2_3,
    View.ld_unit_zero (S := S256) zeroOffsets1_3]
  rw [SageRow.pay3]
  obtain ⟨a0, a1, b0, b1, c0, c1, d0, e0, e1, f0, g0, h0, h1⟩ := blockIndex3 t
  funext j
  refine Cert.SageSpec.sageLast_block 100000 2000 (V c main_v113) (V c main_v79) (V c main_v137) (V c main_v130)
    (V c main_v138) (V c main_v134) (V c main_v136)
    ((cfg3.win 0).blk t).view.emb ((cfg3.win 1).blk t).view.emb ((cfg3.win 7).blk t).view.emb
    ((cfg3.win 2).blk t).view.emb ((cfg3.win 4).blk t).view.emb
    ((cfg3.win 3).blk t).view.emb ((cfg3.win 5).blk t).view.emb ((cfg3.win 6).blk t).view.emb
    (fun y => ?_) (fun y => ?_) (fun y => ?_) (fun y => ?_) (fun y => ?_) (fun y => ?_) (fun y => ?_)
    (win3_7.index t (0 : Fin 2) * 2000) (fun y => ?_) (fun y => ?_) j
  · funext a; apply Fin.ext
    match a with
    | ⟨0, _⟩ => show win3_0.index t (0 : Fin 2) * 2000 + 1 * (y 0).val = win3_7.index t (0 : Fin 2) * 2000 + 1 * (y 0).val; rw [a0]
    | ⟨1, _⟩ => show win3_0.index t (1 : Fin 2) * 256 + 1 * (y 1).val = win3_7.index t (1 : Fin 2) * 256 + 1 * (y 1).val; rw [a1, h1]
  · funext a; apply Fin.ext
    match a with
    | ⟨0, _⟩ => show win3_1.index t (0 : Fin 2) * 2000 + 1 * (y 0).val = win3_7.index t (0 : Fin 2) * 2000 + 1 * (y 0).val; rw [b0]
    | ⟨1, _⟩ => show win3_1.index t (1 : Fin 2) * 256 + 1 * (y 1).val = win3_7.index t (1 : Fin 2) * 256 + 1 * (y 1).val; rw [b1, h1]
  · funext a; apply Fin.ext
    match a with
    | ⟨0, _⟩ => show win3_2.index t (0 : Fin 2) * 256 + 1 * (y 0).val = (y 0).val; rw [c0]; omega
    | ⟨1, _⟩ => show win3_2.index t (1 : Fin 2) * 256 + 1 * (y 1).val = (y 1).val; rw [c1]; omega
  · funext a; apply Fin.ext
    match a with
    | ⟨0, _⟩ => show win3_3.index t (0 : Fin 1) * 256 + 1 * (y 0).val = (y 0).val; rw [d0]; omega
  · funext a; apply Fin.ext
    match a with
    | ⟨0, _⟩ => show win3_4.index t (0 : Fin 2) * 256 + 1 * (y 0).val = (y 0).val; rw [e0]; omega
    | ⟨1, _⟩ => show win3_4.index t (1 : Fin 2) * 256 + 1 * (y 1).val = (y 1).val; rw [e1]; omega
  · funext a; apply Fin.ext
    match a with
    | ⟨0, _⟩ => show win3_5.index t (0 : Fin 1) * 256 + 1 * (y 0).val = (y 0).val; rw [f0]; omega
  · funext a; apply Fin.ext
    match a with
    | ⟨0, _⟩ => show win3_6.index t (0 : Fin 1) * 256 + 1 * (y 0).val = (y 0).val; rw [g0]; omega
  · show win3_7.index t (0 : Fin 2) * 2000 + 1 * (y 0).val = win3_7.index t (0 : Fin 2) * 2000 + (y 0).val; omega
  · show win3_7.index t (1 : Fin 2) * 256 + 1 * (y 1).val = (y 1).val; rw [h1]; omega

/-- An entry of the array is in grid point t's block iff each coordinate is in the block's range on its axis. -/
theorem mem_block3 (t : Fin cfg3.N) (i : S100000x256.Idx) :
    i ∈ ((cfg3.win 7).blk t).view.set ↔ ∀ a : Fin 2, win3_7.index t a * S2000x256.size a ≤ (i a).val
      ∧ (i a).val < win3_7.index t a * S2000x256.size a + S2000x256.size a := by
  show i ∈ ((View.whole main_v139).slice (win3_7.rect t)).set ↔ _
  rw [View.set_slice_whole, Rect.mem_set_unit]
  exact Iff.rfl

/-- Every entry of the array is in some grid point's block: row r is in row block r / 2000, and the one column block
    holds all 256 columns. -/
theorem covered3 (i : S100000x256.Idx) :
    ∃ t : Fin cfg3.N, (cfg3.win 7).flush t = true ∧ i ∈ ((cfg3.win 7).blk t).view.set := by
  have hi0 : (i 0).val < 100000 := (i 0).isLt
  have hi1 : (i 1).val < 256 := (i 1).isLt
  obtain ⟨t, ht⟩ := blockOnto3 ⟨(i 0).val / 2000, by omega⟩
  have q0 : win3_7.index t (0 : Fin 2) = (i 0).val / 2000 := ht
  obtain ⟨-, -, -, -, -, -, -, -, -, -, -, -, q1⟩ := blockIndex3 t
  refine ⟨t, Gen.flush3_7 t, ?_⟩
  rw [mem_block3]
  intro a
  match a with
  | ⟨0, _⟩ =>
    show win3_7.index t (0 : Fin 2) * 2000 ≤ (i 0).val ∧ (i 0).val < win3_7.index t (0 : Fin 2) * 2000 + 2000
    omega
  | ⟨1, _⟩ =>
    show win3_7.index t (1 : Fin 2) * 256 ≤ (i 1).val ∧ (i 1).val < win3_7.index t (1 : Fin 2) * 256 + 256
    omega

/-- The result array after the 50 grid points: the update of the whole arrays as the region finds them. -/
theorem final3 (c : Dev nD) :
    (Gen.dat3 (F := Ideal) V c).arrAt 7 cfg3.N
      = Cert.SageSpec.sageLast 100000 (V c main_v113) (V c main_v79) (V c main_v137) (V c main_v130) (V c main_v138)
          (V c main_v134) (V c main_v136) :=
  (Gen.dat3 (F := Ideal) V c).arrAt_eq_of_cover 7 _ (fun t _ => flushed3 V c t) covered3

end Cert.KernelIdeal.SageRegion

end
-- ==== Proof.KernelValue.lean ====
/-
  The idealized kernel's result buffer holds the model's value.

  Each launch's output array is the update `SageSpec.sageLast` of its seven input arrays as the launch finds them
  (the per-launch modules: every grid point writes its 2000 rows, the fifty blocks cover the array).  The walk back
  through the run's boundaries says what those seven arrays are: for the first layer, pieces of the arguments; for the
  second, pieces of the arguments and of the first layer's two results.  Put together, the result buffer — the second
  layer's two arrays stacked — is the model's `result` of the fourteen arguments.
-/
import proofs.«170343_j45792941310085_1_alg».proof.Proof.KernelWalk
import proofs.«170343_j45792941310085_1_alg».proof.Proof.Region0
import proofs.«170343_j45792941310085_1_alg».proof.Proof.Region1
import proofs.«170343_j45792941310085_1_alg».proof.Proof.Region2
import proofs.«170343_j45792941310085_1_alg».proof.Proof.Region3

set_option maxRecDepth 16384

noncomputable section

namespace Cert.KernelIdeal.SageValue

open Idealize.ShloMosaic Idealize.ShloMosaic.TcCoe Idealize.SL.Sem
open Cert.KernelIdeal Cert.KernelIdeal.Gen Cert.KernelIdeal.Model Cert.KernelIdeal.SageWalk Cert.KernelIdeal.SageRegion

variable (m : (ℓ : Loc nD τ sig) → Buf (Elt Ideal) ℓ) (ρ : Dev nD → PrngReg) (c : Dev nD)

/-- The first layer's items: the first launch's update of the users' neighbour means and the items' own rows. -/
theorem I1_eq : I1 m ρ c = item1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg12)) (m ((c.tc : Thread nD τ).loc main_arg13)) :=
  (I1_arr m ρ c).trans ((final0 (V1 m ρ) c).trans (by
    rw [in0_0 m ρ c, in0_1 m ρ c, in0_2 m ρ c, in0_3 m ρ c, in0_4 m ρ c, in0_5 m ρ c, in0_6 m ρ c]
    rfl))

/-- The first layer's users: the second launch's update of the items' neighbour means and the users' own rows. -/
theorem U1_eq : U1 m ρ c = user1 (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (U1_arr m ρ c).trans ((final1 (V3 m ρ) c).trans (by
    rw [in1_0 m ρ c, in1_1 m ρ c, in1_2 m ρ c, in1_3 m ρ c, in1_4 m ρ c, in1_5 m ρ c, in1_6 m ρ c]
    rfl))

/-- The second layer's items, from the first layer's two results. -/
theorem I2_eq : I2 m ρ c = item2 (U1 m ρ c) (I1 m ρ c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg12)) (m ((c.tc : Thread nD τ).loc main_arg13)) :=
  (I2_arr m ρ c).trans ((final2 (V5 m ρ) c).trans (by
    rw [in2_0 m ρ c, in2_1 m ρ c, in2_2 m ρ c, in2_3 m ρ c, in2_4 m ρ c, in2_5 m ρ c, in2_6 m ρ c]
    rfl))

/-- The second layer's users, from the first layer's two results. -/
theorem U2_eq : U2 m ρ c = user2 (U1 m ρ c) (I1 m ρ c) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (U2_arr m ρ c).trans ((final3 (V7 m ρ) c).trans (by
    rw [in3_0 m ρ c, in3_1 m ρ c, in3_2 m ρ c, in3_3 m ρ c, in3_4 m ρ c, in3_5 m ρ c, in3_6 m ρ c]
    rfl))

/-- The result buffer at the last boundary is the model's value of the launch memory's fourteen arguments. -/
theorem result_eq : W9 m ρ c (Proc.devRef .tc main_v142)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [out9 m ρ c, U2_eq m ρ c, I2_eq m ρ c, U1_eq m ρ c, I1_eq m ρ c]
  rfl

end Cert.KernelIdeal.SageValue

end
-- ==== Proof.RefHalf.lean ====
/-
  One half of one layer of the reference, as a function of its eight inputs, and what it computes.

  From the neighbour sums A, the neighbour counts S, the node's own features X, two transposed weight matrices, a bias
  and the normalisation's scale and shift, the half computes, row by row,
      C    = max S 1,   mean = A / C
      y    = (mean · Wl + bl) + X · Wr
      mu   = (Σ_j y_j) / 256,   d = y − mu,   var = (Σ_j d_j · d_j) / 256
      out  = max (d · rsqrt (var + eps) · g + b, 0)
  with every broadcast, contraction and row sum an array operation.  Read at one index (n, q) each array operation is
  the scalar operation on the entries it reads: a broadcast reads its operand at the coordinates it keeps, a contraction
  is the sum over the 256 contracted coordinates, a row sum the zero word plus the sum over the 256 columns.  Composed,
  the half at (n, q) is the specification's normalised row, the bias added between the two contractions.
-/
import proofs.«170343_j45792941310085_1_alg».proof.ReferenceIdeal
import proofs.«170343_j45792941310085_1_alg».proof.Proof.Gen.ReferenceIdeal
import proofs.«170343_j45792941310085_1_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.SageRef

open Idealize.ShloMosaic Idealize.ShloMosaic.ValueIdx Cert.ReferenceIdeal Cert.ReferenceIdeal.Gen

/-! ## The half's operations, composed as the program composes them -/

/-- The count clamped below by one, on every column: max S 1, as a column, then across the 256 columns. -/
def refCount (S : FVec Ideal S100000 .f32) : FVec Ideal S100000x256 .f32 :=
  broadcastInDim S100000x256 ![0, 1] bcast_S100000x1_S100000x256_0_1
    (broadcastInDim S100000x1 ![0] bcast_S100000_S100000x1_0
      (maximumf S (broadcastInDim S100000 ![] bcast_S_S100000 (constant (F := Ideal) S_ .f32 0x3F800000#32))))

/-- A 256-vector on every row: as a 1 × 256 row, then down the 100000 rows. -/
def refBias (v : FVec Ideal S256 .f32) : FVec Ideal S100000x256 .f32 :=
  broadcastInDim S100000x256 ![0, 1] bcast_S1x256_S100000x256_0_1 (broadcastInDim S1x256 ![1] bcast_S256_S1x256_1 v)

/-- The rows before normalisation: (mean · Wl + bl) + X · Wr, the mean the neighbour sum over the clamped count. -/
def refPre (A : FVec Ideal S100000x256 .f32) (S : FVec Ideal S100000 .f32) (X : FVec Ideal S100000x256 .f32)
    (wlt : FVec Ideal S256x256 .f32) (bl : FVec Ideal S256 .f32) (wrt : FVec Ideal S256x256 .f32) :
    FVec Ideal S100000x256 .f32 :=
  addf
    (addf (Host.dotGeneral dot_S100000x256_S256x256_S100000x256_1_0_0_1_n_n none (Host.divf A (refCount S)) wlt) (refBias bl))
    (Host.dotGeneral dot_S100000x256_S256x256_S100000x256_1_0_0_1_n_n none X wrt)

/-- A column across the 256 columns. -/
def refSpread (m : FVec Ideal S100000x1 .f32) : FVec Ideal S100000x256 .f32 :=
  broadcastInDim S100000x256 ![0, 1] bcast_S100000x1_S100000x256_0_1 m

/-- The mean of each row, as a column: the row sum from the zero word, over 256. -/
def refRowMean (y : FVec Ideal S100000x256 .f32) : FVec Ideal S100000x1 .f32 :=
  Host.divf
    (broadcastInDim S100000x1 ![0] bcast_S100000_S100000x1_0
      (Host.reduceAdd y (constant (F := Ideal) S_ .f32 0x00000000#32) reducesTo_S100000x256_S100000_d1 h_S_))
    (broadcastInDim S100000x1 ![] bcast_S_S100000x1 (constant (F := Ideal) S_ .f32 0x43800000#32))

/-- Layer normalisation of each row, scale, shift and the positive part. -/
def refLn (y : FVec Ideal S100000x256 .f32) (g b : FVec Ideal S256 .f32) : FVec Ideal S100000x256 .f32 :=
  maximumf
    (addf
      (mulf
        (mulf
          (subf y (refSpread (refRowMean y)))
          (refSpread
            (Host.rsqrt
              (addf
                (refRowMean (mulf (subf y (refSpread (refRowMean y))) (subf y (refSpread (refRowMean y)))))
                (broadcastInDim S100000x1 ![] bcast_S_S100000x1 (constant (F := Ideal) S_ .f32 0x3727C5AC#32))))))
        (refBias g))
      (refBias b))
    (broadcastInDim S100000x256 ![] bcast_S_S100000x256 (constant (F := Ideal) S_ .f32 0x00000000#32))

/-- One half of one layer: the rows, then their normalisation. -/
def refHalf (A : FVec Ideal S100000x256 .f32) (S : FVec Ideal S100000 .f32) (X : FVec Ideal S100000x256 .f32)
    (wlt : FVec Ideal S256x256 .f32) (bl : FVec Ideal S256 .f32) (wrt : FVec Ideal S256x256 .f32)
    (g b : FVec Ideal S256 .f32) : FVec Ideal S100000x256 .f32 :=
  refLn (refPre A S X wlt bl wrt) g b

/-! ## Each operation read at an index -/

/-- A scalar broadcast to a column reads the scalar. -/
theorem scalarCol_apply (c : FVec Ideal S_ .f32) (n : Fin 100000) :
    broadcastInDim S100000x1 ![] bcast_S_S100000x1 c (ix2 n (0 : Fin 1)) = c ix0 :=
  broadcastInDim_apply _ bcast_S_S100000x1 c (ix2 n (0 : Fin 1)) ix0 (fun a => a.elim0)

/-- A vector made a column reads the vector at the row. -/
theorem col_apply (v : FVec Ideal S100000 .f32) (n : Fin 100000) :
    broadcastInDim S100000x1 ![0] bcast_S100000_S100000x1_0 v (ix2 n (0 : Fin 1)) = v (ix1 n) :=
  broadcastInDim_apply _ bcast_S100000_S100000x1_0 v (ix2 n (0 : Fin 1)) (ix1 n) (fun a => match a with
    | ⟨0, _⟩ => by show n.val = if (100000 : Nat) = 1 then 0 else n.val; rw [if_neg (by decide)])

/-- A column spread across the columns reads the column at the row. -/
theorem refSpread_apply (m : FVec Ideal S100000x1 .f32) (n : Fin 100000) (q : Fin 256) :
    refSpread m (ix2 n q) = m (ix2 n (0 : Fin 1)) :=
  broadcastInDim_apply _ bcast_S100000x1_S100000x256_0_1 m (ix2 n q) (ix2 n (0 : Fin 1)) (fun a => match a with
    | ⟨0, _⟩ => by show n.val = if (100000 : Nat) = 1 then 0 else n.val; rw [if_neg (by decide)]
    | ⟨1, _⟩ => by show 0 = if (1 : Nat) = 1 then 0 else q.val; rw [if_pos rfl])

/-- A 256-vector on every row reads the vector at the column. -/
theorem refBias_apply (v : FVec Ideal S256 .f32) (n : Fin 100000) (q : Fin 256) :
    refBias v (ix2 n q) = v (ix1 q) := by
  unfold refBias
  refine (broadcastInDim_apply _ bcast_S1x256_S100000x256_0_1 _ (ix2 n q) (ix2 (0 : Fin 1) q) (fun a => match a with
    | ⟨0, _⟩ => by show 0 = if (1 : Nat) = 1 then 0 else n.val; rw [if_pos rfl]
    | ⟨1, _⟩ => by show q.val = if (256 : Nat) = 1 then 0 else q.val; rw [if_neg (by decide)])).trans ?_
  exact broadcastInDim_apply _ bcast_S256_S1x256_1 v (ix2 (0 : Fin 1) q) (ix1 q) (fun a => match a with
    | ⟨0, _⟩ => by show q.val = if (256 : Nat) = 1 then 0 else q.val; rw [if_neg (by decide)])

/-- The clamped count at (n, q) is max (S n) 1. -/
theorem refCount_apply (S : FVec Ideal S100000 .f32) (n : Fin 100000) (q : Fin 256) :
    refCount S (ix2 n q) = max (S (ix1 n)) Cert.SageSpec.cone := by
  unfold refCount
  refine (refSpread_apply _ n q).trans ?_
  refine (col_apply _ n).trans ?_
  rw [maximumf_apply]
  refine congrArg (max (S (ix1 n))) ?_
  exact broadcastInDim_apply _ bcast_S_S100000 _ (ix1 n) ix0 (fun a => a.elim0)

/-! ### The contraction -/

theorem dot_lhs_0 (i : S100000x256.Idx) (k : dot_S100000x256_S256x256_S100000x256_1_0_0_1_n_n.contr.Idx) :
    (dot_S100000x256_S256x256_S100000x256_1_0_0_1_n_n.lhsIdx i k 0).val = (i 0).val := by
  unfold DotDims.lhsIdx
  rw [dif_neg (show ¬(0 : Fin S100000x256.rank) ∈ dot_S100000x256_S256x256_S100000x256_1_0_0_1_n_n.lhsBatch by decide),
    dif_pos (show (0 : Fin S100000x256.rank) ∈ dot_S100000x256_S256x256_S100000x256_1_0_0_1_n_n.lhsNonContracting by decide)]
  rfl
theorem dot_lhs_1 (i : S100000x256.Idx) (k : dot_S100000x256_S256x256_S100000x256_1_0_0_1_n_n.contr.Idx) :
    (dot_S100000x256_S256x256_S100000x256_1_0_0_1_n_n.lhsIdx i k 1).val = (k ⟨0, by decide⟩).val :=
  dot_S100000x256_S256x256_S100000x256_1_0_0_1_n_n.lhsIdx_val_of_single rfl i k
theorem dot_rhs_0 (i : S100000x256.Idx) (k : dot_S100000x256_S256x256_S100000x256_1_0_0_1_n_n.contr.Idx) :
    (dot_S100000x256_S256x256_S100000x256_1_0_0_1_n_n.rhsIdx i k 0).val = (k ⟨0, by decide⟩).val :=
  dot_S100000x256_S256x256_S100000x256_1_0_0_1_n_n.rhsIdx_val_of_single rfl i k
theorem dot_rhs_1 (i : S100000x256.Idx) (k : dot_S100000x256_S256x256_S100000x256_1_0_0_1_n_n.contr.Idx) :
    (dot_S100000x256_S256x256_S100000x256_1_0_0_1_n_n.rhsIdx i k 1).val = (i 1).val := by
  unfold DotDims.rhsIdx
  rw [dif_neg (show ¬(1 : Fin S256x256.rank) ∈ dot_S100000x256_S256x256_S100000x256_1_0_0_1_n_n.rhsBatch by decide),
    dif_pos (show (1 : Fin S256x256.rank) ∈ dot_S100000x256_S256x256_S100000x256_1_0_0_1_n_n.rhsNonContracting by decide)]
  rfl

/-- A rows-by-columns contraction at (n, q) is the sum over the 256 contracted coordinates of row n of the left operand
    times column q of the right. -/
theorem dot_apply (Lh : FVec Ideal S100000x256 .f32) (Rh : FVec Ideal S256x256 .f32) (n : Fin 100000) (q : Fin 256) :
    Host.dotGeneral dot_S100000x256_S256x256_S100000x256_1_0_0_1_n_n none Lh Rh (ix2 n q) = ∑ k : Fin 256, Lh (ix2 n k) * Rh (ix2 k q) := by
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 n q) ((contrEquiv1 dot_S100000x256_S256x256_S100000x256_1_0_0_1_n_n 256 rfl rfl).symm k) = ix2 n k :=
    funext fun a => Fin.ext (by
      match a with
      | ⟨0, _⟩ => exact dot_lhs_0 _ _
      | ⟨1, _⟩ => exact (dot_lhs_1 _ _).trans hk)
  have er : dot_S100000x256_S256x256_S100000x256_1_0_0_1_n_n.rhsIdx (ix2 n q) ((contrEquiv1 dot_S100000x256_S256x256_S100000x256_1_0_0_1_n_n 256 rfl rfl).symm k) = ix2 k q :=
    funext fun a => Fin.ext (by
      match a with
      | ⟨0, _⟩ => exact (dot_rhs_0 _ _).trans hk
      | ⟨1, _⟩ => exact dot_rhs_1 _ _)
  rw [el, er]

/-! ### The row sum -/

/-- A row sum from the zero word at row n is the sum of the row's 256 entries. -/
theorem rowSum_apply (y : FVec Ideal S100000x256 .f32) (n : Fin 100000) :
    Host.reduceAdd y (constant (F := Ideal) S_ .f32 0x00000000#32) reducesTo_S100000x256_S100000_d1 h_S_ (ix1 n)
      = ∑ k : Fin 256, y (ix2 n k) := by
  simp only [Host.reduceAdd, Ideal.hostReduceAdd_def]
  rw [Ideal.hostReduceAdd_single reducesTo_S100000x256_S100000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The row mean at row n is the row's sum over 256. -/
theorem refRowMean_apply (y : FVec Ideal S100000x256 .f32) (n : Fin 100000) :
    refRowMean y (ix2 n (0 : Fin 1)) = Cert.SageSpec.rowMean (fun j => y (ix2 n j)) := by
  unfold refRowMean Cert.SageSpec.rowMean
  show Ideal.div _ _ = _
  rw [col_apply, rowSum_apply, scalarCol_apply]
  rfl

/-! ## The two stages read at an index -/

/-- The rows before normalisation, at (n, j): the specification's row, the bias added between the contractions. -/
theorem refPre_apply (A : FVec Ideal S100000x256 .f32) (S : FVec Ideal S100000 .f32) (X : FVec Ideal S100000x256 .f32)
    (wlt : FVec Ideal S256x256 .f32) (bl : FVec Ideal S256 .f32) (wrt : FVec Ideal S256x256 .f32)
    (n : Fin 100000) (j : Fin 256) :
    refPre A S X wlt bl wrt (ix2 n j)
      = Cert.SageSpec.preMid (fun k => Ideal.div (A (ix2 n k)) (max (S (ix1 n)) Cert.SageSpec.cone))
          (fun k => X (ix2 n k)) wlt bl wrt j := by
  unfold refPre Cert.SageSpec.preMid
  rw [addf_apply, addf_apply, dot_apply, dot_apply, refBias_apply]
  refine congrArg (fun t => t + bl (ix1 j) + _) (Finset.sum_congr rfl fun k _ => ?_)
  refine congrArg (· * wlt (ix2 k j)) ?_
  show Ideal.div (A (ix2 n k)) (refCount S (ix2 n k)) = _
  rw [refCount_apply]

/-- The normalisation at (n, q): the specification's, of row n. -/
theorem refLn_apply (y : FVec Ideal S100000x256 .f32) (g b : FVec Ideal S256 .f32) (n : Fin 100000) (q : Fin 256) :
    refLn y g b (ix2 n q) = Cert.SageSpec.lnRelu (fun j => y (ix2 n j)) g b q := by
  unfold refLn Cert.SageSpec.lnRelu
  rw [maximumf_apply, addf_apply, mulf_apply, mulf_apply, subf_apply, refSpread_apply, refSpread_apply, refBias_apply,
    refBias_apply, refRowMean_apply]
  have hz : broadcastInDim S100000x256 ![] bcast_S_S100000x256 (constant (F := Ideal) S_ .f32 0x00000000#32) (ix2 n q)
      = Cert.SageSpec.czero :=
    broadcastInDim_apply _ bcast_S_S100000x256 _ (ix2 n q) ix0 (fun a => a.elim0)
  rw [hz]
  refine congrArg (fun t => max ((y (ix2 n q) - Cert.SageSpec.rowMean fun j => y (ix2 n j)) * t * g (ix1 q) + b (ix1 q))
    Cert.SageSpec.czero) ?_
  show Ideal.rsqrt (_ + _) = _
  rw [refRowMean_apply, scalarCol_apply]
  refine congrArg (fun t => Ideal.rsqrt (Ideal.div t Cert.SageSpec.c256 + Cert.SageSpec.ceps)) ?_
  refine Finset.sum_congr rfl fun j _ => ?_
  beta_reduce
  rw [mulf_apply, subf_apply, refSpread_apply, refRowMean_apply]

/-! ## The half is the specification -/

theorem refHalf_eq (A : FVec Ideal S100000x256 .f32) (S : FVec Ideal S100000 .f32) (X : FVec Ideal S100000x256 .f32)
    (wlt : FVec Ideal S256x256 .f32) (bl : FVec Ideal S256 .f32) (wrt : FVec Ideal S256x256 .f32)
    (g b : FVec Ideal S256 .f32) :
    refHalf A S X wlt bl wrt g b
      = Cert.SageSpec.sageMid 100000 (fun j => Ideal.div (A j) (max (S (ix1 (j 0))) Cert.SageSpec.cone)) X wlt bl wrt g b := by
  funext i
  obtain ⟨n, q, rfl⟩ : ∃ (n : Fin 100000) (q : Fin 256), i = ix2 n q := ⟨i 0, i 1, eq_ix2 i⟩
  unfold refHalf Cert.SageSpec.sageMid
  rw [refLn_apply]
  exact congrArg (fun y => Cert.SageSpec.lnRelu y g b q) (funext fun j => refPre_apply A S X wlt bl wrt n j)

end Cert.ReferenceIdeal.SageRef

end
-- ==== Proof.RefKeep8.lean ====
/-
  The reference program cut in eight consecutive pieces: what a piece does not write, it keeps.

  The contents of the device's buffers after a list of operations are a fold: each operation rewrites the one buffer it
  writes and leaves the rest. So the fold over two lists in a row is the fold over the second from what the first left
  (`after_append`), and a buffer that is none of the result buffers of a piece's operations has after the piece the
  contents it had before (`keep1` … `keep8`, over the list of each piece's result buffers).
-/
import proofs.«170343_j45792941310085_1_alg».proof.Proof.RefOps8P
import Idealize.ShloMosaic.Lib.StableHlo.Run
import Idealize.ShloMosaic.PureOps.Ideal

set_option maxRecDepth 16384

noncomputable section

namespace Cert.ReferenceIdeal.SageRun8

open Idealize.ShloMosaic Idealize.ShloMosaic.TcCoe Idealize.SL.Sem Idealize.ShloMosaic.StableHlo
open Cert.ReferenceIdeal Cert.ReferenceIdeal.Gen Cert.ReferenceIdeal.Ops8P

/-- The contents after one list of operations and then another are the contents after their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## Which buffers a piece writes, and that it keeps the others -/

/-- A reference of a list, as a one-element set of device buffers inside the list's. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references piece 1 writes, in order. -/
def wr1 : List (Ref sig .tc) :=
  [main_v0, main_v1, main_v2, main_v3, main_v4, main_v5, main_v6, main_v7, main_c, main_v8, main_v9, main_c_0, main_v10, main_v11, main_v12, main_v13, main_v14, main_v15, main_v16, main_cst, main_v17, main_v18, main_v19, main_cst_1, main_v20, main_v21, main_v22, main_cst_2, main_v23, main_v24, main_v25, main_cst_3, main_v26, main_v27, main_v28, main_v29, main_v30, main_v31, main_v32, main_v33, main_v34, main_v35, main_v36, main_v37, main_v38]

theorem ops1_writes : (ops1 : List (HloOp τ sig (Elt Ideal))).Forall fun op =>
    op.writes ⊆ (wr1.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 1 keeps every buffer it does not write. -/
theorem keep1 (V : Valuation τ sig (Elt Ideal)) (r : Ref sig .tc) (hr : r ∉ wr1) :
    after ops1 V (Proc.devRef .tc r) = V (Proc.devRef .tc r) :=
  after_of_writes_sub ops1 V ops1_writes hr

/-- The references piece 2 writes, in order. -/
def wr2 : List (Ref sig .tc) :=
  [main_v39, main_v40, main_v41, main_v42, main_v43, main_v44, main_v45, main_v46, main_c_4, main_v47, main_v48, main_c_5, main_v49, main_v50, main_v51, main_v52, main_v53, main_v54, main_v55, main_cst_6, main_v56, main_v57, main_v58, main_cst_7, main_v59, main_v60, main_v61, main_cst_8, main_v62, main_v63, main_v64, main_cst_9, main_v65, main_v66, main_v67, main_v68, main_v69, main_v70, main_v71, main_v72, main_v73, main_v74, main_v75, main_v76, main_v77]

theorem ops2_writes : (ops2 : List (HloOp τ sig (Elt Ideal))).Forall fun op =>
    op.writes ⊆ (wr2.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 2 keeps every buffer it does not write. -/
theorem keep2 (V : Valuation τ sig (Elt Ideal)) (r : Ref sig .tc) (hr : r ∉ wr2) :
    after ops2 V (Proc.devRef .tc r) = V (Proc.devRef .tc r) :=
  after_of_writes_sub ops2 V ops2_writes hr

/-- The references piece 3 writes, in order. -/
def wr3 : List (Ref sig .tc) :=
  [main_v78, main_v79, main_v80, main_v81, main_cst_10, main_v82, main_v83, main_cst_11, main_v84, main_v85, main_v86, main_v87, main_v88, main_cst_12, main_v89, main_v90, main_cst_13, main_v91, main_v92, main_v93, main_v94, main_cst_14, main_v95, main_v96, main_v97, main_v98, main_v99, main_v100, main_v101, main_v102, main_v103, main_v104, main_v105, main_call0_cst, main_call0_v0, main_v106]

theorem ops3_writes : (ops3 : List (HloOp τ sig (Elt Ideal))).Forall fun op =>
    op.writes ⊆ (wr3.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 3 keeps every buffer it does not write. -/
theorem keep3 (V : Valuation τ sig (Elt Ideal)) (r : Ref sig .tc) (hr : r ∉ wr3) :
    after ops3 V (Proc.devRef .tc r) = V (Proc.devRef .tc r) :=
  after_of_writes_sub ops3 V ops3_writes hr

/-- The references piece 4 writes, in order. -/
def wr4 : List (Ref sig .tc) :=
  [main_v107, main_v108, main_v109, main_v110, main_cst_15, main_v111, main_v112, main_cst_16, main_v113, main_v114, main_v115, main_v116, main_v117, main_cst_17, main_v118, main_v119, main_cst_18, main_v120, main_v121, main_v122, main_v123, main_cst_19, main_v124, main_v125, main_v126, main_v127, main_v128, main_v129, main_v130, main_v131, main_v132, main_v133, main_v134, main_call1_cst, main_call1_v0, main_v135]

theorem ops4_writes : (ops4 : List (HloOp τ sig (Elt Ideal))).Forall fun op =>
    op.writes ⊆ (wr4.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 4 keeps every buffer it does not write. -/
theorem keep4 (V : Valuation τ sig (Elt Ideal)) (r : Ref sig .tc) (hr : r ∉ wr4) :
    after ops4 V (Proc.devRef .tc r) = V (Proc.devRef .tc r) :=
  after_of_writes_sub ops4 V ops4_writes hr

/-- The references piece 5 writes, in order. -/
def wr5 : List (Ref sig .tc) :=
  [main_v136, main_v137, main_v138, main_v139, main_v140, main_v141, main_v142, main_v143, main_c_20, main_v144, main_v145, main_c_21, main_v146, main_v147, main_v148, main_v149, main_v150, main_v151, main_v152, main_cst_22, main_v153, main_v154, main_v155, main_cst_23, main_v156, main_v157, main_v158, main_cst_24, main_v159, main_v160, main_v161, main_cst_25, main_v162, main_v163, main_v164, main_v165, main_v166, main_v167, main_v168, main_v169, main_v170, main_v171, main_v172, main_v173, main_v174]

theorem ops5_writes : (ops5 : List (HloOp τ sig (Elt Ideal))).Forall fun op =>
    op.writes ⊆ (wr5.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 5 keeps every buffer it does not write. -/
theorem keep5 (V : Valuation τ sig (Elt Ideal)) (r : Ref sig .tc) (hr : r ∉ wr5) :
    after ops5 V (Proc.devRef .tc r) = V (Proc.devRef .tc r) :=
  after_of_writes_sub ops5 V ops5_writes hr

/-- The references piece 6 writes, in order. -/
def wr6 : List (Ref sig .tc) :=
  [main_v175, main_v176, main_v177, main_v178, main_v179, main_v180, main_v181, main_v182, main_c_26, main_v183, main_v184, main_c_27, main_v185, main_v186, main_v187, main_v188, main_v189, main_v190, main_v191, main_cst_28, main_v192, main_v193, main_v194, main_cst_29, main_v195, main_v196, main_v197, main_cst_30, main_v198, main_v199, main_v200, main_cst_31, main_v201, main_v202, main_v203, main_v204, main_v205, main_v206, main_v207, main_v208, main_v209, main_v210, main_v211, main_v212, main_v213]

theorem ops6_writes : (ops6 : List (HloOp τ sig (Elt Ideal))).Forall fun op =>
    op.writes ⊆ (wr6.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 6 keeps every buffer it does not write. -/
theorem keep6 (V : Valuation τ sig (Elt Ideal)) (r : Ref sig .tc) (hr : r ∉ wr6) :
    after ops6 V (Proc.devRef .tc r) = V (Proc.devRef .tc r) :=
  after_of_writes_sub ops6 V ops6_writes hr

/-- The references piece 7 writes, in order. -/
def wr7 : List (Ref sig .tc) :=
  [main_v214, main_v215, main_v216, main_v217, main_cst_32, main_v218, main_v219, main_cst_33, main_v220, main_v221, main_v222, main_v223, main_v224, main_cst_34, main_v225, main_v226, main_cst_35, main_v227, main_v228, main_v229, main_v230, main_cst_36, main_v231, main_v232, main_v233, main_v234, main_v235, main_v236, main_v237, main_v238, main_v239, main_v240, main_v241, main_call2_cst, main_call2_v0, main_v242]

theorem ops7_writes : (ops7 : List (HloOp τ sig (Elt Ideal))).Forall fun op =>
    op.writes ⊆ (wr7.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 7 keeps every buffer it does not write. -/
theorem keep7 (V : Valuation τ sig (Elt Ideal)) (r : Ref sig .tc) (hr : r ∉ wr7) :
    after ops7 V (Proc.devRef .tc r) = V (Proc.devRef .tc r) :=
  after_of_writes_sub ops7 V ops7_writes hr

/-- The references piece 8 writes, in order. -/
def wr8 : List (Ref sig .tc) :=
  [main_v243, main_v244, main_v245, main_v246, main_cst_37, main_v247, main_v248, main_cst_38, main_v249, main_v250, main_v251, main_v252, main_v253, main_cst_39, main_v254, main_v255, main_cst_40, main_v256, main_v257, main_v258, main_v259, main_cst_41, main_v260, main_v261, main_v262, main_v263, main_v264, main_v265, main_v266, main_v267, main_v268, main_v269, main_v270, main_call3_cst, main_call3_v0, main_v271, main_v272, main_v273, main_v274]

theorem ops8_writes : (ops8 : List (HloOp τ sig (Elt Ideal))).Forall fun op =>
    op.writes ⊆ (wr8.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- Piece 8 keeps every buffer it does not write. -/
theorem keep8 (V : Valuation τ sig (Elt Ideal)) (r : Ref sig .tc) (hr : r ∉ wr8) :
    after ops8 V (Proc.devRef .tc r) = V (Proc.devRef .tc r) :=
  after_of_writes_sub ops8 V ops8_writes hr

end Cert.ReferenceIdeal.SageRun8

end
-- ==== Proof.RefPieces8.lean ====
/-
  What each of the eight pieces of the reference program computes, from the buffers it finds.

  A half of a layer is cut where its rows before normalisation are complete. So a piece is either the rows before
  normalisation `refPre` of the neighbour sums, the counts, the node's own rows and the layer's slices of the weights, or
  the normalisation `refLn` of the rows it finds in one buffer; the last piece also stacks the two second-layer results.
  Each statement is over ANY contents `V` of the buffers before the piece: the piece's operations read the arguments
  and, from the second layer on, the buffers earlier pieces left, and nothing else.
-/
import proofs.«170343_j45792941310085_1_alg».proof.Proof.RefOps8P
import proofs.«170343_j45792941310085_1_alg».proof.Proof.RefHalf
import proofs.«170343_j45792941310085_1_alg».proof.Proof.KernelModel
import Idealize.ShloMosaic.Lib.StableHlo.Run

set_option maxRecDepth 16384

noncomputable section

namespace Cert.ReferenceIdeal.SageRun8

open Idealize.ShloMosaic Idealize.ShloMosaic.TcCoe Idealize.SL.Sem Idealize.ShloMosaic.StableHlo
open Cert.ReferenceIdeal Cert.ReferenceIdeal.Gen Cert.ReferenceIdeal.Ops8P Cert.ReferenceIdeal.SageRef Cert.KernelIdeal.Model

set_option maxHeartbeats 4000000 in
/-- The first piece leaves, in %38, the first layer's item rows before normalisation. -/
theorem P1 (V : Valuation τ sig (Elt Ideal)) :
    after ops1 V (Proc.devRef .tc main_v38)
      = refPre (agg (V (Proc.devRef .tc main_arg0)) (V (Proc.devRef .tc main_arg2))) (cnt (V (Proc.devRef .tc main_arg2))) (V (Proc.devRef .tc main_arg1)) (wT0 (V (Proc.devRef .tc main_arg4))) (v0 (V (Proc.devRef .tc main_arg5))) (wT0 (V (Proc.devRef .tc main_arg6))) := by
  after_results_simp
  rfl

set_option maxHeartbeats 4000000 in
/-- The second piece leaves, in %77, the first layer's user rows before normalisation. -/
theorem P2 (V : Valuation τ sig (Elt Ideal)) :
    after ops2 V (Proc.devRef .tc main_v77)
      = refPre (agg (V (Proc.devRef .tc main_arg1)) (V (Proc.devRef .tc main_arg3))) (cnt (V (Proc.devRef .tc main_arg3))) (V (Proc.devRef .tc main_arg0)) (wT0 (V (Proc.devRef .tc main_arg7))) (v0 (V (Proc.devRef .tc main_arg8))) (wT0 (V (Proc.devRef .tc main_arg9))) := by
  after_results_simp
  rfl

set_option maxHeartbeats 4000000 in
/-- The third piece normalises the user rows it finds in %77. -/
theorem P3 (V : Valuation τ sig (Elt Ideal)) :
    after ops3 V (Proc.devRef .tc main_v106)
      = refLn (V (Proc.devRef .tc main_v77)) (v0 (V (Proc.devRef .tc main_arg10))) (v0 (V (Proc.devRef .tc main_arg11))) := by
  after_results_simp
  rfl

set_option maxHeartbeats 4000000 in
/-- The fourth piece normalises the item rows it finds in %38. -/
theorem P4 (V : Valuation τ sig (Elt Ideal)) :
    after ops4 V (Proc.devRef .tc main_v135)
      = refLn (V (Proc.devRef .tc main_v38)) (v0 (V (Proc.devRef .tc main_arg12))) (v0 (V (Proc.devRef .tc main_arg13))) := by
  after_results_simp
  rfl

set_option maxHeartbeats 4000000 in
/-- The fifth piece leaves, in %174, the second layer's item rows before normalisation, from the first layer's two results. -/
theorem P5 (V : Valuation τ sig (Elt Ideal)) :
    after ops5 V (Proc.devRef .tc main_v174)
      = refPre (agg (V (Proc.devRef .tc main_v106)) (V (Proc.devRef .tc main_arg2))) (cnt (V (Proc.devRef .tc main_arg2))) (V (Proc.devRef .tc main_v135)) (wT1 (V (Proc.devRef .tc main_arg4))) (v1 (V (Proc.devRef .tc main_arg5))) (wT1 (V (Proc.devRef .tc main_arg6))) := by
  after_results_simp
  rfl

set_option maxHeartbeats 4000000 in
/-- The sixth piece leaves, in %213, the second layer's user rows before normalisation, from the first layer's two results. -/
theorem P6 (V : Valuation τ sig (Elt Ideal)) :
    after ops6 V (Proc.devRef .tc main_v213)
      = refPre (agg (V (Proc.devRef .tc main_v135)) (V (Proc.devRef .tc main_arg3))) (cnt (V (Proc.devRef .tc main_arg3))) (V (Proc.devRef .tc main_v106)) (wT1 (V (Proc.devRef .tc main_arg7))) (v1 (V (Proc.devRef .tc main_arg8))) (wT1 (V (Proc.devRef .tc main_arg9))) := by
  after_results_simp
  rfl

set_option maxHeartbeats 4000000 in
/-- The seventh piece normalises the user rows it finds in %213. -/
theorem P7 (V : Valuation τ sig (Elt Ideal)) :
    after ops7 V (Proc.devRef .tc main_v242)
      = refLn (V (Proc.devRef .tc main_v213)) (v1 (V (Proc.devRef .tc main_arg10))) (v1 (V (Proc.devRef .tc main_arg11))) := by
  after_results_simp
  rfl

set_option maxHeartbeats 4000000 in
/-- The eighth piece normalises the item rows it finds in %174 and stacks the second layer's two results, users first. -/
theorem P8 (V : Valuation τ sig (Elt Ideal)) :
    after ops8 V (Proc.devRef .tc main_v274)
      = stack (V (Proc.devRef .tc main_v242)) (refLn (V (Proc.devRef .tc main_v174)) (v1 (V (Proc.devRef .tc main_arg12))) (v1 (V (Proc.devRef .tc main_arg13)))) := by
  after_results_simp
  rfl

end Cert.ReferenceIdeal.SageRun8

end
-- ==== Proof.RefRun8.lean ====
/-
  The reference program's run, read: its result buffer ends at the model's value of the fourteen arguments.

  The 327 operations are eight pieces in a row. What each piece computes from the buffers it finds, and that it keeps
  the buffers it does not write, are proved piece by piece; here they are chained. After the first k pieces an argument
  still has its launch contents; the rows before normalisation, and the two results of the first layer, are where the
  later pieces read them; a normalisation of rows before normalisation is a half of a layer, and the reference's half is
  the update over the reciprocal means (`halfR`: the quotient by the clamped count is the product with its reciprocal,
  and the bias may be added before or after the second contraction). So the result buffer is the second layer's two
  halves of the first layer's two, stacked — the model's `result`.
-/
import proofs.«170343_j45792941310085_1_alg».proof.Proof.RefOps8P
import proofs.«170343_j45792941310085_1_alg».proof.Proof.RefHalf
import proofs.«170343_j45792941310085_1_alg».proof.Proof.KernelModel
import proofs.«170343_j45792941310085_1_alg».proof.Proof.RefKeep8
import proofs.«170343_j45792941310085_1_alg».proof.Proof.RefPieces8
import Idealize.ShloMosaic.Lib.StableHlo.Run

set_option maxRecDepth 16384

noncomputable section

namespace Cert.ReferenceIdeal.SageRun8

open Idealize.ShloMosaic Idealize.ShloMosaic.TcCoe Idealize.SL.Sem Idealize.ShloMosaic.StableHlo
open Cert.ReferenceIdeal Cert.ReferenceIdeal.Gen Cert.ReferenceIdeal.Ops8P Cert.ReferenceIdeal.SageRef Cert.KernelIdeal.Model

/-! ## The contents after the first k pieces -/

def at1 (V : Valuation τ sig (Elt Ideal)) : Valuation τ sig (Elt Ideal) := after ops1 V
def at2 (V : Valuation τ sig (Elt Ideal)) : Valuation τ sig (Elt Ideal) := after ops2 (at1 V)
def at3 (V : Valuation τ sig (Elt Ideal)) : Valuation τ sig (Elt Ideal) := after ops3 (at2 V)
def at4 (V : Valuation τ sig (Elt Ideal)) : Valuation τ sig (Elt Ideal) := after ops4 (at3 V)
def at5 (V : Valuation τ sig (Elt Ideal)) : Valuation τ sig (Elt Ideal) := after ops5 (at4 V)
def at6 (V : Valuation τ sig (Elt Ideal)) : Valuation τ sig (Elt Ideal) := after ops6 (at5 V)
def at7 (V : Valuation τ sig (Elt Ideal)) : Valuation τ sig (Elt Ideal) := after ops7 (at6 V)

/-- All 327 operations: the eighth piece from what the first seven leave. -/
theorem after_all (V : Valuation τ sig (Elt Ideal)) : after opsAll V = after ops8 (at7 V) := by
  show after (ops1 ++ (ops2 ++ (ops3 ++ (ops4 ++ (ops5 ++ (ops6 ++ (ops7 ++ ops8))))))) V = _
  rw [after_append, after_append, after_append, after_append, after_append, after_append, after_append]
  rfl

/-! A buffer none of the first k pieces writes has, after them, the contents it had at the start. -/

theorem keepAt1 (V : Valuation τ sig (Elt Ideal)) (r : Ref sig .tc) (h1 : r ∉ wr1) :
    at1 V (Proc.devRef .tc r) = V (Proc.devRef .tc r) :=
  keep1 V r h1
theorem keepAt2 (V : Valuation τ sig (Elt Ideal)) (r : Ref sig .tc) (h1 : r ∉ wr1) (h2 : r ∉ wr2) :
    at2 V (Proc.devRef .tc r) = V (Proc.devRef .tc r) :=
  (keep2 (at1 V) r h2).trans (keepAt1 V r h1)
theorem keepAt3 (V : Valuation τ sig (Elt Ideal)) (r : Ref sig .tc) (h1 : r ∉ wr1) (h2 : r ∉ wr2) (h3 : r ∉ wr3) :
    at3 V (Proc.devRef .tc r) = V (Proc.devRef .tc r) :=
  (keep3 (at2 V) r h3).trans (keepAt2 V r h1 h2)
theorem keepAt4 (V : Valuation τ sig (Elt Ideal)) (r : Ref sig .tc) (h1 : r ∉ wr1) (h2 : r ∉ wr2) (h3 : r ∉ wr3) (h4 : r ∉ wr4) :
    at4 V (Proc.devRef .tc r) = V (Proc.devRef .tc r) :=
  (keep4 (at3 V) r h4).trans (keepAt3 V r h1 h2 h3)
theorem keepAt5 (V : Valuation τ sig (Elt Ideal)) (r : Ref sig .tc) (h1 : r ∉ wr1) (h2 : r ∉ wr2) (h3 : r ∉ wr3) (h4 : r ∉ wr4) (h5 : r ∉ wr5) :
    at5 V (Proc.devRef .tc r) = V (Proc.devRef .tc r) :=
  (keep5 (at4 V) r h5).trans (keepAt4 V r h1 h2 h3 h4)
theorem keepAt6 (V : Valuation τ sig (Elt Ideal)) (r : Ref sig .tc) (h1 : r ∉ wr1) (h2 : r ∉ wr2) (h3 : r ∉ wr3) (h4 : r ∉ wr4) (h5 : r ∉ wr5) (h6 : r ∉ wr6) :
    at6 V (Proc.devRef .tc r) = V (Proc.devRef .tc r) :=
  (keep6 (at5 V) r h6).trans (keepAt5 V r h1 h2 h3 h4 h5)
theorem keepAt7 (V : Valuation τ sig (Elt Ideal)) (r : Ref sig .tc) (h1 : r ∉ wr1) (h2 : r ∉ wr2) (h3 : r ∉ wr3) (h4 : r ∉ wr4) (h5 : r ∉ wr5) (h6 : r ∉ wr6) (h7 : r ∉ wr7) :
    at7 V (Proc.devRef .tc r) = V (Proc.devRef .tc r) :=
  (keep7 (at6 V) r h7).trans (keepAt6 V r h1 h2 h3 h4 h5 h6)

/-! ## The half of a layer the reference computes is the model's -/

/-- The reference's half — the quotient by the clamped count, the bias between the contractions — is the update over
    the reciprocal means with the bias added last. -/
theorem halfR (A : Feat) (S : PerNode) (X : Feat) (wl : W1) (bl : B1) (wr : W1) (g b : B1) :
    refHalf A S X wl bl wr g b = Cert.SageSpec.sageLast 100000 (meanK A S) X wl bl wr g b :=
  (refHalf_eq A S X wl bl wr g b).trans (half_eq_mid A S X wl bl wr g b).symm

/-! ## The buffers the later pieces read, stage by stage, as the model's terms of the arguments -/

/-- The first layer's item rows before normalisation, where the fourth piece finds them. -/
theorem rows38 (V : Valuation τ sig (Elt Ideal)) : at1 V (Proc.devRef .tc main_v38) = refPre (agg (V (Proc.devRef .tc main_arg0)) (V (Proc.devRef .tc main_arg2))) (cnt (V (Proc.devRef .tc main_arg2))) (V (Proc.devRef .tc main_arg1)) (wT0 (V (Proc.devRef .tc main_arg4))) (v0 (V (Proc.devRef .tc main_arg5))) (wT0 (V (Proc.devRef .tc main_arg6))) :=
  P1 V
theorem rows38_at3 (V : Valuation τ sig (Elt Ideal)) : at3 V (Proc.devRef .tc main_v38) = refPre (agg (V (Proc.devRef .tc main_arg0)) (V (Proc.devRef .tc main_arg2))) (cnt (V (Proc.devRef .tc main_arg2))) (V (Proc.devRef .tc main_arg1)) (wT0 (V (Proc.devRef .tc main_arg4))) (v0 (V (Proc.devRef .tc main_arg5))) (wT0 (V (Proc.devRef .tc main_arg6))) :=
  (keep3 (at2 V) main_v38 (by decide)).trans ((keep2 (at1 V) main_v38 (by decide)).trans (rows38 V))

/-- The first layer's user rows before normalisation. -/
theorem rows77 (V : Valuation τ sig (Elt Ideal)) : at2 V (Proc.devRef .tc main_v77) = refPre (agg (V (Proc.devRef .tc main_arg1)) (V (Proc.devRef .tc main_arg3))) (cnt (V (Proc.devRef .tc main_arg3))) (V (Proc.devRef .tc main_arg0)) (wT0 (V (Proc.devRef .tc main_arg7))) (v0 (V (Proc.devRef .tc main_arg8))) (wT0 (V (Proc.devRef .tc main_arg9))) := by
  refine (P2 (at1 V)).trans ?_
  rw [keepAt1 V main_arg1 (by decide), keepAt1 V main_arg3 (by decide), keepAt1 V main_arg0 (by decide), keepAt1 V main_arg7 (by decide), keepAt1 V main_arg8 (by decide), keepAt1 V main_arg9 (by decide)]

/-- The first layer's users. -/
theorem users1 (V : Valuation τ sig (Elt Ideal)) : at3 V (Proc.devRef .tc main_v106) = (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) := by
  refine (P3 (at2 V)).trans ?_
  rw [rows77 V, keepAt2 V main_arg10 (by decide) (by decide), keepAt2 V main_arg11 (by decide) (by decide)]
  exact halfR _ _ _ _ _ _ _ _
theorem users1_at4 (V : Valuation τ sig (Elt Ideal)) : at4 V (Proc.devRef .tc main_v106) = (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) :=
  (keep4 (at3 V) main_v106 (by decide)).trans (users1 V)
theorem users1_at5 (V : Valuation τ sig (Elt Ideal)) : at5 V (Proc.devRef .tc main_v106) = (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) :=
  (keep5 (at4 V) main_v106 (by decide)).trans (users1_at4 V)

/-- The first layer's items. -/
theorem items1 (V : Valuation τ sig (Elt Ideal)) : at4 V (Proc.devRef .tc main_v135) = (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) := by
  refine (P4 (at3 V)).trans ?_
  rw [rows38_at3 V, keepAt3 V main_arg12 (by decide) (by decide) (by decide), keepAt3 V main_arg13 (by decide) (by decide) (by decide)]
  exact halfR _ _ _ _ _ _ _ _
theorem items1_at5 (V : Valuation τ sig (Elt Ideal)) : at5 V (Proc.devRef .tc main_v135) = (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) :=
  (keep5 (at4 V) main_v135 (by decide)).trans (items1 V)

/-- The second layer's item rows before normalisation. -/
theorem rows174 (V : Valuation τ sig (Elt Ideal)) : at5 V (Proc.devRef .tc main_v174) = refPre (agg (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) (V (Proc.devRef .tc main_arg2))) (cnt (V (Proc.devRef .tc main_arg2))) (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) (wT1 (V (Proc.devRef .tc main_arg4))) (v1 (V (Proc.devRef .tc main_arg5))) (wT1 (V (Proc.devRef .tc main_arg6))) := by
  refine (P5 (at4 V)).trans ?_
  rw [users1_at4 V, items1 V, keepAt4 V main_arg2 (by decide) (by decide) (by decide) (by decide), keepAt4 V main_arg4 (by decide) (by decide) (by decide) (by decide), keepAt4 V main_arg5 (by decide) (by decide) (by decide) (by decide), keepAt4 V main_arg6 (by decide) (by decide) (by decide) (by decide)]
theorem rows174_at7 (V : Valuation τ sig (Elt Ideal)) : at7 V (Proc.devRef .tc main_v174) = refPre (agg (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) (V (Proc.devRef .tc main_arg2))) (cnt (V (Proc.devRef .tc main_arg2))) (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) (wT1 (V (Proc.devRef .tc main_arg4))) (v1 (V (Proc.devRef .tc main_arg5))) (wT1 (V (Proc.devRef .tc main_arg6))) :=
  (keep7 (at6 V) main_v174 (by decide)).trans ((keep6 (at5 V) main_v174 (by decide)).trans (rows174 V))

/-- The second layer's user rows before normalisation. -/
theorem rows213 (V : Valuation τ sig (Elt Ideal)) : at6 V (Proc.devRef .tc main_v213) = refPre (agg (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) (V (Proc.devRef .tc main_arg3))) (cnt (V (Proc.devRef .tc main_arg3))) (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) (wT1 (V (Proc.devRef .tc main_arg7))) (v1 (V (Proc.devRef .tc main_arg8))) (wT1 (V (Proc.devRef .tc main_arg9))) := by
  refine (P6 (at5 V)).trans ?_
  rw [items1_at5 V, users1_at5 V, keepAt5 V main_arg3 (by decide) (by decide) (by decide) (by decide) (by decide), keepAt5 V main_arg7 (by decide) (by decide) (by decide) (by decide) (by decide), keepAt5 V main_arg8 (by decide) (by decide) (by decide) (by decide) (by decide), keepAt5 V main_arg9 (by decide) (by decide) (by decide) (by decide) (by decide)]

/-- The second layer's users. -/
theorem users2 (V : Valuation τ sig (Elt Ideal)) : at7 V (Proc.devRef .tc main_v242) = (user2 (user1 (V (Proc.devRef .tc main_arg0)) (V (Proc.devRef .tc main_arg1)) (V (Proc.devRef .tc main_arg3)) (V (Proc.devRef .tc main_arg7)) (V (Proc.devRef .tc main_arg8)) (V (Proc.devRef .tc main_arg9)) (V (Proc.devRef .tc main_arg10)) (V (Proc.devRef .tc main_arg11))) (item1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg12)) (V (Proc.devRef .tc main_arg13))) (V (Proc.devRef .tc main_arg3)) (V (Proc.devRef .tc main_arg7)) (V (Proc.devRef .tc main_arg8)) (V (Proc.devRef .tc main_arg9)) (V (Proc.devRef .tc main_arg10)) (V (Proc.devRef .tc main_arg11))) := by
  refine (P7 (at6 V)).trans ?_
  rw [rows213 V, keepAt6 V main_arg10 (by decide) (by decide) (by decide) (by decide) (by decide) (by decide), keepAt6 V main_arg11 (by decide) (by decide) (by decide) (by decide) (by decide) (by decide)]
  exact halfR _ _ _ _ _ _ _ _

/-! ## The result, and the arguments, after all 327 operations -/

/-- The result buffer ends at the model's value of the fourteen arguments. -/
theorem result_after (V : Valuation τ sig (Elt Ideal)) :
    after opsAll V (Proc.devRef .tc main_v274) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_all]
  refine (P8 (at7 V)).trans ?_
  rw [users2 V, rows174_at7 V, keepAt7 V main_arg12 (by decide) (by decide) (by decide) (by decide) (by decide) (by decide) (by decide), keepAt7 V main_arg13 (by decide) (by decide) (by decide) (by decide) (by decide) (by decide) (by decide)]
  unfold result
  exact congrArg (stack _) (halfR _ _ _ _ _ _ _ _)

theorem arg_after_0 (V : Valuation τ sig (Elt Ideal)) : after opsAll V (Proc.devRef .tc main_arg0) = V (Proc.devRef .tc main_arg0) := by
  rw [after_all]; exact (keep8 (at7 V) main_arg0 (by decide)).trans (keepAt7 V main_arg0 (by decide) (by decide) (by decide) (by decide) (by decide) (by decide) (by decide))
theorem arg_after_1 (V : Valuation τ sig (Elt Ideal)) : after opsAll V (Proc.devRef .tc main_arg1) = V (Proc.devRef .tc main_arg1) := by
  rw [after_all]; exact (keep8 (at7 V) main_arg1 (by decide)).trans (keepAt7 V main_arg1 (by decide) (by decide) (by decide) (by decide) (by decide) (by decide) (by decide))
theorem arg_after_2 (V : Valuation τ sig (Elt Ideal)) : after opsAll V (Proc.devRef .tc main_arg2) = V (Proc.devRef .tc main_arg2) := by
  rw [after_all]; exact (keep8 (at7 V) main_arg2 (by decide)).trans (keepAt7 V main_arg2 (by decide) (by decide) (by decide) (by decide) (by decide) (by decide) (by decide))
theorem arg_after_3 (V : Valuation τ sig (Elt Ideal)) : after opsAll V (Proc.devRef .tc main_arg3) = V (Proc.devRef .tc main_arg3) := by
  rw [after_all]; exact (keep8 (at7 V) main_arg3 (by decide)).trans (keepAt7 V main_arg3 (by decide) (by decide) (by decide) (by decide) (by decide) (by decide) (by decide))
theorem arg_after_4 (V : Valuation τ sig (Elt Ideal)) : after opsAll V (Proc.devRef .tc main_arg4) = V (Proc.devRef .tc main_arg4) := by
  rw [after_all]; exact (keep8 (at7 V) main_arg4 (by decide)).trans (keepAt7 V main_arg4 (by decide) (by decide) (by decide) (by decide) (by decide) (by decide) (by decide))
theorem arg_after_5 (V : Valuation τ sig (Elt Ideal)) : after opsAll V (Proc.devRef .tc main_arg5) = V (Proc.devRef .tc main_arg5) := by
  rw [after_all]; exact (keep8 (at7 V) main_arg5 (by decide)).trans (keepAt7 V main_arg5 (by decide) (by decide) (by decide) (by decide) (by decide) (by decide) (by decide))
theorem arg_after_6 (V : Valuation τ sig (Elt Ideal)) : after opsAll V (Proc.devRef .tc main_arg6) = V (Proc.devRef .tc main_arg6) := by
  rw [after_all]; exact (keep8 (at7 V) main_arg6 (by decide)).trans (keepAt7 V main_arg6 (by decide) (by decide) (by decide) (by decide) (by decide) (by decide) (by decide))
theorem arg_after_7 (V : Valuation τ sig (Elt Ideal)) : after opsAll V (Proc.devRef .tc main_arg7) = V (Proc.devRef .tc main_arg7) := by
  rw [after_all]; exact (keep8 (at7 V) main_arg7 (by decide)).trans (keepAt7 V main_arg7 (by decide) (by decide) (by decide) (by decide) (by decide) (by decide) (by decide))
theorem arg_after_8 (V : Valuation τ sig (Elt Ideal)) : after opsAll V (Proc.devRef .tc main_arg8) = V (Proc.devRef .tc main_arg8) := by
  rw [after_all]; exact (keep8 (at7 V) main_arg8 (by decide)).trans (keepAt7 V main_arg8 (by decide) (by decide) (by decide) (by decide) (by decide) (by decide) (by decide))
theorem arg_after_9 (V : Valuation τ sig (Elt Ideal)) : after opsAll V (Proc.devRef .tc main_arg9) = V (Proc.devRef .tc main_arg9) := by
  rw [after_all]; exact (keep8 (at7 V) main_arg9 (by decide)).trans (keepAt7 V main_arg9 (by decide) (by decide) (by decide) (by decide) (by decide) (by decide) (by decide))
theorem arg_after_10 (V : Valuation τ sig (Elt Ideal)) : after opsAll V (Proc.devRef .tc main_arg10) = V (Proc.devRef .tc main_arg10) := by
  rw [after_all]; exact (keep8 (at7 V) main_arg10 (by decide)).trans (keepAt7 V main_arg10 (by decide) (by decide) (by decide) (by decide) (by decide) (by decide) (by decide))
theorem arg_after_11 (V : Valuation τ sig (Elt Ideal)) : after opsAll V (Proc.devRef .tc main_arg11) = V (Proc.devRef .tc main_arg11) := by
  rw [after_all]; exact (keep8 (at7 V) main_arg11 (by decide)).trans (keepAt7 V main_arg11 (by decide) (by decide) (by decide) (by decide) (by decide) (by decide) (by decide))
theorem arg_after_12 (V : Valuation τ sig (Elt Ideal)) : after opsAll V (Proc.devRef .tc main_arg12) = V (Proc.devRef .tc main_arg12) := by
  rw [after_all]; exact (keep8 (at7 V) main_arg12 (by decide)).trans (keepAt7 V main_arg12 (by decide) (by decide) (by decide) (by decide) (by decide) (by decide) (by decide))
theorem arg_after_13 (V : Valuation τ sig (Elt Ideal)) : after opsAll V (Proc.devRef .tc main_arg13) = V (Proc.devRef .tc main_arg13) := by
  rw [after_all]; exact (keep8 (at7 V) main_arg13 (by decide)).trans (keepAt7 V main_arg13 (by decide) (by decide) (by decide) (by decide) (by decide) (by decide) (by decide))

/-! ## The run -/

theorem opsAll_sub : (opsAll : List (HloOp τ sig (Elt Ideal))).Forall fun op => op.bufs ⊆ tcRefs τ sig :=
  List.forall_append.mpr ⟨ops1_sub, List.forall_append.mpr ⟨ops2_sub, List.forall_append.mpr ⟨ops3_sub,
    List.forall_append.mpr ⟨ops4_sub, List.forall_append.mpr ⟨ops5_sub, List.forall_append.mpr ⟨ops6_sub,
      List.forall_append.mpr ⟨ops7_sub, ops8_sub⟩⟩⟩⟩⟩⟩⟩

theorem ops1_fresh : (ops1 : List (HloOp τ sig (Elt Ideal))).Forall fun op => op.fresh = ∅ := by
  simp only [List.Forall]; repeat' constructor
theorem ops2_fresh : (ops2 : List (HloOp τ sig (Elt Ideal))).Forall fun op => op.fresh = ∅ := by
  simp only [List.Forall]; repeat' constructor
theorem ops3_fresh : (ops3 : List (HloOp τ sig (Elt Ideal))).Forall fun op => op.fresh = ∅ := by
  simp only [List.Forall]; repeat' constructor
theorem ops4_fresh : (ops4 : List (HloOp τ sig (Elt Ideal))).Forall fun op => op.fresh = ∅ := by
  simp only [List.Forall]; repeat' constructor
theorem ops5_fresh : (ops5 : List (HloOp τ sig (Elt Ideal))).Forall fun op => op.fresh = ∅ := by
  simp only [List.Forall]; repeat' constructor
theorem ops6_fresh : (ops6 : List (HloOp τ sig (Elt Ideal))).Forall fun op => op.fresh = ∅ := by
  simp only [List.Forall]; repeat' constructor
theorem ops7_fresh : (ops7 : List (HloOp τ sig (Elt Ideal))).Forall fun op => op.fresh = ∅ := by
  simp only [List.Forall]; repeat' constructor
theorem ops8_fresh : (ops8 : List (HloOp τ sig (Elt Ideal))).Forall fun op => op.fresh = ∅ := by
  simp only [List.Forall]; repeat' constructor

theorem opsAll_fresh : ∀ op ∈ (opsAll : List (HloOp τ sig (Elt Ideal))), op.fresh = ∅ :=
  List.forall_iff_forall_mem.mp (List.forall_append.mpr ⟨ops1_fresh, List.forall_append.mpr ⟨ops2_fresh,
    List.forall_append.mpr ⟨ops3_fresh, List.forall_append.mpr ⟨ops4_fresh, List.forall_append.mpr ⟨ops5_fresh,
      List.forall_append.mpr ⟨ops6_fresh, List.forall_append.mpr ⟨ops7_fresh, ops8_fresh⟩⟩⟩⟩⟩⟩⟩)

/-- On every device, from any memory with zero counters: every weakly fair execution of the reference terminates with
    its result buffer at the model's value of the fourteen arguments' launch contents, and the arguments unchanged. -/
theorem run_model (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v274)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v274).trans (result_after _),
      (h c main_arg0).trans (arg_after_0 _),
      (h c main_arg1).trans (arg_after_1 _),
      (h c main_arg2).trans (arg_after_2 _),
      (h c main_arg3).trans (arg_after_3 _),
      (h c main_arg4).trans (arg_after_4 _),
      (h c main_arg5).trans (arg_after_5 _),
      (h c main_arg6).trans (arg_after_6 _),
      (h c main_arg7).trans (arg_after_7 _),
      (h c main_arg8).trans (arg_after_8 _),
      (h c main_arg9).trans (arg_after_9 _),
      (h c main_arg10).trans (arg_after_10 _),
      (h c main_arg11).trans (arg_after_11 _),
      (h c main_arg12).trans (arg_after_12 _),
      (h c main_arg13).trans (arg_after_13 _)⟩)
    (run_seq scopedRefs_eq scopedSems_eq defs main (fun _ => opsAll) main_eq (fun _ => opsAll_sub) m ρ (fun _ => opsAll_fresh))

end Cert.ReferenceIdeal.SageRun8

end
-- ==== Proof.lean ====
/-
  The certificate: a two-layer graph convolution (neighbour mean, two 256 × 256 contractions and a bias, layer
  normalisation, positive part) whose dense update runs as four launches of one kernel, against its plain reference.

  At the ideal instance both programs compute one function of the fourteen arguments (`Cert.KernelIdeal.Model.result`).
  They differ in two places: the kernel multiplies the neighbour sums by the reciprocal of the clamped edge count where
  the reference divides by it — the clamped count is at least one, and off zero the quotient is the product with the
  inverse, for every extended real —, and the kernel adds the bias after the second contraction where the reference adds
  it before — addition of extended reals is commutative and associative.  Neither law needs the inputs finite, so the
  precondition is never opened.  The gathers and scatter-adds are the same operations of the same operands in both and
  are never opened.  The frames are the generated ones (the reference's: its run with the result dropped); no
  operation of either program is rewritten at the ideal instance, so `preserves` is trivial.
-/
import proofs.«170343_j45792941310085_1_alg».proof.Defs
import proofs.«170343_j45792941310085_1_alg».proof.Proof.Gen.Kernel
import proofs.«170343_j45792941310085_1_alg».proof.Proof.Gen.Kernel.Skeleton
import proofs.«170343_j45792941310085_1_alg».proof.Proof.Gen.Kernel.Launch
import proofs.«170343_j45792941310085_1_alg».proof.Proof.Gen.Kernel.Points
import proofs.«170343_j45792941310085_1_alg».proof.Proof.Gen.Kernel.Frame
import proofs.«170343_j45792941310085_1_alg».proof.Proof.Gen.KernelIdeal
import proofs.«170343_j45792941310085_1_alg».proof.Proof.Gen.KernelIdeal.Skeleton
import proofs.«170343_j45792941310085_1_alg».proof.Proof.Gen.KernelIdeal.Launch
import proofs.«170343_j45792941310085_1_alg».proof.Proof.Gen.KernelIdeal.Points
import proofs.«170343_j45792941310085_1_alg».proof.Proof.Gen.KernelIdeal.Frame
import proofs.«170343_j45792941310085_1_alg».proof.Proof.Gen.ReferenceIdeal
import proofs.«170343_j45792941310085_1_alg».proof.Proof.Gen.Pre_finite_inputs
import proofs.«170343_j45792941310085_1_alg».proof.Proof.KernelRun
import proofs.«170343_j45792941310085_1_alg».proof.Proof.KernelValue
import proofs.«170343_j45792941310085_1_alg».proof.Proof.RefRun8
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.ReferenceIdeal.SageRun8.run_model m ρ)

/-- Both idealized programs end at the model's value of arguments that agree. -/
theorem algebraic : Cert.algebraic_KernelIdeal_ReferenceIdeal := by
  intro m ρ m' ρ' _ hagree
  refine ⟨fun c => Cert.KernelIdeal.Model.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.SageValue.result_eq m ρ c), (h c).2⟩)
      (Cert.KernelIdeal.SageRun.run_result (F := Ideal) m ρ)
  · refine (θ_run Cert.ReferenceIdeal.defs _ _).mono (fun _ h c => ⟨(h c).1.trans ?_, (h c).2⟩)
      (Cert.ReferenceIdeal.SageRun8.run_model m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
